-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v88)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v88) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v147) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S100000 : Shape := ⟨1, ![100000]⟩
abbrev S512x32 : Shape := ⟨2, ![512, 32]⟩
abbrev S32 : Shape := ⟨1, ![32]⟩
abbrev S32x32 : Shape := ⟨2, ![32, 32]⟩
abbrev S32x16 : Shape := ⟨2, ![32, 16]⟩
abbrev S16 : Shape := ⟨1, ![16]⟩
abbrev S16x10 : Shape := ⟨2, ![16, 10]⟩
abbrev S10 : Shape := ⟨1, ![10]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x32 : S_.BroadcastsInDim S512x32 (![] : Fin 0 → Fin S512x32.rank)
  reducesTo_S512x32_S_d0_1 : S512x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  bcast_S_S16x10 : S_.BroadcastsInDim S16x10 (![] : Fin 0 → Fin S16x10.rank)
  reducesTo_S16x10_S_d0_1 : S16x10.ReducesTo [0, 1] S_
  bcast_S_S10 : S_.BroadcastsInDim S10 (![] : Fin 0 → Fin S10.rank)
  reducesTo_S10_S_d0 : S10.ReducesTo [0] S_

variable [Facts]

def fn_part3 {F : FTy → Type} [FloatOps F] (main_v48 : IVec S_ 1) (main_v49 : FVec F S10 .f32) (main_v50 : FVec F S10 .f32) : IVec S_ 1 :=
  let main_v51 : IVec S10 1 := cmpf .olt main_v49 main_v50
  let main_c_19 : IVec S_ 1 := constantI S_ 1 1#1
  let main_v52 : IVec S_ 1 := (fun x v => Host.reduce IntOp.andi x v reducesTo_S10_S_d0 h_S_) main_v51 main_c_19
  let main_v53 : IVec S_ 1 := andi main_v48 main_v52
  main_v53

def fn_part2 {F : FTy → Type} [FloatOps F] (main_arg9 : FVec F S32x16 .f32) (main_arg10 : FVec F S16 .f32) (main_arg11 : FVec F S16x10 .f32) (main_arg12 : FVec F S10 .f32) (main_v33 : IVec S_ 1) : IVec S_ 1 :=
  let main_v34 : FVec F S32x16 .f32 := Host.absf main_arg9
  let main_cst_12 : FVec F S_ .f32 := constant S_ .f32 0x7F800000#32
  let main_v35 : FVec F S32x16 .f32 := broadcastInDim S32x16 ![] bcast_S_S32x16 main_cst_12
  let main_v36 : IVec S32x16 1 := cmpf .olt main_v34 main_v35
  let main_c_13 : IVec S_ 1 := constantI S_ 1 1#1
  let main_v37 : IVec S_ 1 := (fun x v => Host.reduce IntOp.andi x v reducesTo_S32x16_S_d0_1 h_S_) main_v36 main_c_13
  let main_v38 : IVec S_ 1 := andi main_v33 main_v37
  let main_v39 : FVec F S16 .f32 := Host.absf main_arg10
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  let main_v44 : FVec F S16x10 .f32 := Host.absf main_arg11
  let main_cst_16 : FVec F S_ .f32 := constant S_ .f32 0x7F800000#32
  let main_v45 : FVec F S16x10 .f32 := broadcastInDim S16x10 ![] bcast_S_S16x10 main_cst_16
  let main_v46 : IVec S16x10 1 := cmpf .olt main_v44 main_v45
  let main_c_17 : IVec S_ 1 := constantI S_ 1 1#1
  let main_v47 : IVec S_ 1 := (fun x v => Host.reduce IntOp.andi x v reducesTo_S16x10_S_d0_1 h_S_) main_v46 main_c_17
  let main_v48 : IVec S_ 1 := andi main_v43 main_v47
  let main_v49 : FVec F S10 .f32 := Host.absf main_arg12
  let main_cst_18 : FVec F S_ .f32 := constant S_ .f32 0x7F800000#32
  let main_v50 : FVec F S10 .f32 := broadcastInDim S10 ![] bcast_S_S10 main_cst_18
  fn_part3 (F := F) main_v48 main_v49 main_v50

def fn_part1 {F : FTy → Type} [FloatOps F] (main_arg6 : FVec F S32 .f32) (main_arg7 : FVec F S32x32 .f32) (main_arg8 : FVec F S32 .f32) (main_arg9 : FVec F S32x16 .f32) (main_arg10 : FVec F S16 .f32) (main_arg11 : FVec F S16x10 .f32) (main_arg12 : FVec F S10 .f32) (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  let main_v19 : FVec F S32 .f32 := Host.absf main_arg6
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x32 .f32 := Host.absf main_arg7
  let main_cst_8 : FVec F S_ .f32 := constant S_ .f32 0x7F800000#32
  let main_v25 : FVec F S32x32 .f32 := broadcastInDim S32x32 ![] bcast_S_S32x32 main_cst_8
  let main_v26 : IVec S32x32 1 := cmpf .olt main_v24 main_v25
  let main_c_9 : IVec S_ 1 := constantI S_ 1 1#1
  let main_v27 : IVec S_ 1 := (fun x v => Host.reduce IntOp.andi x v reducesTo_S32x32_S_d0_1 h_S_) main_v26 main_c_9
  let main_v28 : IVec S_ 1 := andi main_v23 main_v27
  let main_v29 : FVec F S32 .f32 := Host.absf main_arg8
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S100000x512 .f32) (main_arg1 : IVec S2x3200000 32) (main_arg2 : IVec S100000 32) (main_arg3 : FVec F S512x32 .f32) (main_arg4 : FVec F S32 .f32) (main_arg5 : FVec F S32x32 .f32) (main_arg6 : FVec F S32 .f32) (main_arg7 : FVec F S32x32 .f32) (main_arg8 : FVec F S32 .f32) (main_arg9 : FVec F S32x16 .f32) (main_arg10 : FVec F S16 .f32) (main_arg11 : FVec F S16x10 .f32) (main_arg12 : FVec F S10 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x32 .f32 := Host.absf main_arg3
  let main_cst_0 : FVec F S_ .f32 := constant S_ .f32 0x7F800000#32
  let main_v5 : FVec F S512x32 .f32 := broadcastInDim S512x32 ![] bcast_S_S512x32 main_cst_0
  let main_v6 : IVec S512x32 1 := cmpf .olt main_v4 main_v5
  let main_c_1 : IVec S_ 1 := constantI S_ 1 1#1
  let main_v7 : IVec S_ 1 := (fun x v => Host.reduce IntOp.andi x v reducesTo_S512x32_S_d0_1 h_S_) main_v6 main_c_1
  let main_v8 : IVec S_ 1 := andi main_v3 main_v7
  let main_v9 : FVec F S32 .f32 := Host.absf main_arg4
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x32 .f32 := Host.absf main_arg5
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_arg6 main_arg7 main_arg8 main_arg9 main_arg10 main_arg11 main_arg12 main_v13 main_v16
-- ==== Kernel.lean ====
abbrev S100000x512 : Shape := ⟨2, ![100000, 512]⟩
abbrev S2x3200000 : Shape := ⟨2, ![2, 3200000]⟩
abbrev S100000 : Shape := ⟨1, ![100000]⟩
abbrev S512x32 : Shape := ⟨2, ![512, 32]⟩
abbrev S32 : Shape := ⟨1, ![32]⟩
abbrev S32x32 : Shape := ⟨2, ![32, 32]⟩
abbrev S32x16 : Shape := ⟨2, ![32, 16]⟩
abbrev S16 : Shape := ⟨1, ![16]⟩
abbrev S16x10 : Shape := ⟨2, ![16, 10]⟩
abbrev S10 : Shape := ⟨1, ![10]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S100000x32 : Shape := ⟨2, ![100000, 32]⟩
abbrev S4000x512 : Shape := ⟨2, ![4000, 512]⟩
abbrev S4000x32 : Shape := ⟨2, ![4000, 32]⟩
abbrev S1x32 : Shape := ⟨2, ![1, 32]⟩
abbrev S3200000x32 : Shape := ⟨2, ![3200000, 32]⟩
abbrev S100000x1 : Shape := ⟨2, ![100000, 1]⟩
abbrev S20000x32 : Shape := ⟨2, ![20000, 32]⟩
abbrev S100000x16 : Shape := ⟨2, ![100000, 16]⟩
abbrev S20000x16 : Shape := ⟨2, ![20000, 16]⟩
abbrev S1x16 : Shape := ⟨2, ![1, 16]⟩
abbrev S100000x10 : Shape := ⟨2, ![100000, 10]⟩
abbrev S20000x10 : Shape := ⟨2, ![20000, 10]⟩
abbrev S1x10 : Shape := ⟨2, ![1, 10]⟩

abbrev nBuf : Space → Nat
  | .hbm => 121
  | .vmem => 45
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S100000, .i32⟩
  | .hbm, ⟨3, _⟩ => ⟨S512x32, .f32⟩
  | .hbm, ⟨4, _⟩ => ⟨S32, .f32⟩
  | .hbm, ⟨5, _⟩ => ⟨S32x32, .f32⟩
  | .hbm, ⟨6, _⟩ => ⟨S32, .f32⟩
  | .hbm, ⟨7, _⟩ => ⟨S32x32, .f32⟩
  | .hbm, ⟨8, _⟩ => ⟨S32, .f32⟩
  | .hbm, ⟨9, _⟩ => ⟨S32x16, .f32⟩
  | .hbm, ⟨10, _⟩ => ⟨S16, .f32⟩
  | .hbm, ⟨11, _⟩ => ⟨S16x10, .f32⟩
  | .hbm, ⟨12, _⟩ => ⟨S10, .f32⟩
  | .hbm, ⟨13, _⟩ => ⟨S1x3200000, .i32⟩
  | .hbm, ⟨14, _⟩ => ⟨S3200000, .i32⟩
  | .hbm, ⟨15, _⟩ => ⟨S1x3200000, .i32⟩
  | .hbm, ⟨16, _⟩ => ⟨S3200000, .i32⟩
  | .hbm, ⟨17, _⟩ => ⟨S_, .f32⟩
  | .hbm, ⟨18, _⟩ => ⟨S3200000, .f32⟩
  | .hbm, ⟨19, _⟩ => ⟨S_, .f32⟩
  | .hbm, ⟨20, _⟩ => ⟨S100000, .f32⟩
  | .hbm, ⟨21, _⟩ => ⟨S3200000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S3200000, .i32⟩
  | .hbm, ⟨30, _⟩ => ⟨S3200000, .i1⟩
  | .hbm, ⟨31, _⟩ => ⟨S_, .i32⟩
  | .hbm, ⟨32, _⟩ => ⟨S3200000, .i32⟩
  | .hbm, ⟨33, _⟩ => ⟨S3200000, .i32⟩
  | .hbm, ⟨34, _⟩ => ⟨S3200000, .i32⟩
  | .hbm, ⟨35, _⟩ => ⟨S3200000x1, .i32⟩
  | .hbm, ⟨36, _⟩ => ⟨S3200000, .f32⟩
  | .hbm, ⟨37, _⟩ => ⟨S_, .i32⟩
  | .hbm, ⟨38, _⟩ => ⟨S3200000, .i32⟩
  | .hbm, ⟨39, _⟩ => ⟨S3200000, .i1⟩
  | .hbm, ⟨40, _⟩ => ⟨S_, .i32⟩
  | .hbm, ⟨41, _⟩ => ⟨S3200000, .i32⟩
  | .hbm, ⟨42, _⟩ => ⟨S3200000, .i32⟩
  | .hbm, ⟨43, _⟩ => ⟨S3200000, .i32⟩
  | .hbm, ⟨44, _⟩ => ⟨S3200000x1, .i32⟩
  | .hbm, ⟨45, _⟩ => ⟨S3200000, .f32⟩
  | .hbm, ⟨46, _⟩ => ⟨S3200000, .f32⟩
  | .hbm, ⟨47, _⟩ => ⟨S_, .f32⟩
  | .hbm, ⟨48, _⟩ => ⟨S32, .f32⟩
  | .hbm, ⟨49, _⟩ => ⟨S100000x32, .f32⟩
  | .hbm, ⟨50, _⟩ => ⟨S_, .i32⟩
  | .hbm, ⟨51, _⟩ => ⟨S3200000, .i32⟩
  | .hbm, ⟨52, _⟩ => ⟨S3200000, .i1⟩
  | .hbm, ⟨53, _⟩ => ⟨S_, .i32⟩
  | .hbm, ⟨54, _⟩ => ⟨S3200000, .i32⟩
  | .hbm, ⟨55, _⟩ => ⟨S3200000, .i32⟩
  | .hbm, ⟨56, _⟩ => ⟨S3200000, .i32⟩
  | .hbm, ⟨57, _⟩ => ⟨S3200000x1, .i32⟩
  | .hbm, ⟨58, _⟩ => ⟨S3200000x32, .f32⟩
  | .hbm, ⟨59, _⟩ => ⟨S3200000x1, .f32⟩
  | .hbm, ⟨60, _⟩ => ⟨S3200000x32, .f32⟩
  | .hbm, ⟨61, _⟩ => ⟨S3200000x32, .f32⟩
  | .hbm, ⟨62, _⟩ => ⟨S_, .f32⟩
  | .hbm, ⟨63, _⟩ => ⟨S100000x32, .f32⟩
  | .hbm, ⟨64, _⟩ => ⟨S3200000x1, .i32⟩
  | .hbm, ⟨65, _⟩ => ⟨S100000x32, .f32⟩
  | .hbm, ⟨66, _⟩ => ⟨S100000x1, .f32⟩
  | .hbm, ⟨67, _⟩ => ⟨S100000x32, .f32⟩
  | .hbm, ⟨68, _⟩ => ⟨S100000x32, .f32⟩
  | .hbm, ⟨69, _⟩ => ⟨S100000x32, .f32⟩
  | .hbm, ⟨70, _⟩ => ⟨S100000x32, .f32⟩
  | .hbm, ⟨71, _⟩ => ⟨S_, .f32⟩
  | .hbm, ⟨72, _⟩ => ⟨S32, .f32⟩
  | .hbm, ⟨73, _⟩ => ⟨S100000x32, .f32⟩
  | .hbm, ⟨74, _⟩ => ⟨S_, .i32⟩
  | .hbm, ⟨75, _⟩ => ⟨S3200000, .i32⟩
  | .hbm, ⟨76, _⟩ => ⟨S3200000, .i1⟩
  | .hbm, ⟨77, _⟩ => ⟨S_, .i32⟩
  | .hbm, ⟨78, _⟩ => ⟨S3200000, .i32⟩
  | .hbm, ⟨79, _⟩ => ⟨S3200000, .i32⟩
  | .hbm, ⟨80, _⟩ => ⟨S3200000, .i32⟩
  | .hbm, ⟨81, _⟩ => ⟨S3200000x1, .i32⟩
  | .hbm, ⟨82, _⟩ => ⟨S3200000x32, .f32⟩
  | .hbm, ⟨83, _⟩ => ⟨S3200000x1, .f32⟩
  | .hbm, ⟨84, _⟩ => ⟨S3200000x32, .f32⟩
  | .hbm, ⟨85, _⟩ => ⟨S3200000x32, .f32⟩
  | .hbm, ⟨86, _⟩ => ⟨S_, .f32⟩
  | .hbm, ⟨87, _⟩ => ⟨S100000x32, .f32⟩
  | .hbm, ⟨88, _⟩ => ⟨S3200000x1, .i32⟩
  | .hbm, ⟨89, _⟩ => ⟨S100000x32, .f32⟩
  | .hbm, ⟨90, _⟩ => ⟨S100000x1, .f32⟩
  | .hbm, ⟨91, _⟩ => ⟨S100000x32, .f32⟩
  | .hbm, ⟨92, _⟩ => ⟨S100000x32, .f32⟩
  | .hbm, ⟨93, _⟩ => ⟨S100000x32, .f32⟩
  | .hbm, ⟨94, _⟩ => ⟨S100000x32, .f32⟩
  | .hbm, ⟨95, _⟩ => ⟨S_, .f32⟩
  | .hbm, ⟨96, _⟩ => ⟨S32, .f32⟩
  | .hbm, ⟨97, _⟩ => ⟨S100000x32, .f32⟩
  | .hbm, ⟨98, _⟩ => ⟨S_, .i32⟩
  | .hbm, ⟨99, _⟩ => ⟨S3200000, .i32⟩
  | .hbm, ⟨100, _⟩ => ⟨S3200000, .i1⟩
  | .hbm, ⟨101, _⟩ => ⟨S_, .i32⟩
  | .hbm, ⟨102, _⟩ => ⟨S3200000, .i32⟩
  | .hbm, ⟨103, _⟩ => ⟨S3200000, .i32⟩
  | .hbm, ⟨104, _⟩ => ⟨S3200000, .i32⟩
  | .hbm, ⟨105, _⟩ => ⟨S3200000x1, .i32⟩
  | .hbm, ⟨106, _⟩ => ⟨S3200000x32, .f32⟩
  | .hbm, ⟨107, _⟩ => ⟨S3200000x1, .f32⟩
  | .hbm, ⟨108, _⟩ => ⟨S3200000x32, .f32⟩
  | .hbm, ⟨109, _⟩ => ⟨S3200000x32, .f32⟩
  | .hbm, ⟨110, _⟩ => ⟨S_, .f32⟩
  | .hbm, ⟨111, _⟩ => ⟨S100000x32, .f32⟩
  | .hbm, ⟨112, _⟩ => ⟨S3200000x1, .i32⟩
  | .hbm, ⟨113, _⟩ => ⟨S100000x32, .f32⟩
  | .hbm, ⟨114, _⟩ => ⟨S100000x1, .f32⟩
  | .hbm, ⟨115, _⟩ => ⟨S100000x32, .f32⟩
  | .hbm, ⟨116, _⟩ => ⟨S100000x32, .f32⟩
  | .hbm, ⟨117, _⟩ => ⟨S100000x32, .f32⟩
  | .hbm, ⟨118, _⟩ => ⟨S100000x32, .f32⟩
  | .hbm, ⟨119, _⟩ => ⟨S100000x16, .f32⟩
  | .hbm, ⟨120, _⟩ => ⟨S100000x10, .f32⟩
  | .local _ .vmem, ⟨0, _⟩ => ⟨S4000x512, .f32⟩
  | .local _ .vmem, ⟨1, _⟩ => ⟨S4000x512, .f32⟩
  | .local _ .vmem, ⟨2, _⟩ => ⟨S512x32, .f32⟩
  | .local _ .vmem, ⟨3, _⟩ => ⟨S32, .f32⟩
  | .local _ .vmem, ⟨4, _⟩ => ⟨S4000x32, .f32⟩
  | .local _ .vmem, ⟨5, _⟩ => ⟨S4000x32, .f32⟩
  | .local _ .vmem, ⟨6, _⟩ => ⟨S20000x32, .f32⟩
  | .local _ .vmem, ⟨7, _⟩ => ⟨S20000x32, .f32⟩
  | .local _ .vmem, ⟨8, _⟩ => ⟨S32, .f32⟩
  | .local _ .vmem, ⟨9, _⟩ => ⟨S20000x32, .f32⟩
  | .local _ .vmem, ⟨10, _⟩ => ⟨S20000x32, .f32⟩
  | .local _ .vmem, ⟨11, _⟩ => ⟨S20000x32, .f32⟩
  | .local _ .vmem, ⟨12, _⟩ => ⟨S20000x32, .f32⟩
  | .local _ .vmem, ⟨13, _⟩ => ⟨S32x32, .f32⟩
  | .local _ .vmem, ⟨14, _⟩ => ⟨S32, .f32⟩
  | .local _ .vmem, ⟨15, _⟩ => ⟨S20000x32, .f32⟩
  | .local _ .vmem, ⟨16, _⟩ => ⟨S20000x32, .f32⟩
  | .local _ .vmem, ⟨17, _⟩ => ⟨S20000x32, .f32⟩
  | .local _ .vmem, ⟨18, _⟩ => ⟨S20000x32, .f32⟩
  | .local _ .vmem, ⟨19, _⟩ => ⟨S32, .f32⟩
  | .local _ .vmem, ⟨20, _⟩ => ⟨S20000x32, .f32⟩
  | .local _ .vmem, ⟨21, _⟩ => ⟨S20000x32, .f32⟩
  | .local _ .vmem, ⟨22, _⟩ => ⟨S20000x32, .f32⟩
  | .local _ .vmem, ⟨23, _⟩ => ⟨S20000x32, .f32⟩
  | .local _ .vmem, ⟨24, _⟩ => ⟨S32x32, .f32⟩
  | .local _ .vmem, ⟨25, _⟩ => ⟨S32, .f32⟩
  | .local _ .vmem, ⟨26, _⟩ => ⟨S20000x32, .f32⟩
  | .local _ .vmem, ⟨27, _⟩ => ⟨S20000x32, .f32⟩
  | .local _ .vmem, ⟨28, _⟩ => ⟨S20000x32, .f32⟩
  | .local _ .vmem, ⟨29, _⟩ => ⟨S20000x32, .f32⟩
  | .local _ .vmem, ⟨30, _⟩ => ⟨S32, .f32⟩
  | .local _ .vmem, ⟨31, _⟩ => ⟨S20000x32, .f32⟩
  | .local _ .vmem, ⟨32, _⟩ => ⟨S20000x32, .f32⟩
  | .local _ .vmem, ⟨33, _⟩ => ⟨S20000x32, .f32⟩
  | .local _ .vmem, ⟨34, _⟩ => ⟨S20000x32, .f32⟩
  | .local _ .vmem, ⟨35, _⟩ => ⟨S32x16, .f32⟩
  | .local _ .vmem, ⟨36, _⟩ => ⟨S16, .f32⟩
  | .local _ .vmem, ⟨37, _⟩ => ⟨S20000x16, .f32⟩
  | .local _ .vmem, ⟨38, _⟩ => ⟨S20000x16, .f32⟩
  | .local _ .vmem, ⟨39, _⟩ => ⟨S20000x16, .f32⟩
  | .local _ .vmem, ⟨40, _⟩ => ⟨S20000x16, .f32⟩
  | .local _ .vmem, ⟨41, _⟩ => ⟨S16x10, .f32⟩
  | .local _ .vmem, ⟨42, _⟩ => ⟨S10, .f32⟩
  | .local _ .vmem, ⟨43, _⟩ => ⟨S20000x10, .f32⟩
  | .local _ .vmem, ⟨44, _⟩ => ⟨S20000x10, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_c : Ref sig .tc := ⟨.hbm, 28, rfl⟩
abbrev main_v12 : Ref sig .tc := ⟨.hbm, 29, rfl⟩
abbrev main_v13 : Ref sig .tc := ⟨.hbm, 30, rfl⟩
abbrev main_c_2 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_c_3 : Ref sig .tc := ⟨.hbm, 37, rfl⟩
abbrev main_v19 : Ref sig .tc := ⟨.hbm, 38, rfl⟩
abbrev main_v20 : Ref sig .tc := ⟨.hbm, 39, rfl⟩
abbrev main_c_4 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_5 : Ref sig .tc := ⟨.hbm, 47, rfl⟩
abbrev main_v27 : Ref sig .tc := ⟨.hbm, 48, rfl⟩
abbrev main_v28 : Ref sig .tc := ⟨.hbm, 49, rfl⟩
abbrev main_c_6 : Ref sig .tc := ⟨.hbm, 50, rfl⟩
abbrev main_v29 : Ref sig .tc := ⟨.hbm, 51, rfl⟩
abbrev main_v30 : Ref sig .tc := ⟨.hbm, 52, rfl⟩
abbrev main_c_7 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_8 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_9 : Ref sig .tc := ⟨.hbm, 71, rfl⟩
abbrev main_v47 : Ref sig .tc := ⟨.hbm, 72, rfl⟩
abbrev main_v48 : Ref sig .tc := ⟨.hbm, 73, rfl⟩
abbrev main_c_10 : Ref sig .tc := ⟨.hbm, 74, rfl⟩
abbrev main_v49 : Ref sig .tc := ⟨.hbm, 75, rfl⟩
abbrev main_v50 : Ref sig .tc := ⟨.hbm, 76, rfl⟩
abbrev main_c_11 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_12 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_cst_13 : Ref sig .tc := ⟨.hbm, 95, rfl⟩
abbrev main_v67 : Ref sig .tc := ⟨.hbm, 96, rfl⟩
abbrev main_v68 : Ref sig .tc := ⟨.hbm, 97, rfl⟩
abbrev main_c_14 : Ref sig .tc := ⟨.hbm, 98, rfl⟩
abbrev main_v69 : Ref sig .tc := ⟨.hbm, 99, rfl⟩
abbrev main_v70 : Ref sig .tc := ⟨.hbm, 100, rfl⟩
abbrev main_c_15 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_cst_16 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg2_0 : Ref sig .tc := ⟨.vmem, 25, rfl⟩
abbrev cc4_stg3_0 : Ref sig .tc := ⟨.vmem, 26, rfl⟩
abbrev cc4_stg3_1 : Ref sig .tc := ⟨.vmem, 27, rfl⟩
abbrev cc5_stg0_0 : Ref sig .tc := ⟨.vmem, 28, rfl⟩
abbrev cc5_stg0_1 : Ref sig .tc := ⟨.vmem, 29, rfl⟩
abbrev cc5_stg1_0 : Ref sig .tc := ⟨.vmem, 30, rfl⟩
abbrev cc5_stg2_0 : Ref sig .tc := ⟨.vmem, 31, rfl⟩
abbrev cc5_stg2_1 : Ref sig .tc := ⟨.vmem, 32, rfl⟩
abbrev cc6_stg0_0 : Ref sig .tc := ⟨.vmem, 33, rfl⟩
abbrev cc6_stg0_1 : Ref sig .tc := ⟨.vmem, 34, rfl⟩
abbrev cc6_stg1_0 : Ref sig .tc := ⟨.vmem, 35, rfl⟩
abbrev cc6_stg2_0 : Ref sig .tc := ⟨.vmem, 36, rfl⟩
abbrev cc6_stg3_0 : Ref sig .tc := ⟨.vmem, 37, rfl⟩
abbrev cc6_stg3_1 : Ref sig .tc := ⟨.vmem, 38, rfl⟩
abbrev cc7_stg0_0 : Ref sig .tc := ⟨.vmem, 39, rfl⟩
abbrev cc7_stg0_1 : Ref sig .tc := ⟨.vmem, 40, rfl⟩
abbrev cc7_stg1_0 : Ref sig .tc := ⟨.vmem, 41, rfl⟩
abbrev cc7_stg2_0 : Ref sig .tc := ⟨.vmem, 42, rfl⟩
abbrev cc7_stg3_0 : Ref sig .tc := ⟨.vmem, 43, rfl⟩
abbrev cc7_stg3_1 : Ref sig .tc := ⟨.vmem, 44, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc4_sem3_0 : DmaSem sig := 26
abbrev cc4_sem3_1 : DmaSem sig := 27
abbrev cc5_sem0_0 : DmaSem sig := 28
abbrev cc5_sem0_1 : DmaSem sig := 29
abbrev cc5_sem1_0 : DmaSem sig := 30
abbrev cc5_sem2_0 : DmaSem sig := 31
abbrev cc5_sem2_1 : DmaSem sig := 32
abbrev cc6_sem0_0 : DmaSem sig := 33
abbrev cc6_sem0_1 : DmaSem sig := 34
abbrev cc6_sem1_0 : DmaSem sig := 35
abbrev cc6_sem2_0 : DmaSem sig := 36
abbrev cc6_sem3_0 : DmaSem sig := 37
abbrev cc6_sem3_1 : DmaSem sig := 38
abbrev cc7_sem0_0 : DmaSem sig := 39
abbrev cc7_sem0_1 : DmaSem sig := 40
abbrev cc7_sem1_0 : DmaSem sig := 41
abbrev cc7_sem2_0 : DmaSem sig := 42
abbrev cc7_sem3_0 : DmaSem sig := 43
abbrev cc7_sem3_1 : DmaSem sig := 44

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S20000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S20000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S20000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S32x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S20000x32 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S20000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S20000x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![5], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S20000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S32x32 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S32 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S20000x32 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![5], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S20000x32 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S32 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S20000x32 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![5], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S20000x32 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S32x16 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S16 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S20000x16 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![5], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S20000x16 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S16x10 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S10 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S20000x10 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S_S32 : S_.BroadcastsInDim S32 (![] : Fin 0 → Fin S32.rank)
  inb_S4000x512_S4000x512_0_0 : ∀ a, (![0, 0] : Fin 2 → Nat) a + S4000x512.size a ≤ S4000x512.size a
  h_S4000x512 : 0 < S4000x512.numel
  bitsLt_bf16_f32 : FTy.bits .bf16 < FTy.bits .f32
  inb_S512x32_S512x32_0_0 : ∀ a, (![0, 0] : Fin 2 → Nat) a + S512x32.size a ≤ S512x32.size a
  h_S512x32 : 0 < S512x32.numel
  inb_S32_S32_0 : ∀ a, (![0] : Fin 1 → Nat) a + S32.size a ≤ S32.size a
  h_S32 : 0 < S32.numel
  shapeCasts_S32_S32 : S32.ShapeCasts S32
  shapeCasts_S32_S1x32 : S32.ShapeCasts S1x32
  broadcasts_S1x32_S4000x32 : S1x32.Broadcasts S4000x32
  inb_S4000x32_S4000x32_0_0 : ∀ a, (![0, 0] : Fin 2 → Nat) a + S4000x32.size a ≤ S4000x32.size a
  h_S4000x32 : 0 < S4000x32.numel
  bcast_S3200000x1_S3200000x32_0_1 : S3200000x1.BroadcastsInDim S3200000x32 (![0, 1] : Fin 2 → Fin S3200000x32.rank)
  bcast_S_S100000x32 : S_.BroadcastsInDim S100000x32 (![] : Fin 0 → Fin S100000x32.rank)
  bcast_S100000_S100000x1_0 : S100000.BroadcastsInDim S100000x1 (![0] : Fin 1 → Fin S100000x1.rank)
  bcast_S100000x1_S100000x32_0_1 : S100000x1.BroadcastsInDim S100000x32 (![0, 1] : Fin 2 → Fin S100000x32.rank)
  inb_S20000x32_S20000x32_0_0 : ∀ a, (![0, 0] : Fin 2 → Nat) a + S20000x32.size a ≤ S20000x32.size a
  h_S20000x32 : 0 < S20000x32.numel
  shapeCasts_S20000x32_S20000x32 : S20000x32.ShapeCasts S20000x32
  broadcasts_S1x32_S20000x32 : S1x32.Broadcasts S20000x32
  inb_S32x32_S32x32_0_0 : ∀ a, (![0, 0] : Fin 2 → Nat) a + S32x32.size a ≤ S32x32.size a
  h_S32x32 : 0 < S32x32.numel
  inb_S32x16_S32x16_0_0 : ∀ a, (![0, 0] : Fin 2 → Nat) a + S32x16.size a ≤ S32x16.size a
  h_S32x16 : 0 < S32x16.numel
  inb_S16_S16_0 : ∀ a, (![0] : Fin 1 → Nat) a + S16.size a ≤ S16.size a
  h_S16 : 0 < S16.numel
  shapeCasts_S16_S1x16 : S16.ShapeCasts S1x16
  broadcasts_S1x16_S20000x16 : S1x16.Broadcasts S20000x16
  inb_S20000x16_S20000x16_0_0 : ∀ a, (![0, 0] : Fin 2 → Nat) a + S20000x16.size a ≤ S20000x16.size a
  h_S20000x16 : 0 < S20000x16.numel
  shapeCasts_S20000x16_S20000x16 : S20000x16.ShapeCasts S20000x16
  inb_S16x10_S16x10_0_0 : ∀ a, (![0, 0] : Fin 2 → Nat) a + S16x10.size a ≤ S16x10.size a
  h_S16x10 : 0 < S16x10.numel
  inb_S10_S10_0 : ∀ a, (![0] : Fin 1 → Nat) a + S10.size a ≤ S10.size a
  h_S10 : 0 < S10.numel
  shapeCasts_S10_S1x10 : S10.ShapeCasts S1x10
  broadcasts_S1x10_S20000x10 : S1x10.Broadcasts S20000x10
  inb_S20000x10_S20000x10_0_0 : ∀ a, (![0, 0] : Fin 2 → Nat) a + S20000x10.size a ≤ S20000x10.size a
  h_S20000x10 : 0 < S20000x10.numel
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  dot_S4000x512_S512x32_S4000x32_1_0_0_1_n_n_wf : DotDims.WF S4000x512 S512x32 S4000x32 [1] [0] [0] [1] [] []
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  dot_S20000x32_S32x32_S20000x32_1_0_0_1_n_n_wf : DotDims.WF S20000x32 S32x32 S20000x32 [1] [0] [0] [1] [] []
  dot_S20000x32_S32x16_S20000x16_1_0_0_1_n_n_wf : DotDims.WF S20000x32 S32x16 S20000x16 [1] [0] [0] [1] [] []
  dot_S20000x16_S16x10_S20000x10_1_0_0_1_n_n_wf : DotDims.WF S20000x16 S16x10 S20000x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x512.size a ≤ S100000x512.size a
  hwx0_0 : ∀ i : grid0.Coords, EltTy.bits .f32 = 32 ∨ (Rect.block (s := S100000x512) S4000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x32.size a ≤ S512x32.size a
  hwx0_1 : ∀ i : grid0.Coords, EltTy.bits .f32 = 32 ∨ (Rect.block (s := S512x32) S512x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32.size a ≤ S32.size a
  hwx0_2 : ∀ i : grid0.Coords, EltTy.bits .f32 = 32 ∨ (Rect.block (s := S32) S32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x32.size a ≤ S100000x32.size a
  hwx0_3 : ∀ i : grid0.Coords, EltTy.bits .f32 = 32 ∨ (Rect.block (s := S100000x32) S4000x32.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S20000x32.size a ≤ S100000x32.size a
  hwx1_0 : ∀ i : grid1.Coords, EltTy.bits .f32 = 32 ∨ (Rect.block (s := S100000x32) S20000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32.size a ≤ S32.size a
  hwx1_1 : ∀ i : grid1.Coords, EltTy.bits .f32 = 32 ∨ (Rect.block (s := S32) S32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S20000x32.size a ≤ S100000x32.size a
  hwx1_2 : ∀ i : grid1.Coords, EltTy.bits .f32 = 32 ∨ (Rect.block (s := S100000x32) S20000x32.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S20000x32.size a ≤ S100000x32.size a
  hwx2_0 : ∀ i : grid2.Coords, EltTy.bits .f32 = 32 ∨ (Rect.block (s := S100000x32) S20000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S32x32.size a ≤ S32x32.size a
  hwx2_1 : ∀ i : grid2.Coords, EltTy.bits .f32 = 32 ∨ (Rect.block (s := S32x32) S32x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S32.size a ≤ S32.size a
  hwx2_2 : ∀ i : grid2.Coords, EltTy.bits .f32 = 32 ∨ (Rect.block (s := S32) S32.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S20000x32.size a ≤ S100000x32.size a
  hwx2_3 : ∀ i : grid2.Coords, EltTy.bits .f32 = 32 ∨ (Rect.block (s := S100000x32) S20000x32.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S20000x32.size a ≤ S100000x32.size a
  hwx3_0 : ∀ i : grid3.Coords, EltTy.bits .f32 = 32 ∨ (Rect.block (s := S100000x32) S20000x32.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S32.size a ≤ S32.size a
  hwx3_1 : ∀ i : grid3.Coords, EltTy.bits .f32 = 32 ∨ (Rect.block (s := S32) S32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S20000x32.size a ≤ S100000x32.size a
  hwx3_2 : ∀ i : grid3.Coords, EltTy.bits .f32 = 32 ∨ (Rect.block (s := S100000x32) S20000x32.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S20000x32.size a ≤ S100000x32.size a
  hwx4_0 : ∀ i : grid4.Coords, EltTy.bits .f32 = 32 ∨ (Rect.block (s := S100000x32) S20000x32.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S32x32.size a ≤ S32x32.size a
  hwx4_1 : ∀ i : grid4.Coords, EltTy.bits .f32 = 32 ∨ (Rect.block (s := S32x32) S32x32.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S32.size a ≤ S32.size a
  hwx4_2 : ∀ i : grid4.Coords, EltTy.bits .f32 = 32 ∨ (Rect.block (s := S32) S32.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S20000x32.size a ≤ S100000x32.size a
  hwx4_3 : ∀ i : grid4.Coords, EltTy.bits .f32 = 32 ∨ (Rect.block (s := S100000x32) S20000x32.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S20000x32.size a ≤ S100000x32.size a
  hwx5_0 : ∀ i : grid5.Coords, EltTy.bits .f32 = 32 ∨ (Rect.block (s := S100000x32) S20000x32.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S32.size a ≤ S32.size a
  hwx5_1 : ∀ i : grid5.Coords, EltTy.bits .f32 = 32 ∨ (Rect.block (s := S32) S32.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S20000x32.size a ≤ S100000x32.size a
  hwx5_2 : ∀ i : grid5.Coords, EltTy.bits .f32 = 32 ∨ (Rect.block (s := S100000x32) S20000x32.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S20000x32.size a ≤ S100000x32.size a
  hwx6_0 : ∀ i : grid6.Coords, EltTy.bits .f32 = 32 ∨ (Rect.block (s := S100000x32) S20000x32.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S32x16.size a ≤ S32x16.size a
  hwx6_1 : ∀ i : grid6.Coords, EltTy.bits .f32 = 32 ∨ (Rect.block (s := S32x16) S32x16.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S16.size a ≤ S16.size a
  hwx6_2 : ∀ i : grid6.Coords, EltTy.bits .f32 = 32 ∨ (Rect.block (s := S16) S16.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S20000x16.size a ≤ S100000x16.size a
  hwx6_3 : ∀ i : grid6.Coords, EltTy.bits .f32 = 32 ∨ (Rect.block (s := S100000x16) S20000x16.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S20000x16.size a ≤ S100000x16.size a
  hwx7_0 : ∀ i : grid7.Coords, EltTy.bits .f32 = 32 ∨ (Rect.block (s := S100000x16) S20000x16.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S16x10.size a ≤ S16x10.size a
  hwx7_1 : ∀ i : grid7.Coords, EltTy.bits .f32 = 32 ∨ (Rect.block (s := S16x10) S16x10.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S10.size a ≤ S10.size a
  hwx7_2 : ∀ i : grid7.Coords, EltTy.bits .f32 = 32 ∨ (Rect.block (s := S10) S10.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S20000x10.size a ≤ S100000x10.size a
  hwx7_3 : ∀ i : grid7.Coords, EltTy.bits .f32 = 32 ∨ (Rect.block (s := S100000x10) S20000x10.size (cc7_transform_3 i) (hinb7_3 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def dot_S4000x512_S512x32_S4000x32_1_0_0_1_n_n : DotDims S4000x512 S512x32 S4000x32 where
  lhsContracting := [1]
  rhsContracting := [0]
  lhsNonContracting := [0]
  rhsNonContracting := [1]
  lhsBatch := []
  rhsBatch := []
  wf := dot_S4000x512_S512x32_S4000x32_1_0_0_1_n_n_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def dot_S20000x32_S32x32_S20000x32_1_0_0_1_n_n : DotDims S20000x32 S32x32 S20000x32 where
  lhsContracting := [1]
  rhsContracting := [0]
  lhsNonContracting := [0]
  rhsNonContracting := [1]
  lhsBatch := []
  rhsBatch := []
  wf := dot_S20000x32_S32x32_S20000x32_1_0_0_1_n_n_wf
def dot_S20000x32_S32x16_S20000x16_1_0_0_1_n_n : DotDims S20000x32 S32x16 S20000x16 where
  lhsContracting := [1]
  rhsContracting := [0]
  lhsNonContracting := [0]
  rhsNonContracting := [1]
  lhsBatch := []
  rhsBatch := []
  wf := dot_S20000x32_S32x16_S20000x16_1_0_0_1_n_n_wf
def dot_S20000x16_S16x10_S20000x10_1_0_0_1_n_n : DotDims S20000x16 S16x10 S20000x10 where
  lhsContracting := [1]
  rhsContracting := [0]
  lhsNonContracting := [0]
  rhsNonContracting := [1]
  lhsBatch := []
  rhsBatch := []
  wf := dot_S20000x16_S16x10_S20000x10_1_0_0_1_n_n_wf

abbrev win0_0 : Pipeline.Window sig grid0 :=
  Pipeline.Window.ofSpec (Memref.whole main_arg0) S4000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v28) S4000x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v45) S20000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46) S20000x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v46) S20000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S32x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v48) S20000x32.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v65) S20000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v66) S20000x32.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v66) S20000x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S32x32.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v67) S32.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v68) S20000x32.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v85) S20000x32.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg8) S32.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v86) S20000x32.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v86) S20000x32.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg9) S32x16.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_arg10) S16.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v87) S20000x16.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v87) S20000x16.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg11) S16x10.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_arg12) S10.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v88) S20000x10.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S100000 : Shape := ⟨1, ![100000]⟩
abbrev S512x32 : Shape := ⟨2, ![512, 32]⟩
abbrev S32 : Shape := ⟨1, ![32]⟩
abbrev S32x32 : Shape := ⟨2, ![32, 32]⟩
abbrev S32x16 : Shape := ⟨2, ![32, 16]⟩
abbrev S16 : Shape := ⟨1, ![16]⟩
abbrev S16x10 : Shape := ⟨2, ![16, 10]⟩
abbrev S10 : Shape := ⟨1, ![10]⟩
abbrev S1x3200000 : Shape := ⟨2, ![1, 3200000]⟩
abbrev S3200000 : Shape := ⟨1, ![3200000]⟩
abbrev S100000x32 : Shape := ⟨2, ![100000, 32]⟩
abbrev S_ : Shape := ⟨0, ![]⟩
abbrev S3200000x1 : Shape := ⟨2, ![3200000, 1]⟩
abbrev S3200000x32 : Shape := ⟨2, ![3200000, 32]⟩
abbrev S100000x1 : Shape := ⟨2, ![100000, 1]⟩
abbrev S1x32 : Shape := ⟨2, ![1, 32]⟩
abbrev S100000x16 : Shape := ⟨2, ![100000, 16]⟩
abbrev S1x16 : Shape := ⟨2, ![1, 16]⟩
abbrev S100000x10 : Shape := ⟨2, ![100000, 10]⟩
abbrev S1x10 : Shape := ⟨2, ![1, 10]⟩

abbrev nBuf : Space → Nat
  | .hbm => 199
  | .vmem => 0
  | .smem => 0
  | _ => 0

abbrev hbmTy0_0 (i : Nat) : BufTy := match i % 128 with
  | 0 => ⟨S100000x512, .f32⟩
  | 1 => ⟨S2x3200000, .i32⟩
  | 2 => ⟨S100000, .i32⟩
  | 3 => ⟨S512x32, .f32⟩
  | 4 => ⟨S32, .f32⟩
  | 5 => ⟨S32x32, .f32⟩
  | 6 => ⟨S32, .f32⟩
  | 7 => ⟨S32x32, .f32⟩
  | 8 => ⟨S32, .f32⟩
  | 9 => ⟨S32x16, .f32⟩
  | 10 => ⟨S16, .f32⟩
  | 11 => ⟨S16x10, .f32⟩
  | 12 => ⟨S10, .f32⟩
  | 13 => ⟨S1x3200000, .i32⟩
  | 14 => ⟨S3200000, .i32⟩
  | 15 => ⟨S1x3200000, .i32⟩
  | 16 => ⟨S3200000, .i32⟩
  | 17 => ⟨S100000x32, .f32⟩
  | 18 => ⟨S_, .f32⟩
  | 19 => ⟨S3200000, .f32⟩
  | 20 => ⟨S_, .f32⟩
  | 21 => ⟨S100000, .f32⟩
  | 22 => ⟨S3200000x1, .i32⟩
  | 23 => ⟨S100000, .f32⟩
  | 24 => ⟨S_, .f32⟩
  | 25 => ⟨S100000, .f32⟩
  | 26 => ⟨S100000, .f32⟩
  | 27 => ⟨S100000, .f32⟩
  | 28 => ⟨S_, .i32⟩
  | 29 => ⟨S3200000, .i32⟩
  | 30 => ⟨S3200000, .i1⟩
  | 31 => ⟨S_, .i32⟩
  | 32 => ⟨S3200000, .i32⟩
  | 33 => ⟨S3200000, .i32⟩
  | 34 => ⟨S3200000, .i32⟩
  | 35 => ⟨S3200000x1, .i32⟩
  | 36 => ⟨S3200000, .f32⟩
  | 37 => ⟨S_, .i32⟩
  | 38 => ⟨S3200000, .i32⟩
  | 39 => ⟨S3200000, .i1⟩
  | 40 => ⟨S_, .i32⟩
  | 41 => ⟨S3200000, .i32⟩
  | 42 => ⟨S3200000, .i32⟩
  | 43 => ⟨S3200000, .i32⟩
  | 44 => ⟨S3200000x1, .i32⟩
  | 45 => ⟨S3200000, .f32⟩
  | 46 => ⟨S3200000, .f32⟩
  | 47 => ⟨S_, .i32⟩
  | 48 => ⟨S3200000, .i32⟩
  | 49 => ⟨S3200000, .i1⟩
  | 50 => ⟨S_, .i32⟩
  | 51 => ⟨S3200000, .i32⟩
  | 52 => ⟨S3200000, .i32⟩
  | 53 => ⟨S3200000, .i32⟩
  | 54 => ⟨S3200000x1, .i32⟩
  | 55 => ⟨S3200000x32, .f32⟩
  | 56 => ⟨S3200000x1, .f32⟩
  | 57 => ⟨S3200000x32, .f32⟩
  | 58 => ⟨S3200000x32, .f32⟩
  | 59 => ⟨S_, .f32⟩
  | 60 => ⟨S100000x32, .f32⟩
  | 61 => ⟨S3200000x1, .i32⟩
  | 62 => ⟨S100000x32, .f32⟩
  | 63 => ⟨S100000, .f32⟩
  | 64 => ⟨S100000x1, .f32⟩
  | 65 => ⟨S100000x32, .f32⟩
  | 66 => ⟨S100000x32, .f32⟩
  | 67 => ⟨S100000x32, .f32⟩
  | 68 => ⟨S1x32, .f32⟩
  | 69 => ⟨S100000x32, .f32⟩
  | 70 => ⟨S100000x32, .f32⟩
  | 71 => ⟨S_, .f32⟩
  | 72 => ⟨S100000x32, .f32⟩
  | 73 => ⟨S100000x32, .f32⟩
  | 74 => ⟨S100000x32, .f32⟩
  | 75 => ⟨S_, .f32⟩
  | 76 => ⟨S3200000, .f32⟩
  | 77 => ⟨S_, .f32⟩
  | 78 => ⟨S100000, .f32⟩
  | 79 => ⟨S3200000x1, .i32⟩
  | 80 => ⟨S100000, .f32⟩
  | 81 => ⟨S_, .f32⟩
  | 82 => ⟨S100000, .f32⟩
  | 83 => ⟨S100000, .f32⟩
  | 84 => ⟨S100000, .f32⟩
  | 85 => ⟨S_, .i32⟩
  | 86 => ⟨S3200000, .i32⟩
  | 87 => ⟨S3200000, .i1⟩
  | 88 => ⟨S_, .i32⟩
  | 89 => ⟨S3200000, .i32⟩
  | 90 => ⟨S3200000, .i32⟩
  | 91 => ⟨S3200000, .i32⟩
  | 92 => ⟨S3200000x1, .i32⟩
  | 93 => ⟨S3200000, .f32⟩
  | 94 => ⟨S_, .i32⟩
  | 95 => ⟨S3200000, .i32⟩
  | 96 => ⟨S3200000, .i1⟩
  | 97 => ⟨S_, .i32⟩
  | 98 => ⟨S3200000, .i32⟩
  | 99 => ⟨S3200000, .i32⟩
  | 100 => ⟨S3200000, .i32⟩
  | 101 => ⟨S3200000x1, .i32⟩
  | 102 => ⟨S3200000, .f32⟩
  | 103 => ⟨S3200000, .f32⟩
  | 104 => ⟨S_, .i32⟩
  | 105 => ⟨S3200000, .i32⟩
  | 106 => ⟨S3200000, .i1⟩
  | 107 => ⟨S_, .i32⟩
  | 108 => ⟨S3200000, .i32⟩
  | 109 => ⟨S3200000, .i32⟩
  | 110 => ⟨S3200000, .i32⟩
  | 111 => ⟨S3200000x1, .i32⟩
  | 112 => ⟨S3200000x32, .f32⟩
  | 113 => ⟨S3200000x1, .f32⟩
  | 114 => ⟨S3200000x32, .f32⟩
  | 115 => ⟨S3200000x32, .f32⟩
  | 116 => ⟨S_, .f32⟩
  | 117 => ⟨S100000x32, .f32⟩
  | 118 => ⟨S3200000x1, .i32⟩
  | 119 => ⟨S100000x32, .f32⟩
  | 120 => ⟨S100000, .f32⟩
  | 121 => ⟨S100000x1, .f32⟩
  | 122 => ⟨S100000x32, .f32⟩
  | 123 => ⟨S100000x32, .f32⟩
  | 124 => ⟨S100000x32, .f32⟩
  | 125 => ⟨S1x32, .f32⟩
  | 126 => ⟨S100000x32, .f32⟩
  | 127 => ⟨S100000x32, .f32⟩
  | _ => ⟨S100000x512, .f32⟩

abbrev hbmTy0_1 (i : Nat) : BufTy := match i % 128 with
  | 0 => ⟨S_, .f32⟩
  | 1 => ⟨S100000x32, .f32⟩
  | 2 => ⟨S100000x32, .f32⟩
  | 3 => ⟨S100000x32, .f32⟩
  | 4 => ⟨S_, .f32⟩
  | 5 => ⟨S3200000, .f32⟩
  | 6 => ⟨S_, .f32⟩
  | 7 => ⟨S100000, .f32⟩
  | 8 => ⟨S3200000x1, .i32⟩
  | 9 => ⟨S100000, .f32⟩
  | 10 => ⟨S_, .f32⟩
  | 11 => ⟨S100000, .f32⟩
  | 12 => ⟨S100000, .f32⟩
  | 13 => ⟨S100000, .f32⟩
  | 14 => ⟨S_, .i32⟩
  | 15 => ⟨S3200000, .i32⟩
  | 16 => ⟨S3200000, .i1⟩
  | 17 => ⟨S_, .i32⟩
  | 18 => ⟨S3200000, .i32⟩
  | 19 => ⟨S3200000, .i32⟩
  | 20 => ⟨S3200000, .i32⟩
  | 21 => ⟨S3200000x1, .i32⟩
  | 22 => ⟨S3200000, .f32⟩
  | 23 => ⟨S_, .i32⟩
  | 24 => ⟨S3200000, .i32⟩
  | 25 => ⟨S3200000, .i1⟩
  | 26 => ⟨S_, .i32⟩
  | 27 => ⟨S3200000, .i32⟩
  | 28 => ⟨S3200000, .i32⟩
  | 29 => ⟨S3200000, .i32⟩
  | 30 => ⟨S3200000x1, .i32⟩
  | 31 => ⟨S3200000, .f32⟩
  | 32 => ⟨S3200000, .f32⟩
  | 33 => ⟨S_, .i32⟩
  | 34 => ⟨S3200000, .i32⟩
  | 35 => ⟨S3200000, .i1⟩
  | 36 => ⟨S_, .i32⟩
  | 37 => ⟨S3200000, .i32⟩
  | 38 => ⟨S3200000, .i32⟩
  | 39 => ⟨S3200000, .i32⟩
  | 40 => ⟨S3200000x1, .i32⟩
  | 41 => ⟨S3200000x32, .f32⟩
  | 42 => ⟨S3200000x1, .f32⟩
  | 43 => ⟨S3200000x32, .f32⟩
  | 44 => ⟨S3200000x32, .f32⟩
  | 45 => ⟨S_, .f32⟩
  | 46 => ⟨S100000x32, .f32⟩
  | 47 => ⟨S3200000x1, .i32⟩
  | 48 => ⟨S100000x32, .f32⟩
  | 49 => ⟨S100000, .f32⟩
  | 50 => ⟨S100000x1, .f32⟩
  | 51 => ⟨S100000x32, .f32⟩
  | 52 => ⟨S100000x32, .f32⟩
  | 53 => ⟨S100000x32, .f32⟩
  | 54 => ⟨S1x32, .f32⟩
  | 55 => ⟨S100000x32, .f32⟩
  | 56 => ⟨S100000x32, .f32⟩
  | 57 => ⟨S_, .f32⟩
  | 58 => ⟨S100000x32, .f32⟩
  | 59 => ⟨S100000x32, .f32⟩
  | 60 => ⟨S100000x16, .f32⟩
  | 61 => ⟨S1x16, .f32⟩
  | 62 => ⟨S100000x16, .f32⟩
  | 63 => ⟨S100000x16, .f32⟩
  | 64 => ⟨S_, .f32⟩
  | 65 => ⟨S100000x16, .f32⟩
  | 66 => ⟨S100000x16, .f32⟩
  | 67 => ⟨S100000x10, .f32⟩
  | 68 => ⟨S1x10, .f32⟩
  | 69 => ⟨S100000x10, .f32⟩
  | 70 => ⟨S100000x10, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_c : Ref sig .tc := ⟨.hbm, 28, rfl⟩
abbrev main_v12 : Ref sig .tc := ⟨.hbm, 29, rfl⟩
abbrev main_v13 : Ref sig .tc := ⟨.hbm, 30, rfl⟩
abbrev main_c_2 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_c_3 : Ref sig .tc := ⟨.hbm, 37, rfl⟩
abbrev main_v19 : Ref sig .tc := ⟨.hbm, 38, rfl⟩
abbrev main_v20 : Ref sig .tc := ⟨.hbm, 39, rfl⟩
abbrev main_c_4 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_c_5 : Ref sig .tc := ⟨.hbm, 47, rfl⟩
abbrev main_v27 : Ref sig .tc := ⟨.hbm, 48, rfl⟩
abbrev main_v28 : Ref sig .tc := ⟨.hbm, 49, rfl⟩
abbrev main_c_6 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_7 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_call0_cst : Ref sig .tc := ⟨.hbm, 71, rfl⟩
abbrev main_call0_v0 : Ref sig .tc := ⟨.hbm, 72, rfl⟩
abbrev main_v48 : Ref sig .tc := ⟨.hbm, 73, rfl⟩
abbrev main_v49 : Ref sig .tc := ⟨.hbm, 74, rfl⟩
abbrev main_cst_8 : Ref sig .tc := ⟨.hbm, 75, rfl⟩
abbrev main_v50 : Ref sig .tc := ⟨.hbm, 76, rfl⟩
abbrev main_cst_9 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_cst_10 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_c_11 : Ref sig .tc := ⟨.hbm, 85, rfl⟩
abbrev main_v57 : Ref sig .tc := ⟨.hbm, 86, rfl⟩
abbrev main_v58 : Ref sig .tc := ⟨.hbm, 87, rfl⟩
abbrev main_c_12 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_c_13 : Ref sig .tc := ⟨.hbm, 94, rfl⟩
abbrev main_v64 : Ref sig .tc := ⟨.hbm, 95, rfl⟩
abbrev main_v65 : Ref sig .tc := ⟨.hbm, 96, rfl⟩
abbrev main_c_14 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_c_15 : Ref sig .tc := ⟨.hbm, 104, rfl⟩
abbrev main_v72 : Ref sig .tc := ⟨.hbm, 105, rfl⟩
abbrev main_v73 : Ref sig .tc := ⟨.hbm, 106, rfl⟩
abbrev main_c_16 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_cst_17 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_call1_cst : Ref sig .tc := ⟨.hbm, 128, rfl⟩
abbrev main_call1_v0 : Ref sig .tc := ⟨.hbm, 129, rfl⟩
abbrev main_v93 : Ref sig .tc := ⟨.hbm, 130, rfl⟩
abbrev main_v94 : Ref sig .tc := ⟨.hbm, 131, rfl⟩
abbrev main_cst_18 : Ref sig .tc := ⟨.hbm, 132, rfl⟩
abbrev main_v95 : Ref sig .tc := ⟨.hbm, 133, rfl⟩
abbrev main_cst_19 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_cst_20 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_c_21 : Ref sig .tc := ⟨.hbm, 142, rfl⟩
abbrev main_v102 : Ref sig .tc := ⟨.hbm, 143, rfl⟩
abbrev main_v103 : Ref sig .tc := ⟨.hbm, 144, rfl⟩
abbrev main_c_22 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_c_23 : Ref sig .tc := ⟨.hbm, 151, rfl⟩
abbrev main_v109 : Ref sig .tc := ⟨.hbm, 152, rfl⟩
abbrev main_v110 : Ref sig .tc := ⟨.hbm, 153, rfl⟩
abbrev main_c_24 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_c_25 : Ref sig .tc := ⟨.hbm, 161, rfl⟩
abbrev main_v117 : Ref sig .tc := ⟨.hbm, 162, rfl⟩
abbrev main_v118 : Ref sig .tc := ⟨.hbm, 163, rfl⟩
abbrev main_c_26 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_cst_27 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_call2_cst : Ref sig .tc := ⟨.hbm, 185, rfl⟩
abbrev main_call2_v0 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_call3_cst : Ref sig .tc := ⟨.hbm, 192, rfl⟩
abbrev main_call3_v0 : Ref sig .tc := ⟨.hbm, 193, rfl⟩
abbrev main_v143 : Ref sig .tc := ⟨.hbm, 194, rfl⟩
abbrev main_v144 : Ref sig .tc := ⟨.hbm, 195, rfl⟩
abbrev main_v145 : Ref sig .tc := ⟨.hbm, 196, rfl⟩
abbrev main_v146 : Ref sig .tc := ⟨.hbm, 197, rfl⟩
abbrev main_v147 : Ref sig .tc := ⟨.hbm, 198, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S3200000x1_S3200000x32_0_1 : S3200000x1.BroadcastsInDim S3200000x32 (![0, 1] : Fin 2 → Fin S3200000x32.rank)
  bcast_S_S100000x32 : S_.BroadcastsInDim S100000x32 (![] : Fin 0 → Fin S100000x32.rank)
  bcast_S100000_S100000x1_0 : S100000.BroadcastsInDim S100000x1 (![0] : Fin 1 → Fin S100000x1.rank)
  bcast_S100000x1_S100000x32_0_1 : S100000x1.BroadcastsInDim S100000x32 (![0, 1] : Fin 2 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S100000x16 : S_.BroadcastsInDim S100000x16 (![] : Fin 0 → Fin S100000x16.rank)
  bcast_S10_S1x10_1 : S10.BroadcastsInDim S1x10 (![1] : Fin 1 → Fin S1x10.rank)
  bcast_S1x10_S100000x10_0_1 : S1x10.BroadcastsInDim S100000x10 (![0, 1] : Fin 2 → Fin S100000x10.rank)
  dot_S100000x512_S512x32_S100000x32_1_0_0_1_n_n_wf : DotDims.WF S100000x512 S512x32 S100000x32 [1] [0] [0] [1] [] []
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  dot_S100000x32_S32x32_S100000x32_1_0_0_1_n_n_wf : DotDims.WF S100000x32 S32x32 S100000x32 [1] [0] [0] [1] [] []
  dot_S100000x32_S32x16_S100000x16_1_0_0_1_n_n_wf : DotDims.WF S100000x32 S32x16 S100000x16 [1] [0] [0] [1] [] []
  dot_S100000x16_S16x10_S100000x10_1_0_0_1_n_n_wf : DotDims.WF S100000x16 S16x10 S100000x10 [1] [0] [0] [1] [] []

variable [Facts₀]

def dot_S100000x512_S512x32_S100000x32_1_0_0_1_n_n : DotDims S100000x512 S512x32 S100000x32 where
  lhsContracting := [1]
  rhsContracting := [0]
  lhsNonContracting := [0]
  rhsNonContracting := [1]
  lhsBatch := []
  rhsBatch := []
  wf := dot_S100000x512_S512x32_S100000x32_1_0_0_1_n_n_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def dot_S100000x32_S32x16_S100000x16_1_0_0_1_n_n : DotDims S100000x32 S32x16 S100000x16 where
  lhsContracting := [1]
  rhsContracting := [0]
  lhsNonContracting := [0]
  rhsNonContracting := [1]
  lhsBatch := []
  rhsBatch := []
  wf := dot_S100000x32_S32x16_S100000x16_1_0_0_1_n_n_wf
def dot_S100000x16_S16x10_S100000x10_1_0_0_1_n_n : DotDims S100000x16 S16x10 S100000x10 where
  lhsContracting := [1]
  rhsContracting := [0]
  lhsNonContracting := [0]
  rhsNonContracting := [1]
  lhsBatch := []
  rhsBatch := []
  wf := dot_S100000x16_S16x10_S100000x10_1_0_0_1_n_n_wf

class Facts : Prop extends Facts₀ where

variable [Facts]
-- ==== Proof.Spec.lean ====
/-
  The layers of the network as functions of whole arrays, index by index, on the extended reals.

  A dense layer sends a row `x_p` of its input to `x_p · W + b`: entry `(p, q)` is
  `∑ j, X (p, j) * W (j, q) + B q`. With the zero bias it is the plain matrix product (`a + 0 = a` on every
  extended real, the infinities included). `relu` is `max · 0`. Nothing here needs an entry to be finite:
  only the definitions and `add_zero` are used.
-/
import Idealize.ShloMosaic.PureOps.Ideal
import Idealize.ShloMosaic.Lib.ValueIdx

noncomputable section

namespace Cert.Gcn

open Idealize.ShloMosaic Idealize.ShloMosaic.ValueIdx

/-- Entry `(p, q)` of `X · W + B` (the bias `B` added to every row). -/
def affineAt {n k o : ℕ} (X : (⟨2, ![n, k]⟩ : Shape).Idx → EReal) (W : (⟨2, ![k, o]⟩ : Shape).Idx → EReal)
    (B : (⟨1, ![o]⟩ : Shape).Idx → EReal) (p : Fin n) (q : Fin o) : EReal :=
  (∑ j : Fin k, X (ix2 p j) * W (ix2 j q)) + B (ix1 q)

/-- `X · W + B` as a whole array. -/
def affine {n k o : ℕ} (X : (⟨2, ![n, k]⟩ : Shape).Idx → EReal) (W : (⟨2, ![k, o]⟩ : Shape).Idx → EReal)
    (B : (⟨1, ![o]⟩ : Shape).Idx → EReal) : (⟨2, ![n, o]⟩ : Shape).Idx → EReal :=
  fun i => affineAt X W B (i 0) (i 1)

/-- `relu (X · W + B)` as a whole array. -/
def affineRelu {n k o : ℕ} (X : (⟨2, ![n, k]⟩ : Shape).Idx → EReal) (W : (⟨2, ![k, o]⟩ : Shape).Idx → EReal)
    (B : (⟨1, ![o]⟩ : Shape).Idx → EReal) : (⟨2, ![n, o]⟩ : Shape).Idx → EReal :=
  fun i => max (affineAt X W B (i 0) (i 1)) 0

/-- `relu (A + B)`, the bias `B` added to every row of `A`. -/
def biasRelu {n o : ℕ} (A : (⟨2, ![n, o]⟩ : Shape).Idx → EReal) (B : (⟨1, ![o]⟩ : Shape).Idx → EReal) :
    (⟨2, ![n, o]⟩ : Shape).Idx → EReal :=
  fun i => max (A i + B (ix1 (i 1))) 0

/-- The zero bias. -/
def zeroBias (o : ℕ) : (⟨1, ![o]⟩ : Shape).Idx → EReal := fun _ => 0

theorem affine_ix2 {n k o : ℕ} (X : (⟨2, ![n, k]⟩ : Shape).Idx → EReal) (W : (⟨2, ![k, o]⟩ : Shape).Idx → EReal)
    (B : (⟨1, ![o]⟩ : Shape).Idx → EReal) (p : Fin n) (q : Fin o) :
    affine X W B (ix2 p q) = (∑ j : Fin k, X (ix2 p j) * W (ix2 j q)) + B (ix1 q) := rfl

theorem affineRelu_ix2 {n k o : ℕ} (X : (⟨2, ![n, k]⟩ : Shape).Idx → EReal) (W : (⟨2, ![k, o]⟩ : Shape).Idx → EReal)
    (B : (⟨1, ![o]⟩ : Shape).Idx → EReal) (p : Fin n) (q : Fin o) :
    affineRelu X W B (ix2 p q) = max ((∑ j : Fin k, X (ix2 p j) * W (ix2 j q)) + B (ix1 q)) 0 := rfl

theorem biasRelu_ix2 {n o : ℕ} (A : (⟨2, ![n, o]⟩ : Shape).Idx → EReal) (B : (⟨1, ![o]⟩ : Shape).Idx → EReal)
    (p : Fin n) (q : Fin o) : biasRelu A B (ix2 p q) = max (A (ix2 p q) + B (ix1 q)) 0 := rfl

/-- With the zero bias a dense layer is the matrix product: `a + 0 = a` on the extended reals. -/
theorem affine_zeroBias_ix2 {n k o : ℕ} (X : (⟨2, ![n, k]⟩ : Shape).Idx → EReal) (W : (⟨2, ![k, o]⟩ : Shape).Idx → EReal)
    (p : Fin n) (q : Fin o) :
    affine X W (zeroBias o) (ix2 p q) = ∑ j : Fin k, X (ix2 p j) * W (ix2 j q) := by
  rw [affine_ix2]; exact add_zero _

end Cert.Gcn

end
-- ==== Proof.Aggregate.lean ====
/-
  The message-passing stage of a graph-convolution layer, as ONE function of the node features and the edge list.

  From the edge list `e : [2, E]` (row 0 the sources, row 1 the destinations, a negative index wrapped by adding the
  number of nodes): the in-degree plus one of every node is a scatter-add of ones at the destinations plus one;
  `dinv` is its inverse square root; an edge's weight is `dinv src · dinv dst`; and the aggregate of node features
  `h : [N, 32]` is the scatter-add, at the destinations, of the source rows of `h` scaled by the edge weights, plus
  `h` scaled row by row by `dinv²` (the self-loop). Both programs compute this stage with the same operations in the
  same order, so it is kept closed: the certificate only ever needs that equal features give equal aggregates.
-/
import proofs.«182054_j13451837571225_1_alg».proof.ReferenceIdeal
import proofs.«182054_j13451837571225_1_alg».proof.Proof.Gen.ReferenceIdeal

noncomputable section

namespace Cert.Gcn

open Cert.ReferenceIdeal Cert.ReferenceIdeal.Facts₀ Idealize.ShloMosaic

variable {F : FTy → Type} [FloatOps F]

/-- The edges' source nodes: row 0 of the edge list. -/
def srcOf (e : (⟨S2x3200000, .i32⟩ : BufTy).Contents (Elt F)) : (⟨S3200000, .i32⟩ : BufTy).Contents (Elt F) :=
  shapeCast _ (extractStridedSlice S1x3200000 ![0, 0] e slices_S2x3200000_S1x3200000_0_0) shapeCasts_S1x3200000_S3200000

/-- The edges' destination nodes: row 1 of the edge list. -/
def dstOf (e : (⟨S2x3200000, .i32⟩ : BufTy).Contents (Elt F)) : (⟨S3200000, .i32⟩ : BufTy).Contents (Elt F) :=
  shapeCast _ (extractStridedSlice S1x3200000 ![1, 0] e slices_S2x3200000_S1x3200000_1_0) shapeCasts_S1x3200000_S3200000

/-- Node indices made ready for a gather: a negative index wrapped by adding the number of nodes, as a column. -/
def wrapIdx (s : (⟨S3200000, .i32⟩ : BufTy).Contents (Elt F)) : (⟨S3200000x1, .i32⟩ : BufTy).Contents (Elt F) :=
  broadcastInDim S3200000x1 ![0] bcast_S3200000_S3200000x1_0
    (select (cmpi .slt s (broadcastInDim S3200000 ![] bcast_S_S3200000 (constantI S_ 32 0#32)))
      (addi s (broadcastInDim S3200000 ![] bcast_S_S3200000 (constantI S_ 32 100000#32))) s)

/-- `1 / sqrt (in-degree + 1)` of every node. -/
def dinvOf (e : (⟨S2x3200000, .i32⟩ : BufTy).Contents (Elt F)) : (⟨S100000, .f32⟩ : BufTy).Contents (Elt F) :=
  Host.rsqrt (addf
    (Host.scatterAdd scatter_S100000_S3200000x1_S3200000_n_0_0_1
      (broadcastInDim S100000 ![] bcast_S_S100000 (constant (F := F) S_ .f32 0x00000000#32))
      (broadcastInDim S3200000x1 ![0] bcast_S3200000_S3200000x1_0 (dstOf e))
      (broadcastInDim S3200000 ![] bcast_S_S3200000 (constant (F := F) S_ .f32 0x3F800000#32)))
    (broadcastInDim S100000 ![] bcast_S_S100000 (constant (F := F) S_ .f32 0x3F800000#32)))

/-- An edge's weight: `dinv` at its source times `dinv` at its destination. -/
def normOf (e : (⟨S2x3200000, .i32⟩ : BufTy).Contents (Elt F)) : (⟨S3200000, .f32⟩ : BufTy).Contents (Elt F) :=
  mulf (Host.gather gather_S100000_S3200000x1_S3200000_n_0_n_n_0_1_1 (dinvOf e) (wrapIdx (srcOf e)))
    (Host.gather gather_S100000_S3200000x1_S3200000_n_0_n_n_0_1_1 (dinvOf e) (wrapIdx (dstOf e)))

/-- The self-loop's weight: `dinv²` of every node. -/
def dinv2Of (e : (⟨S2x3200000, .i32⟩ : BufTy).Contents (Elt F)) : (⟨S100000, .f32⟩ : BufTy).Contents (Elt F) :=
  mulf (dinvOf e) (dinvOf e)

/-- The aggregate from its operands: features `h`, the edges' sources `s` and destinations `d`, the edge weights `nrm`
    and the self-loop weights `dv2` — weighted source rows summed at the destinations, plus the self-loop term. -/
def aggregateOf (h : (⟨S100000x32, .f32⟩ : BufTy).Contents (Elt F)) (s d : (⟨S3200000, .i32⟩ : BufTy).Contents (Elt F))
    (nrm : (⟨S3200000, .f32⟩ : BufTy).Contents (Elt F)) (dv2 : (⟨S100000, .f32⟩ : BufTy).Contents (Elt F)) :
    (⟨S100000x32, .f32⟩ : BufTy).Contents (Elt F) :=
  addf
    (Host.scatterAdd scatter_S100000x32_S3200000x1_S3200000x32_1_0_0_1
      (broadcastInDim S100000x32 ![] bcast_S_S100000x32 (constant (F := F) S_ .f32 0x00000000#32))
      (broadcastInDim S3200000x1 ![0] bcast_S3200000_S3200000x1_0 d)
      (mulf (Host.gather gather_S100000x32_S3200000x1_S3200000x32_1_0_n_n_0_1_132 h (wrapIdx s))
        (broadcastInDim S3200000x32 ![0, 1] bcast_S3200000x1_S3200000x32_0_1
          (broadcastInDim S3200000x1 ![0] bcast_S3200000_S3200000x1_0 nrm))))
    (mulf h
      (broadcastInDim S100000x32 ![0, 1] bcast_S100000x1_S100000x32_0_1
        (broadcastInDim S100000x1 ![0] bcast_S100000_S100000x1_0 dv2)))

/-- The aggregate of features `h` over the edge list `e`. -/
def aggregate (h : (⟨S100000x32, .f32⟩ : BufTy).Contents (Elt F)) (e : (⟨S2x3200000, .i32⟩ : BufTy).Contents (Elt F)) :
    (⟨S100000x32, .f32⟩ : BufTy).Contents (Elt F) :=
  aggregateOf h (srcOf e) (dstOf e) (normOf e) (dinv2Of e)

end Cert.Gcn

end
-- ==== Proof.Network.lean ====
/-
  The whole network as one function of its arguments: three graph-convolution layers
  `relu (aggregate (x · W) + b)`, a dense layer with `relu`, and a last dense layer. The matrix products inside the
  convolution layers carry the zero bias.
-/
import proofs.«182054_j13451837571225_1_alg».proof.Proof.Spec
import proofs.«182054_j13451837571225_1_alg».proof.Proof.Aggregate

noncomputable section

namespace Cert.Gcn

open Cert.ReferenceIdeal Idealize.ShloMosaic

/-- The network's output `[100000, 10]` from the node features, the edge list and the five layers' weights and biases. -/
def network (x0 : (⟨S100000x512, .f32⟩ : BufTy).Contents (Elt Ideal)) (e : (⟨S2x3200000, .i32⟩ : BufTy).Contents (Elt Ideal))
    (w1 : (⟨S512x32, .f32⟩ : BufTy).Contents (Elt Ideal)) (b1 : (⟨S32, .f32⟩ : BufTy).Contents (Elt Ideal)) (w2 : (⟨S32x32, .f32⟩ : BufTy).Contents (Elt Ideal)) (b2 : (⟨S32, .f32⟩ : BufTy).Contents (Elt Ideal))
    (w3 : (⟨S32x32, .f32⟩ : BufTy).Contents (Elt Ideal)) (b3 : (⟨S32, .f32⟩ : BufTy).Contents (Elt Ideal)) (l1 : (⟨S32x16, .f32⟩ : BufTy).Contents (Elt Ideal)) (c1 : (⟨S16, .f32⟩ : BufTy).Contents (Elt Ideal))
    (l2 : (⟨S16x10, .f32⟩ : BufTy).Contents (Elt Ideal)) (c2 : (⟨S10, .f32⟩ : BufTy).Contents (Elt Ideal)) : (⟨S100000x10, .f32⟩ : BufTy).Contents (Elt Ideal) :=
  affine (affineRelu (biasRelu (aggregate (F := Ideal) (affine (biasRelu (aggregate (F := Ideal) (affine (biasRelu (aggregate (F := Ideal)
    (affine x0 w1 (zeroBias 32)) e) b1) w2 (zeroBias 32)) e) b2) w3 (zeroBias 32)) e) b3) l1 c1) l2 c2

end Cert.Gcn

end
-- ==== Proof.KRun.lean ====
/-
  The kernel's program run from the launch to the return, with its result named.

  The program is eight kernel regions among six stretches of host operations. The launch theorem for such a program
  takes the list of segments, the contents of the unscoped buffers at every segment boundary, and a post that
  follows from "every unscoped buffer ends at the last boundary's contents". Here the post names the result buffer:
  it ends at the last boundary's contents of the last region's output array; the argument arrays end as launched.
-/
import proofs.«182054_j13451837571225_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result buffer ends at the last
    boundary's contents of region 7's output array and every argument array as launched. -/
theorem run : θ_run defs (onTc (τ := τ) (main (F := F))) ⟨m, fun _ => 0, ρ⟩ (fun r => ∀ c : Dev nD,
      r.2.mem ((c.tc : Thread nD τ).loc main_v88) = W14 m ρ c (Proc.devRef .tc main_v88)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v88 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c),
       (h c _ (mem_uc main_arg10 (by decide))).trans (W14_main_arg10 m ρ c),
       (h c _ (mem_uc main_arg11 (by decide))).trans (W14_main_arg11 m ρ c),
       (h c _ (mem_uc main_arg12 (by decide))).trans (W14_main_arg12 m ρ c)⟩)

end Cert.KernelIdeal.RunValue

end
-- ==== Proof.LibRowBias.lean ====
/-
  A bias vector laid out as one row and repeated down the rows of a matrix, read at an entry.

  A kernel body adds a bias `b : [o]` to every row of an `[a, o]` block by casting it to `[1, o]` and broadcasting
  that row to `[a, o]`. Entry `(p, q)` of the result is `b q`, whatever the row `p`, for any extents and any
  element type.
-/
import Idealize.ShloMosaic.Lib.Pipeline.Value
import Idealize.ShloMosaic.Lib.ValueIdx
import Idealize.ShloMosaic.Lib.ValueLayout

namespace Cert.Gcn

open Idealize.ShloMosaic Idealize.ShloMosaic.ValueIdx

/-- Entry `(p, q)` of a `[o]` vector cast to `[1, o]` and broadcast to `[a, o]` is the vector's entry `q`. -/
theorem rowBias_apply {α : Type} {a o : ℕ} (v : (⟨1, ![o]⟩ : Shape).Idx → α)
    (h1 : (⟨1, ![o]⟩ : Shape).ShapeCasts ⟨2, ![1, o]⟩) (h2 : (⟨2, ![1, o]⟩ : Shape).Broadcasts ⟨2, ![a, o]⟩)
    (p : Fin a) (q : Fin o) :
    broadcastTo ⟨2, ![a, o]⟩ (shapeCast ⟨2, ![1, o]⟩ v h1) h2 (ix2 p q) = v (ix1 q) :=
  (broadcastTo_1b_ab_apply _ h2 p q).trans (shapeCast_a_1a_apply v h1 0 q)

end Cert.Gcn
-- ==== Proof.Dense0.lean ====
/-
  Region 0 of the kernel's program: a dense layer over row blocks.

  The grid has 25 points; point `t` stages rows `4000·t … 4000·t + 3999` of the `[100000, 512]` input, the whole
  `[512, 32]` weight and the whole `[32]` bias, and writes back rows `4000·t …` of the `[100000, 32]` output. The body
  multiplies the block by the weight into a zero accumulator (the casts to bf16 are the identity on extended reals),
  adds the bias to every row. Entry `(p, q)` of the block's result is therefore
  `∑ k, x (p, k) * w (k, q) + b q`, which depends on row `p` of the block only: row `4000·t + p` of the input.
  The 25 blocks tile the output (100000 = 25 · 4000), so the output array after the region is the dense layer of the
  whole input array, entry by entry.
-/
import proofs.«182054_j13451837571225_1_alg».proof.Proof.Gen.KernelIdeal.Frame
import proofs.«182054_j13451837571225_1_alg».proof.Proof.Spec
import proofs.«182054_j13451837571225_1_alg».proof.Proof.LibRowBias
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Dense0

open Cert.KernelIdeal Cert.KernelIdeal.Gen Cert.Gcn
open Idealize.ShloMosaic Idealize.ShloMosaic.TcCoe Idealize.ShloMosaic.ValueIdx Idealize.SL.Sem
open Idealize.ShloMosaic.Pipeline (Dat)

/-! ## The product of one block with the weight, entry by entry -/

theorem lhs_0 (i : S4000x32.Idx) (q : dot_S4000x512_S512x32_S4000x32_1_0_0_1_n_n.contr.Idx) : (dot_S4000x512_S512x32_S4000x32_1_0_0_1_n_n.lhsIdx i q 0).val = (i 0).val := by
  unfold DotDims.lhsIdx
  rw [dif_neg (show ¬(0 : Fin S4000x512.rank) ∈ dot_S4000x512_S512x32_S4000x32_1_0_0_1_n_n.lhsBatch by decide), dif_pos (show (0 : Fin S4000x512.rank) ∈ dot_S4000x512_S512x32_S4000x32_1_0_0_1_n_n.lhsNonContracting by decide)]
  rfl
theorem lhs_1 (i : S4000x32.Idx) (q : dot_S4000x512_S512x32_S4000x32_1_0_0_1_n_n.contr.Idx) : (dot_S4000x512_S512x32_S4000x32_1_0_0_1_n_n.lhsIdx i q 1).val = (q ⟨0, by decide⟩).val :=
  dot_S4000x512_S512x32_S4000x32_1_0_0_1_n_n.lhsIdx_val_of_single rfl i q
theorem rhs_0 (i : S4000x32.Idx) (q : dot_S4000x512_S512x32_S4000x32_1_0_0_1_n_n.contr.Idx) : (dot_S4000x512_S512x32_S4000x32_1_0_0_1_n_n.rhsIdx i q 0).val = (q ⟨0, by decide⟩).val :=
  dot_S4000x512_S512x32_S4000x32_1_0_0_1_n_n.rhsIdx_val_of_single rfl i q
theorem rhs_1 (i : S4000x32.Idx) (q : dot_S4000x512_S512x32_S4000x32_1_0_0_1_n_n.contr.Idx) : (dot_S4000x512_S512x32_S4000x32_1_0_0_1_n_n.rhsIdx i q 1).val = (i 1).val := by
  unfold DotDims.rhsIdx
  rw [dif_neg (show ¬(1 : Fin S512x32.rank) ∈ dot_S4000x512_S512x32_S4000x32_1_0_0_1_n_n.rhsBatch by decide), dif_pos (show (1 : Fin S512x32.rank) ∈ dot_S4000x512_S512x32_S4000x32_1_0_0_1_n_n.rhsNonContracting by decide)]
  rfl

/-- Into a zero accumulator the block product's entry `(p, q)` is the sum over the contracted axis. -/
theorem block_product (xb : FVec Ideal S4000x512 .bf16) (wb : FVec Ideal S512x32 .bf16) (p : Fin 4000) (q : Fin 32) :
    matmul dot_S4000x512_S512x32_S4000x32_1_0_0_1_n_n none xb wb (constant S4000x32 .f32 0x00000000#32) (ix2 p q) = ∑ k : Fin 512, xb (ix2 p k) * wb (ix2 k q) := by
  refine (Ideal.matmul_constant_zero_apply dot_S4000x512_S512x32_S4000x32_1_0_0_1_n_n none xb wb (ix2 p q)).trans ?_
  rw [← Equiv.sum_comp (contrEquiv1 dot_S4000x512_S512x32_S4000x32_1_0_0_1_n_n 512 rfl rfl).symm]
  refine Finset.sum_congr rfl fun k _ => ?_
  have hk := contrEquiv1_symm_val dot_S4000x512_S512x32_S4000x32_1_0_0_1_n_n 512 rfl rfl k
  have el : dot_S4000x512_S512x32_S4000x32_1_0_0_1_n_n.lhsIdx (ix2 p q) ((contrEquiv1 dot_S4000x512_S512x32_S4000x32_1_0_0_1_n_n 512 rfl rfl).symm k) = ix2 p k := funext fun a => Fin.ext (by
    match a with
    | ⟨0, _⟩ => exact lhs_0 _ _
    | ⟨1, _⟩ => exact (lhs_1 _ _).trans hk)
  have er : dot_S4000x512_S512x32_S4000x32_1_0_0_1_n_n.rhsIdx (ix2 p q) ((contrEquiv1 dot_S4000x512_S512x32_S4000x32_1_0_0_1_n_n 512 rfl rfl).symm k) = ix2 k q := funext fun a => Fin.ext (by
    match a with
    | ⟨0, _⟩ => exact (rhs_0 _ _).trans hk
    | ⟨1, _⟩ => exact rhs_1 _ _)
  rw [el, er]

/-! ## The body's result, entry by entry -/

/-- Entry `(p, q)` of what the body stores: the row `p` of the block times column `q` of the weight, plus the bias at `q`. -/
theorem body_apply (x : Vec Ideal S4000x512 .f32) (w : Vec Ideal S512x32 .f32) (b : Vec Ideal S32 .f32) (p : Fin 4000) (q : Fin 32) :
    k0_pay1 (F := Ideal) x w b (ix2 p q) = (∑ k : Fin 512, x (ix2 p k) * w (ix2 k q)) + b (ix1 q) := by
  unfold k0_pay1
  simp only [shapeCast_self]
  refine (addf_apply _ _ _).trans ?_
  refine congrArg₂ (· + ·) ?_ ?_
  · exact block_product _ _ p q
  · exact rowBias_apply _ _ _ p q

/-! ## Which rows a point's blocks are -/

/-- The printed index maps over the grid: input and output blocks move with the point along the rows; the weight and the
    bias are whole. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0 ∧ win0_2.index t (0 : Fin 1) = 0
    ∧ win0_3.index t (0 : Fin 2) = t.val ∧ win0_3.index t (1 : Fin 2) = 0 :=
  (by decide +kernel : ∀ t : Fin grid0.N, _)

theorem hz2 : (![0, 0] : Fin 2 → Nat) = fun _ => 0 := funext fun a => by fin_cases a <;> rfl
theorem hz1 : (![0] : Fin 1 → Nat) = fun _ => 0 := funext fun a => by fin_cases a <;> rfl

variable (V : (c : Dev nD) → (b : Ref sig .tc) → Buf (Elt Ideal) ((c : Thread nD τ).loc b))

/-- What point `t` writes back is block `t` of the dense layer of the arrays as the region finds them. -/
theorem flushed_eq (c : Dev nD) (t : Fin cfg0.N) :
    (dat0 V c).flushed 3 t = ((cfg0.win 3).blk t).view.read (Elt Ideal) (affine (V c main_arg0) (V c main_arg3) (V c main_v27)) := by
  show (cfg0.win 3).cut (grid0.coords t) ((dat0 V c).after 3 t) = _
  rw [after0_3]
  unfold out0_3
  rw [View.canon_unit_zero hz2]
  simp only [View.ld_unit_zero (S := S4000x512) hz2, View.ld_unit_zero (S := S512x32) hz2, View.ld_unit_zero (S := S32) hz1]
  obtain ⟨e00, e01, e10, e11, e20, e30, e31⟩ := idx_facts t
  have ht : t.val < 25 := lt_of_lt_of_eq t.isLt N_0
  funext j
  obtain ⟨p, q, rfl⟩ : ∃ (p : Fin 4000) (q : Fin 32), j = ix2 p q := ⟨j 0, j 1, eq_ix2 j⟩
  show k0_pay1 (iblk0 V c 0 t) (iblk0 V c 1 t) (iblk0 V c 2 t) (ix2 p q)
    = affine (V c main_arg0) (V c main_arg3) (V c main_v27) (((cfg0.win 3).blk t).view.emb (ix2 p q))
  refine (body_apply _ _ _ p q).trans ?_
  have hr : t.val * 4000 + p.val < 100000 := by have := p.isLt; omega
  have e3 : ((cfg0.win 3).blk t).view.emb (ix2 p q) = ix2 (⟨t.val * 4000 + p.val, hr⟩ : Fin 100000) q := by
    funext a; apply Fin.ext
    match a with
    | ⟨0, _⟩ => show win0_3.index t (0 : Fin 2) * 4000 + 1 * p.val = t.val * 4000 + p.val; omega
    | ⟨1, _⟩ => show win0_3.index t (1 : Fin 2) * 32 + 1 * q.val = q.val; omega
  rw [e3, affine_ix2]
  refine congrArg₂ (· + ·) (Finset.sum_congr rfl fun k _ => congrArg₂ (· * ·) ?_ ?_) ?_
  · show V c main_arg0 (((cfg0.win 0).blk t).view.emb (ix2 p k)) = V c main_arg0 (ix2 (⟨t.val * 4000 + p.val, hr⟩ : Fin 100000) k)
    refine congrArg (V c main_arg0) ?_
    funext a; apply Fin.ext
    match a with
    | ⟨0, _⟩ => show win0_0.index t (0 : Fin 2) * 4000 + 1 * p.val = t.val * 4000 + p.val; omega
    | ⟨1, _⟩ => show win0_0.index t (1 : Fin 2) * 512 + 1 * k.val = k.val; omega
  · show V c main_arg3 (((cfg0.win 1).blk t).view.emb (ix2 k q)) = V c main_arg3 (ix2 k q)
    refine congrArg (V c main_arg3) ?_
    funext a; apply Fin.ext
    match a with
    | ⟨0, _⟩ => show win0_1.index t (0 : Fin 2) * 512 + 1 * k.val = k.val; omega
    | ⟨1, _⟩ => show win0_1.index t (1 : Fin 2) * 32 + 1 * q.val = q.val; omega
  · show V c main_v27 (((cfg0.win 2).blk t).view.emb (ix1 q)) = V c main_v27 (ix1 q)
    refine congrArg (V c main_v27) ?_
    funext a; apply Fin.ext
    match a with
    | ⟨0, _⟩ => show win0_2.index t (0 : Fin 1) * 32 + 1 * q.val = q.val; omega

/-! ## The blocks tile the output -/

/-- An index of the output array is in point `t`'s block iff each coordinate is in the block's range on its axis. -/
theorem mem_blk (t : Fin cfg0.N) (i : S100000x32.Idx) :
    i ∈ ((cfg0.win 3).blk t).view.set ↔ ∀ a : Fin 2, win0_3.index t a * S4000x32.size a ≤ (i a).val ∧ (i a).val < win0_3.index t a * S4000x32.size a + S4000x32.size a := by
  show i ∈ ((View.whole (Pipeline.arrRef spec0 3)).slice (win0_3.rect t)).set ↔ _
  rw [View.set_slice_whole, Rect.mem_set_unit]
  exact Iff.rfl

/-- Row `r` of the output is written by the point `r / 4000`. -/
theorem cover (i : S100000x32.Idx) : ∃ t : Fin cfg0.N, (cfg0.win 3).flush t = true ∧ i ∈ ((cfg0.win 3).blk t).view.set := by
  have hi0 : (i 0).val < 100000 := (i 0).isLt
  have hi1 : (i 1).val < 32 := (i 1).isLt
  have ht : (i 0).val / 4000 < cfg0.N := lt_of_lt_of_eq (by omega : (i 0).val / 4000 < 25) N_0.symm
  obtain ⟨e00, e01, e10, e11, e20, e30, e31⟩ := idx_facts ⟨(i 0).val / 4000, ht⟩
  have e30' : win0_3.index ⟨(i 0).val / 4000, ht⟩ (0 : Fin 2) = (i 0).val / 4000 := e30
  refine ⟨⟨(i 0).val / 4000, ht⟩, flush0_3 _, ?_⟩
  rw [mem_blk]
  intro a
  match a with
  | ⟨0, _⟩ => show win0_3.index ⟨(i 0).val / 4000, ht⟩ (0 : Fin 2) * 4000 ≤ (i 0).val ∧ (i 0).val < win0_3.index ⟨(i 0).val / 4000, ht⟩ (0 : Fin 2) * 4000 + 4000; omega
  | ⟨1, _⟩ => show win0_3.index ⟨(i 0).val / 4000, ht⟩ (1 : Fin 2) * 32 ≤ (i 1).val ∧ (i 1).val < win0_3.index ⟨(i 0).val / 4000, ht⟩ (1 : Fin 2) * 32 + 32; omega

/-- The output array after the region: the dense layer of the arrays as the region finds them. -/
theorem final (c : Dev nD) : (dat0 V c).arrAt 3 cfg0.N = affine (V c main_arg0) (V c main_arg3) (V c main_v27) :=
  (dat0 V c).arrAt_eq_of_cover 3 _ (fun t _ => flushed_eq V c t) cover

end Cert.KernelIdeal.Dense0

end
-- ==== Proof.Dense2.lean ====
/-
  Region 2 of the kernel's program: a dense layer over row blocks.

  The grid has 5 points; point `t` stages rows `20000·t … 20000·t + 19999` of the `[100000, 32]` input, the whole
  `[32, 32]` weight and the whole `[32]` bias, and writes back rows `20000·t …` of the `[100000, 32]` output. The body
  multiplies the block by the weight into a zero accumulator (the casts to bf16 are the identity on extended reals),
  adds the bias to every row. Entry `(p, q)` of the block's result is therefore
  `∑ k, x (p, k) * w (k, q) + b q`, which depends on row `p` of the block only: row `20000·t + p` of the input.
  The 5 blocks tile the output (100000 = 5 · 20000), so the output array after the region is the dense layer of the
  whole input array, entry by entry.
-/
import proofs.«182054_j13451837571225_1_alg».proof.Proof.Gen.KernelIdeal.Frame
import proofs.«182054_j13451837571225_1_alg».proof.Proof.Spec
import proofs.«182054_j13451837571225_1_alg».proof.Proof.LibRowBias
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Dense2

open Cert.KernelIdeal Cert.KernelIdeal.Gen Cert.Gcn
open Idealize.ShloMosaic Idealize.ShloMosaic.TcCoe Idealize.ShloMosaic.ValueIdx Idealize.SL.Sem
open Idealize.ShloMosaic.Pipeline (Dat)

/-! ## The product of one block with the weight, entry by entry -/

theorem lhs_0 (i : S20000x32.Idx) (q : dot_S20000x32_S32x32_S20000x32_1_0_0_1_n_n.contr.Idx) : (dot_S20000x32_S32x32_S20000x32_1_0_0_1_n_n.lhsIdx i q 0).val = (i 0).val := by
  unfold DotDims.lhsIdx
  rw [dif_neg (show ¬(0 : Fin S20000x32.rank) ∈ dot_S20000x32_S32x32_S20000x32_1_0_0_1_n_n.lhsBatch by decide), dif_pos (show (0 : Fin S20000x32.rank) ∈ dot_S20000x32_S32x32_S20000x32_1_0_0_1_n_n.lhsNonContracting by decide)]
  rfl
theorem lhs_1 (i : S20000x32.Idx) (q : dot_S20000x32_S32x32_S20000x32_1_0_0_1_n_n.contr.Idx) : (dot_S20000x32_S32x32_S20000x32_1_0_0_1_n_n.lhsIdx i q 1).val = (q ⟨0, by decide⟩).val :=
  dot_S20000x32_S32x32_S20000x32_1_0_0_1_n_n.lhsIdx_val_of_single rfl i q
theorem rhs_0 (i : S20000x32.Idx) (q : dot_S20000x32_S32x32_S20000x32_1_0_0_1_n_n.contr.Idx) : (dot_S20000x32_S32x32_S20000x32_1_0_0_1_n_n.rhsIdx i q 0).val = (q ⟨0, by decide⟩).val :=
  dot_S20000x32_S32x32_S20000x32_1_0_0_1_n_n.rhsIdx_val_of_single rfl i q
theorem rhs_1 (i : S20000x32.Idx) (q : dot_S20000x32_S32x32_S20000x32_1_0_0_1_n_n.contr.Idx) : (dot_S20000x32_S32x32_S20000x32_1_0_0_1_n_n.rhsIdx i q 1).val = (i 1).val := by
  unfold DotDims.rhsIdx
  rw [dif_neg (show ¬(1 : Fin S32x32.rank) ∈ dot_S20000x32_S32x32_S20000x32_1_0_0_1_n_n.rhsBatch by decide), dif_pos (show (1 : Fin S32x32.rank) ∈ dot_S20000x32_S32x32_S20000x32_1_0_0_1_n_n.rhsNonContracting by decide)]
  rfl

/-- Into a zero accumulator the block product's entry `(p, q)` is the sum over the contracted axis. -/
theorem block_product (xb : FVec Ideal S20000x32 .bf16) (wb : FVec Ideal S32x32 .bf16) (p : Fin 20000) (q : Fin 32) :
    matmul dot_S20000x32_S32x32_S20000x32_1_0_0_1_n_n none xb wb (constant S20000x32 .f32 0x00000000#32) (ix2 p q) = ∑ k : Fin 32, xb (ix2 p k) * wb (ix2 k q) := by
  refine (Ideal.matmul_constant_zero_apply dot_S20000x32_S32x32_S20000x32_1_0_0_1_n_n none xb wb (ix2 p q)).trans ?_
  rw [← Equiv.sum_comp (contrEquiv1 dot_S20000x32_S32x32_S20000x32_1_0_0_1_n_n 32 rfl rfl).symm]
  refine Finset.sum_congr rfl fun k _ => ?_
  have hk := contrEquiv1_symm_val dot_S20000x32_S32x32_S20000x32_1_0_0_1_n_n 32 rfl rfl k
  have el : dot_S20000x32_S32x32_S20000x32_1_0_0_1_n_n.lhsIdx (ix2 p q) ((contrEquiv1 dot_S20000x32_S32x32_S20000x32_1_0_0_1_n_n 32 rfl rfl).symm k) = ix2 p k := funext fun a => Fin.ext (by
    match a with
    | ⟨0, _⟩ => exact lhs_0 _ _
    | ⟨1, _⟩ => exact (lhs_1 _ _).trans hk)
  have er : dot_S20000x32_S32x32_S20000x32_1_0_0_1_n_n.rhsIdx (ix2 p q) ((contrEquiv1 dot_S20000x32_S32x32_S20000x32_1_0_0_1_n_n 32 rfl rfl).symm k) = ix2 k q := funext fun a => Fin.ext (by
    match a with
    | ⟨0, _⟩ => exact (rhs_0 _ _).trans hk
    | ⟨1, _⟩ => exact rhs_1 _ _)
  rw [el, er]

/-! ## The body's result, entry by entry -/

/-- Entry `(p, q)` of what the body stores: the row `p` of the block times column `q` of the weight, plus the bias at `q`. -/
theorem body_apply (x : Vec Ideal S20000x32 .f32) (w : Vec Ideal S32x32 .f32) (b : Vec Ideal S32 .f32) (p : Fin 20000) (q : Fin 32) :
    k2_pay1 (F := Ideal) x w b (ix2 p q) = (∑ k : Fin 32, x (ix2 p k) * w (ix2 k q)) + b (ix1 q) := by
  unfold k2_pay1
  simp only [shapeCast_self]
  refine (addf_apply _ _ _).trans ?_
  refine congrArg₂ (· + ·) ?_ ?_
  · exact block_product _ _ p q
  · exact rowBias_apply _ _ _ p q

/-! ## Which rows a point's blocks are -/

/-- The printed index maps over the grid: input and output blocks move with the point along the rows; the weight and the
    bias are whole. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0 ∧ win2_2.index t (0 : Fin 1) = 0
    ∧ win2_3.index t (0 : Fin 2) = t.val ∧ win2_3.index t (1 : Fin 2) = 0 :=
  (by decide +kernel : ∀ t : Fin grid2.N, _)

theorem hz2 : (![0, 0] : Fin 2 → Nat) = fun _ => 0 := funext fun a => by fin_cases a <;> rfl
theorem hz1 : (![0] : Fin 1 → Nat) = fun _ => 0 := funext fun a => by fin_cases a <;> rfl

variable (V : (c : Dev nD) → (b : Ref sig .tc) → Buf (Elt Ideal) ((c : Thread nD τ).loc b))

/-- What point `t` writes back is block `t` of the dense layer of the arrays as the region finds them. -/
theorem flushed_eq (c : Dev nD) (t : Fin cfg2.N) :
    (dat2 V c).flushed 3 t = ((cfg2.win 3).blk t).view.read (Elt Ideal) (affine (V c main_v46) (V c main_arg5) (V c main_v47)) := by
  show (cfg2.win 3).cut (grid2.coords t) ((dat2 V c).after 3 t) = _
  rw [after2_3]
  unfold out2_3
  rw [View.canon_unit_zero hz2]
  simp only [View.ld_unit_zero (S := S20000x32) hz2, View.ld_unit_zero (S := S32x32) hz2, View.ld_unit_zero (S := S32) hz1]
  obtain ⟨e00, e01, e10, e11, e20, e30, e31⟩ := idx_facts t
  have ht : t.val < 5 := lt_of_lt_of_eq t.isLt N_2
  funext j
  obtain ⟨p, q, rfl⟩ : ∃ (p : Fin 20000) (q : Fin 32), j = ix2 p q := ⟨j 0, j 1, eq_ix2 j⟩
  show k2_pay1 (iblk2 V c 0 t) (iblk2 V c 1 t) (iblk2 V c 2 t) (ix2 p q)
    = affine (V c main_v46) (V c main_arg5) (V c main_v47) (((cfg2.win 3).blk t).view.emb (ix2 p q))
  refine (body_apply _ _ _ p q).trans ?_
  have hr : t.val * 20000 + p.val < 100000 := by have := p.isLt; omega
  have e3 : ((cfg2.win 3).blk t).view.emb (ix2 p q) = ix2 (⟨t.val * 20000 + p.val, hr⟩ : Fin 100000) q := by
    funext a; apply Fin.ext
    match a with
    | ⟨0, _⟩ => show win2_3.index t (0 : Fin 2) * 20000 + 1 * p.val = t.val * 20000 + p.val; omega
    | ⟨1, _⟩ => show win2_3.index t (1 : Fin 2) * 32 + 1 * q.val = q.val; omega
  rw [e3, affine_ix2]
  refine congrArg₂ (· + ·) (Finset.sum_congr rfl fun k _ => congrArg₂ (· * ·) ?_ ?_) ?_
  · show V c main_v46 (((cfg2.win 0).blk t).view.emb (ix2 p k)) = V c main_v46 (ix2 (⟨t.val * 20000 + p.val, hr⟩ : Fin 100000) k)
    refine congrArg (V c main_v46) ?_
    funext a; apply Fin.ext
    match a with
    | ⟨0, _⟩ => show win2_0.index t (0 : Fin 2) * 20000 + 1 * p.val = t.val * 20000 + p.val; omega
    | ⟨1, _⟩ => show win2_0.index t (1 : Fin 2) * 32 + 1 * k.val = k.val; omega
  · show V c main_arg5 (((cfg2.win 1).blk t).view.emb (ix2 k q)) = V c main_arg5 (ix2 k q)
    refine congrArg (V c main_arg5) ?_
    funext a; apply Fin.ext
    match a with
    | ⟨0, _⟩ => show win2_1.index t (0 : Fin 2) * 32 + 1 * k.val = k.val; omega
    | ⟨1, _⟩ => show win2_1.index t (1 : Fin 2) * 32 + 1 * q.val = q.val; omega
  · show V c main_v47 (((cfg2.win 2).blk t).view.emb (ix1 q)) = V c main_v47 (ix1 q)
    refine congrArg (V c main_v47) ?_
    funext a; apply Fin.ext
    match a with
    | ⟨0, _⟩ => show win2_2.index t (0 : Fin 1) * 32 + 1 * q.val = q.val; omega

/-! ## The blocks tile the output -/

/-- An index of the output array is in point `t`'s block iff each coordinate is in the block's range on its axis. -/
theorem mem_blk (t : Fin cfg2.N) (i : S100000x32.Idx) :
    i ∈ ((cfg2.win 3).blk t).view.set ↔ ∀ a : Fin 2, win2_3.index t a * S20000x32.size a ≤ (i a).val ∧ (i a).val < win2_3.index t a * S20000x32.size a + S20000x32.size a := by
  show i ∈ ((View.whole (Pipeline.arrRef spec2 3)).slice (win2_3.rect t)).set ↔ _
  rw [View.set_slice_whole, Rect.mem_set_unit]
  exact Iff.rfl

/-- Row `r` of the output is written by the point `r / 20000`. -/
theorem cover (i : S100000x32.Idx) : ∃ t : Fin cfg2.N, (cfg2.win 3).flush t = true ∧ i ∈ ((cfg2.win 3).blk t).view.set := by
  have hi0 : (i 0).val < 100000 := (i 0).isLt
  have hi1 : (i 1).val < 32 := (i 1).isLt
  have ht : (i 0).val / 20000 < cfg2.N := lt_of_lt_of_eq (by omega : (i 0).val / 20000 < 5) N_2.symm
  obtain ⟨e00, e01, e10, e11, e20, e30, e31⟩ := idx_facts ⟨(i 0).val / 20000, ht⟩
  have e30' : win2_3.index ⟨(i 0).val / 20000, ht⟩ (0 : Fin 2) = (i 0).val / 20000 := e30
  refine ⟨⟨(i 0).val / 20000, ht⟩, flush2_3 _, ?_⟩
  rw [mem_blk]
  intro a
  match a with
  | ⟨0, _⟩ => show win2_3.index ⟨(i 0).val / 20000, ht⟩ (0 : Fin 2) * 20000 ≤ (i 0).val ∧ (i 0).val < win2_3.index ⟨(i 0).val / 20000, ht⟩ (0 : Fin 2) * 20000 + 20000; omega
  | ⟨1, _⟩ => show win2_3.index ⟨(i 0).val / 20000, ht⟩ (1 : Fin 2) * 32 ≤ (i 1).val ∧ (i 1).val < win2_3.index ⟨(i 0).val / 20000, ht⟩ (1 : Fin 2) * 32 + 32; omega

/-- The output array after the region: the dense layer of the arrays as the region finds them. -/
theorem final (c : Dev nD) : (dat2 V c).arrAt 3 cfg2.N = affine (V c main_v46) (V c main_arg5) (V c main_v47) :=
  (dat2 V c).arrAt_eq_of_cover 3 _ (fun t _ => flushed_eq V c t) cover

end Cert.KernelIdeal.Dense2

end
-- ==== Proof.Dense4.lean ====
/-
  Region 4 of the kernel's program: a dense layer over row blocks.

  The grid has 5 points; point `t` stages rows `20000·t … 20000·t + 19999` of the `[100000, 32]` input, the whole
  `[32, 32]` weight and the whole `[32]` bias, and writes back rows `20000·t …` of the `[100000, 32]` output. The body
  multiplies the block by the weight into a zero accumulator (the casts to bf16 are the identity on extended reals),
  adds the bias to every row. Entry `(p, q)` of the block's result is therefore
  `∑ k, x (p, k) * w (k, q) + b q`, which depends on row `p` of the block only: row `20000·t + p` of the input.
  The 5 blocks tile the output (100000 = 5 · 20000), so the output array after the region is the dense layer of the
  whole input array, entry by entry.
-/
import proofs.«182054_j13451837571225_1_alg».proof.Proof.Gen.KernelIdeal.Frame
import proofs.«182054_j13451837571225_1_alg».proof.Proof.Spec
import proofs.«182054_j13451837571225_1_alg».proof.Proof.LibRowBias
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Dense4

open Cert.KernelIdeal Cert.KernelIdeal.Gen Cert.Gcn
open Idealize.ShloMosaic Idealize.ShloMosaic.TcCoe Idealize.ShloMosaic.ValueIdx Idealize.SL.Sem
open Idealize.ShloMosaic.Pipeline (Dat)

/-! ## The product of one block with the weight, entry by entry -/

theorem lhs_0 (i : S20000x32.Idx) (q : dot_S20000x32_S32x32_S20000x32_1_0_0_1_n_n.contr.Idx) : (dot_S20000x32_S32x32_S20000x32_1_0_0_1_n_n.lhsIdx i q 0).val = (i 0).val := by
  unfold DotDims.lhsIdx
  rw [dif_neg (show ¬(0 : Fin S20000x32.rank) ∈ dot_S20000x32_S32x32_S20000x32_1_0_0_1_n_n.lhsBatch by decide), dif_pos (show (0 : Fin S20000x32.rank) ∈ dot_S20000x32_S32x32_S20000x32_1_0_0_1_n_n.lhsNonContracting by decide)]
  rfl
theorem lhs_1 (i : S20000x32.Idx) (q : dot_S20000x32_S32x32_S20000x32_1_0_0_1_n_n.contr.Idx) : (dot_S20000x32_S32x32_S20000x32_1_0_0_1_n_n.lhsIdx i q 1).val = (q ⟨0, by decide⟩).val :=
  dot_S20000x32_S32x32_S20000x32_1_0_0_1_n_n.lhsIdx_val_of_single rfl i q
theorem rhs_0 (i : S20000x32.Idx) (q : dot_S20000x32_S32x32_S20000x32_1_0_0_1_n_n.contr.Idx) : (dot_S20000x32_S32x32_S20000x32_1_0_0_1_n_n.rhsIdx i q 0).val = (q ⟨0, by decide⟩).val :=
  dot_S20000x32_S32x32_S20000x32_1_0_0_1_n_n.rhsIdx_val_of_single rfl i q
theorem rhs_1 (i : S20000x32.Idx) (q : dot_S20000x32_S32x32_S20000x32_1_0_0_1_n_n.contr.Idx) : (dot_S20000x32_S32x32_S20000x32_1_0_0_1_n_n.rhsIdx i q 1).val = (i 1).val := by
  unfold DotDims.rhsIdx
  rw [dif_neg (show ¬(1 : Fin S32x32.rank) ∈ dot_S20000x32_S32x32_S20000x32_1_0_0_1_n_n.rhsBatch by decide), dif_pos (show (1 : Fin S32x32.rank) ∈ dot_S20000x32_S32x32_S20000x32_1_0_0_1_n_n.rhsNonContracting by decide)]
  rfl

/-- Into a zero accumulator the block product's entry `(p, q)` is the sum over the contracted axis. -/
theorem block_product (xb : FVec Ideal S20000x32 .bf16) (wb : FVec Ideal S32x32 .bf16) (p : Fin 20000) (q : Fin 32) :
    matmul dot_S20000x32_S32x32_S20000x32_1_0_0_1_n_n none xb wb (constant S20000x32 .f32 0x00000000#32) (ix2 p q) = ∑ k : Fin 32, xb (ix2 p k) * wb (ix2 k q) := by
  refine (Ideal.matmul_constant_zero_apply dot_S20000x32_S32x32_S20000x32_1_0_0_1_n_n none xb wb (ix2 p q)).trans ?_
  rw [← Equiv.sum_comp (contrEquiv1 dot_S20000x32_S32x32_S20000x32_1_0_0_1_n_n 32 rfl rfl).symm]
  refine Finset.sum_congr rfl fun k _ => ?_
  have hk := contrEquiv1_symm_val dot_S20000x32_S32x32_S20000x32_1_0_0_1_n_n 32 rfl rfl k
  have el : dot_S20000x32_S32x32_S20000x32_1_0_0_1_n_n.lhsIdx (ix2 p q) ((contrEquiv1 dot_S20000x32_S32x32_S20000x32_1_0_0_1_n_n 32 rfl rfl).symm k) = ix2 p k := funext fun a => Fin.ext (by
    match a with
    | ⟨0, _⟩ => exact lhs_0 _ _
    | ⟨1, _⟩ => exact (lhs_1 _ _).trans hk)
  have er : dot_S20000x32_S32x32_S20000x32_1_0_0_1_n_n.rhsIdx (ix2 p q) ((contrEquiv1 dot_S20000x32_S32x32_S20000x32_1_0_0_1_n_n 32 rfl rfl).symm k) = ix2 k q := funext fun a => Fin.ext (by
    match a with
    | ⟨0, _⟩ => exact (rhs_0 _ _).trans hk
    | ⟨1, _⟩ => exact rhs_1 _ _)
  rw [el, er]

/-! ## The body's result, entry by entry -/

/-- Entry `(p, q)` of what the body stores: the row `p` of the block times column `q` of the weight, plus the bias at `q`. -/
theorem body_apply (x : Vec Ideal S20000x32 .f32) (w : Vec Ideal S32x32 .f32) (b : Vec Ideal S32 .f32) (p : Fin 20000) (q : Fin 32) :
    k4_pay1 (F := Ideal) x w b (ix2 p q) = (∑ k : Fin 32, x (ix2 p k) * w (ix2 k q)) + b (ix1 q) := by
  unfold k4_pay1
  simp only [shapeCast_self]
  refine (addf_apply _ _ _).trans ?_
  refine congrArg₂ (· + ·) ?_ ?_
  · exact block_product _ _ p q
  · exact rowBias_apply _ _ _ p q

/-! ## Which rows a point's blocks are -/

/-- The printed index maps over the grid: input and output blocks move with the point along the rows; the weight and the
    bias are whole. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0 ∧ win4_2.index t (0 : Fin 1) = 0
    ∧ win4_3.index t (0 : Fin 2) = t.val ∧ win4_3.index t (1 : Fin 2) = 0 :=
  (by decide +kernel : ∀ t : Fin grid4.N, _)

theorem hz2 : (![0, 0] : Fin 2 → Nat) = fun _ => 0 := funext fun a => by fin_cases a <;> rfl
theorem hz1 : (![0] : Fin 1 → Nat) = fun _ => 0 := funext fun a => by fin_cases a <;> rfl

variable (V : (c : Dev nD) → (b : Ref sig .tc) → Buf (Elt Ideal) ((c : Thread nD τ).loc b))

/-- What point `t` writes back is block `t` of the dense layer of the arrays as the region finds them. -/
theorem flushed_eq (c : Dev nD) (t : Fin cfg4.N) :
    (dat4 V c).flushed 3 t = ((cfg4.win 3).blk t).view.read (Elt Ideal) (affine (V c main_v66) (V c main_arg7) (V c main_v67)) := by
  show (cfg4.win 3).cut (grid4.coords t) ((dat4 V c).after 3 t) = _
  rw [after4_3]
  unfold out4_3
  rw [View.canon_unit_zero hz2]
  simp only [View.ld_unit_zero (S := S20000x32) hz2, View.ld_unit_zero (S := S32x32) hz2, View.ld_unit_zero (S := S32) hz1]
  obtain ⟨e00, e01, e10, e11, e20, e30, e31⟩ := idx_facts t
  have ht : t.val < 5 := lt_of_lt_of_eq t.isLt N_4
  funext j
  obtain ⟨p, q, rfl⟩ : ∃ (p : Fin 20000) (q : Fin 32), j = ix2 p q := ⟨j 0, j 1, eq_ix2 j⟩
  show k4_pay1 (iblk4 V c 0 t) (iblk4 V c 1 t) (iblk4 V c 2 t) (ix2 p q)
    = affine (V c main_v66) (V c main_arg7) (V c main_v67) (((cfg4.win 3).blk t).view.emb (ix2 p q))
  refine (body_apply _ _ _ p q).trans ?_
  have hr : t.val * 20000 + p.val < 100000 := by have := p.isLt; omega
  have e3 : ((cfg4.win 3).blk t).view.emb (ix2 p q) = ix2 (⟨t.val * 20000 + p.val, hr⟩ : Fin 100000) q := by
    funext a; apply Fin.ext
    match a with
    | ⟨0, _⟩ => show win4_3.index t (0 : Fin 2) * 20000 + 1 * p.val = t.val * 20000 + p.val; omega
    | ⟨1, _⟩ => show win4_3.index t (1 : Fin 2) * 32 + 1 * q.val = q.val; omega
  rw [e3, affine_ix2]
  refine congrArg₂ (· + ·) (Finset.sum_congr rfl fun k _ => congrArg₂ (· * ·) ?_ ?_) ?_
  · show V c main_v66 (((cfg4.win 0).blk t).view.emb (ix2 p k)) = V c main_v66 (ix2 (⟨t.val * 20000 + p.val, hr⟩ : Fin 100000) k)
    refine congrArg (V c main_v66) ?_
    funext a; apply Fin.ext
    match a with
    | ⟨0, _⟩ => show win4_0.index t (0 : Fin 2) * 20000 + 1 * p.val = t.val * 20000 + p.val; omega
    | ⟨1, _⟩ => show win4_0.index t (1 : Fin 2) * 32 + 1 * k.val = k.val; omega
  · show V c main_arg7 (((cfg4.win 1).blk t).view.emb (ix2 k q)) = V c main_arg7 (ix2 k q)
    refine congrArg (V c main_arg7) ?_
    funext a; apply Fin.ext
    match a with
    | ⟨0, _⟩ => show win4_1.index t (0 : Fin 2) * 32 + 1 * k.val = k.val; omega
    | ⟨1, _⟩ => show win4_1.index t (1 : Fin 2) * 32 + 1 * q.val = q.val; omega
  · show V c main_v67 (((cfg4.win 2).blk t).view.emb (ix1 q)) = V c main_v67 (ix1 q)
    refine congrArg (V c main_v67) ?_
    funext a; apply Fin.ext
    match a with
    | ⟨0, _⟩ => show win4_2.index t (0 : Fin 1) * 32 + 1 * q.val = q.val; omega

/-! ## The blocks tile the output -/

/-- An index of the output array is in point `t`'s block iff each coordinate is in the block's range on its axis. -/
theorem mem_blk (t : Fin cfg4.N) (i : S100000x32.Idx) :
    i ∈ ((cfg4.win 3).blk t).view.set ↔ ∀ a : Fin 2, win4_3.index t a * S20000x32.size a ≤ (i a).val ∧ (i a).val < win4_3.index t a * S20000x32.size a + S20000x32.size a := by
  show i ∈ ((View.whole (Pipeline.arrRef spec4 3)).slice (win4_3.rect t)).set ↔ _
  rw [View.set_slice_whole, Rect.mem_set_unit]
  exact Iff.rfl

/-- Row `r` of the output is written by the point `r / 20000`. -/
theorem cover (i : S100000x32.Idx) : ∃ t : Fin cfg4.N, (cfg4.win 3).flush t = true ∧ i ∈ ((cfg4.win 3).blk t).view.set := by
  have hi0 : (i 0).val < 100000 := (i 0).isLt
  have hi1 : (i 1).val < 32 := (i 1).isLt
  have ht : (i 0).val / 20000 < cfg4.N := lt_of_lt_of_eq (by omega : (i 0).val / 20000 < 5) N_4.symm
  obtain ⟨e00, e01, e10, e11, e20, e30, e31⟩ := idx_facts ⟨(i 0).val / 20000, ht⟩
  have e30' : win4_3.index ⟨(i 0).val / 20000, ht⟩ (0 : Fin 2) = (i 0).val / 20000 := e30
  refine ⟨⟨(i 0).val / 20000, ht⟩, flush4_3 _, ?_⟩
  rw [mem_blk]
  intro a
  match a with
  | ⟨0, _⟩ => show win4_3.index ⟨(i 0).val / 20000, ht⟩ (0 : Fin 2) * 20000 ≤ (i 0).val ∧ (i 0).val < win4_3.index ⟨(i 0).val / 20000, ht⟩ (0 : Fin 2) * 20000 + 20000; omega
  | ⟨1, _⟩ => show win4_3.index ⟨(i 0).val / 20000, ht⟩ (1 : Fin 2) * 32 ≤ (i 1).val ∧ (i 1).val < win4_3.index ⟨(i 0).val / 20000, ht⟩ (1 : Fin 2) * 32 + 32; omega

/-- The output array after the region: the dense layer of the arrays as the region finds them. -/
theorem final (c : Dev nD) : (dat4 V c).arrAt 3 cfg4.N = affine (V c main_v66) (V c main_arg7) (V c main_v67) :=
  (dat4 V c).arrAt_eq_of_cover 3 _ (fun t _ => flushed_eq V c t) cover

end Cert.KernelIdeal.Dense4

end
-- ==== Proof.Dense6.lean ====
/-
  Region 6 of the kernel's program: a dense layer over row blocks.

  The grid has 5 points; point `t` stages rows `20000·t … 20000·t + 19999` of the `[100000, 32]` input, the whole
  `[32, 16]` weight and the whole `[16]` bias, and writes back rows `20000·t …` of the `[100000, 16]` output. The body
  multiplies the block by the weight into a zero accumulator (the casts to bf16 are the identity on extended reals),
  adds the bias to every row and takes the maximum with zero. Entry `(p, q)` of the block's result is therefore
  `max (∑ k, x (p, k) * w (k, q) + b q) 0`, which depends on row `p` of the block only: row `20000·t + p` of the input.
  The 5 blocks tile the output (100000 = 5 · 20000), so the output array after the region is the dense layer of the
  whole input array, entry by entry.
-/
import proofs.«182054_j13451837571225_1_alg».proof.Proof.Gen.KernelIdeal.Frame
import proofs.«182054_j13451837571225_1_alg».proof.Proof.Spec
import proofs.«182054_j13451837571225_1_alg».proof.Proof.LibRowBias
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Dense6

open Cert.KernelIdeal Cert.KernelIdeal.Gen Cert.Gcn
open Idealize.ShloMosaic Idealize.ShloMosaic.TcCoe Idealize.ShloMosaic.ValueIdx Idealize.SL.Sem
open Idealize.ShloMosaic.Pipeline (Dat)

/-! ## The product of one block with the weight, entry by entry -/

theorem lhs_0 (i : S20000x16.Idx) (q : dot_S20000x32_S32x16_S20000x16_1_0_0_1_n_n.contr.Idx) : (dot_S20000x32_S32x16_S20000x16_1_0_0_1_n_n.lhsIdx i q 0).val = (i 0).val := by
  unfold DotDims.lhsIdx
  rw [dif_neg (show ¬(0 : Fin S20000x32.rank) ∈ dot_S20000x32_S32x16_S20000x16_1_0_0_1_n_n.lhsBatch by decide), dif_pos (show (0 : Fin S20000x32.rank) ∈ dot_S20000x32_S32x16_S20000x16_1_0_0_1_n_n.lhsNonContracting by decide)]
  rfl
theorem lhs_1 (i : S20000x16.Idx) (q : dot_S20000x32_S32x16_S20000x16_1_0_0_1_n_n.contr.Idx) : (dot_S20000x32_S32x16_S20000x16_1_0_0_1_n_n.lhsIdx i q 1).val = (q ⟨0, by decide⟩).val :=
  dot_S20000x32_S32x16_S20000x16_1_0_0_1_n_n.lhsIdx_val_of_single rfl i q
theorem rhs_0 (i : S20000x16.Idx) (q : dot_S20000x32_S32x16_S20000x16_1_0_0_1_n_n.contr.Idx) : (dot_S20000x32_S32x16_S20000x16_1_0_0_1_n_n.rhsIdx i q 0).val = (q ⟨0, by decide⟩).val :=
  dot_S20000x32_S32x16_S20000x16_1_0_0_1_n_n.rhsIdx_val_of_single rfl i q
theorem rhs_1 (i : S20000x16.Idx) (q : dot_S20000x32_S32x16_S20000x16_1_0_0_1_n_n.contr.Idx) : (dot_S20000x32_S32x16_S20000x16_1_0_0_1_n_n.rhsIdx i q 1).val = (i 1).val := by
  unfold DotDims.rhsIdx
  rw [dif_neg (show ¬(1 : Fin S32x16.rank) ∈ dot_S20000x32_S32x16_S20000x16_1_0_0_1_n_n.rhsBatch by decide), dif_pos (show (1 : Fin S32x16.rank) ∈ dot_S20000x32_S32x16_S20000x16_1_0_0_1_n_n.rhsNonContracting by decide)]
  rfl

/-- Into a zero accumulator the block product's entry `(p, q)` is the sum over the contracted axis. -/
theorem block_product (xb : FVec Ideal S20000x32 .bf16) (wb : FVec Ideal S32x16 .bf16) (p : Fin 20000) (q : Fin 16) :
    matmul dot_S20000x32_S32x16_S20000x16_1_0_0_1_n_n none xb wb (constant S20000x16 .f32 0x00000000#32) (ix2 p q) = ∑ k : Fin 32, xb (ix2 p k) * wb (ix2 k q) := by
  refine (Ideal.matmul_constant_zero_apply dot_S20000x32_S32x16_S20000x16_1_0_0_1_n_n none xb wb (ix2 p q)).trans ?_
  rw [← Equiv.sum_comp (contrEquiv1 dot_S20000x32_S32x16_S20000x16_1_0_0_1_n_n 32 rfl rfl).symm]
  refine Finset.sum_congr rfl fun k _ => ?_
  have hk := contrEquiv1_symm_val dot_S20000x32_S32x16_S20000x16_1_0_0_1_n_n 32 rfl rfl k
  have el : dot_S20000x32_S32x16_S20000x16_1_0_0_1_n_n.lhsIdx (ix2 p q) ((contrEquiv1 dot_S20000x32_S32x16_S20000x16_1_0_0_1_n_n 32 rfl rfl).symm k) = ix2 p k := funext fun a => Fin.ext (by
    match a with
    | ⟨0, _⟩ => exact lhs_0 _ _
    | ⟨1, _⟩ => exact (lhs_1 _ _).trans hk)
  have er : dot_S20000x32_S32x16_S20000x16_1_0_0_1_n_n.rhsIdx (ix2 p q) ((contrEquiv1 dot_S20000x32_S32x16_S20000x16_1_0_0_1_n_n 32 rfl rfl).symm k) = ix2 k q := funext fun a => Fin.ext (by
    match a with
    | ⟨0, _⟩ => exact (rhs_0 _ _).trans hk
    | ⟨1, _⟩ => exact rhs_1 _ _)
  rw [el, er]

/-! ## The body's result, entry by entry -/

/-- Entry `(p, q)` of what the body stores: the row `p` of the block times column `q` of the weight, plus the bias at `q`, clipped below at zero. -/
theorem body_apply (x : Vec Ideal S20000x32 .f32) (w : Vec Ideal S32x16 .f32) (b : Vec Ideal S16 .f32) (p : Fin 20000) (q : Fin 16) :
    k6_pay1 (F := Ideal) x w b (ix2 p q) = max ((∑ k : Fin 32, x (ix2 p k) * w (ix2 k q)) + b (ix1 q)) 0 := by
  unfold k6_pay1
  simp only [shapeCast_self]
  refine (maximumf_apply _ _ _).trans ?_
  refine congrArg₂ max ?_ Ideal.ofBits_zero_f32
  refine (addf_apply _ _ _).trans ?_
  refine congrArg₂ (· + ·) ?_ ?_
  · exact block_product _ _ p q
  · exact rowBias_apply _ _ _ p q

/-! ## Which rows a point's blocks are -/

/-- The printed index maps over the grid: input and output blocks move with the point along the rows; the weight and the
    bias are whole. -/
theorem idx_facts : ∀ t : Fin cfg6.N, win6_0.index t (0 : Fin 2) = t.val ∧ win6_0.index t (1 : Fin 2) = 0
    ∧ win6_1.index t (0 : Fin 2) = 0 ∧ win6_1.index t (1 : Fin 2) = 0 ∧ win6_2.index t (0 : Fin 1) = 0
    ∧ win6_3.index t (0 : Fin 2) = t.val ∧ win6_3.index t (1 : Fin 2) = 0 :=
  (by decide +kernel : ∀ t : Fin grid6.N, _)

theorem hz2 : (![0, 0] : Fin 2 → Nat) = fun _ => 0 := funext fun a => by fin_cases a <;> rfl
theorem hz1 : (![0] : Fin 1 → Nat) = fun _ => 0 := funext fun a => by fin_cases a <;> rfl

variable (V : (c : Dev nD) → (b : Ref sig .tc) → Buf (Elt Ideal) ((c : Thread nD τ).loc b))

/-- What point `t` writes back is block `t` of the dense layer of the arrays as the region finds them. -/
theorem flushed_eq (c : Dev nD) (t : Fin cfg6.N) :
    (dat6 V c).flushed 3 t = ((cfg6.win 3).blk t).view.read (Elt Ideal) (affineRelu (V c main_v86) (V c main_arg9) (V c main_arg10)) := by
  show (cfg6.win 3).cut (grid6.coords t) ((dat6 V c).after 3 t) = _
  rw [after6_3]
  unfold out6_3
  rw [View.canon_unit_zero hz2]
  simp only [View.ld_unit_zero (S := S20000x32) hz2, View.ld_unit_zero (S := S32x16) hz2, View.ld_unit_zero (S := S16) hz1]
  obtain ⟨e00, e01, e10, e11, e20, e30, e31⟩ := idx_facts t
  have ht : t.val < 5 := lt_of_lt_of_eq t.isLt N_6
  funext j
  obtain ⟨p, q, rfl⟩ : ∃ (p : Fin 20000) (q : Fin 16), j = ix2 p q := ⟨j 0, j 1, eq_ix2 j⟩
  show k6_pay1 (iblk6 V c 0 t) (iblk6 V c 1 t) (iblk6 V c 2 t) (ix2 p q)
    = affineRelu (V c main_v86) (V c main_arg9) (V c main_arg10) (((cfg6.win 3).blk t).view.emb (ix2 p q))
  refine (body_apply _ _ _ p q).trans ?_
  have hr : t.val * 20000 + p.val < 100000 := by have := p.isLt; omega
  have e3 : ((cfg6.win 3).blk t).view.emb (ix2 p q) = ix2 (⟨t.val * 20000 + p.val, hr⟩ : Fin 100000) q := by
    funext a; apply Fin.ext
    match a with
    | ⟨0, _⟩ => show win6_3.index t (0 : Fin 2) * 20000 + 1 * p.val = t.val * 20000 + p.val; omega
    | ⟨1, _⟩ => show win6_3.index t (1 : Fin 2) * 16 + 1 * q.val = q.val; omega
  rw [e3, affineRelu_ix2]
  refine congrArg₂ max (congrArg₂ (· + ·) (Finset.sum_congr rfl fun k _ => congrArg₂ (· * ·) ?_ ?_) ?_) rfl
  · show V c main_v86 (((cfg6.win 0).blk t).view.emb (ix2 p k)) = V c main_v86 (ix2 (⟨t.val * 20000 + p.val, hr⟩ : Fin 100000) k)
    refine congrArg (V c main_v86) ?_
    funext a; apply Fin.ext
    match a with
    | ⟨0, _⟩ => show win6_0.index t (0 : Fin 2) * 20000 + 1 * p.val = t.val * 20000 + p.val; omega
    | ⟨1, _⟩ => show win6_0.index t (1 : Fin 2) * 32 + 1 * k.val = k.val; omega
  · show V c main_arg9 (((cfg6.win 1).blk t).view.emb (ix2 k q)) = V c main_arg9 (ix2 k q)
    refine congrArg (V c main_arg9) ?_
    funext a; apply Fin.ext
    match a with
    | ⟨0, _⟩ => show win6_1.index t (0 : Fin 2) * 32 + 1 * k.val = k.val; omega
    | ⟨1, _⟩ => show win6_1.index t (1 : Fin 2) * 16 + 1 * q.val = q.val; omega
  · show V c main_arg10 (((cfg6.win 2).blk t).view.emb (ix1 q)) = V c main_arg10 (ix1 q)
    refine congrArg (V c main_arg10) ?_
    funext a; apply Fin.ext
    match a with
    | ⟨0, _⟩ => show win6_2.index t (0 : Fin 1) * 16 + 1 * q.val = q.val; omega

/-! ## The blocks tile the output -/

/-- An index of the output array is in point `t`'s block iff each coordinate is in the block's range on its axis. -/
theorem mem_blk (t : Fin cfg6.N) (i : S100000x16.Idx) :
    i ∈ ((cfg6.win 3).blk t).view.set ↔ ∀ a : Fin 2, win6_3.index t a * S20000x16.size a ≤ (i a).val ∧ (i a).val < win6_3.index t a * S20000x16.size a + S20000x16.size a := by
  show i ∈ ((View.whole (Pipeline.arrRef spec6 3)).slice (win6_3.rect t)).set ↔ _
  rw [View.set_slice_whole, Rect.mem_set_unit]
  exact Iff.rfl

/-- Row `r` of the output is written by the point `r / 20000`. -/
theorem cover (i : S100000x16.Idx) : ∃ t : Fin cfg6.N, (cfg6.win 3).flush t = true ∧ i ∈ ((cfg6.win 3).blk t).view.set := by
  have hi0 : (i 0).val < 100000 := (i 0).isLt
  have hi1 : (i 1).val < 16 := (i 1).isLt
  have ht : (i 0).val / 20000 < cfg6.N := lt_of_lt_of_eq (by omega : (i 0).val / 20000 < 5) N_6.symm
  obtain ⟨e00, e01, e10, e11, e20, e30, e31⟩ := idx_facts ⟨(i 0).val / 20000, ht⟩
  have e30' : win6_3.index ⟨(i 0).val / 20000, ht⟩ (0 : Fin 2) = (i 0).val / 20000 := e30
  refine ⟨⟨(i 0).val / 20000, ht⟩, flush6_3 _, ?_⟩
  rw [mem_blk]
  intro a
  match a with
  | ⟨0, _⟩ => show win6_3.index ⟨(i 0).val / 20000, ht⟩ (0 : Fin 2) * 20000 ≤ (i 0).val ∧ (i 0).val < win6_3.index ⟨(i 0).val / 20000, ht⟩ (0 : Fin 2) * 20000 + 20000; omega
  | ⟨1, _⟩ => show win6_3.index ⟨(i 0).val / 20000, ht⟩ (1 : Fin 2) * 16 ≤ (i 1).val ∧ (i 1).val < win6_3.index ⟨(i 0).val / 20000, ht⟩ (1 : Fin 2) * 16 + 16; omega

/-- The output array after the region: the dense layer of the arrays as the region finds them. -/
theorem final (c : Dev nD) : (dat6 V c).arrAt 3 cfg6.N = affineRelu (V c main_v86) (V c main_arg9) (V c main_arg10) :=
  (dat6 V c).arrAt_eq_of_cover 3 _ (fun t _ => flushed_eq V c t) cover

end Cert.KernelIdeal.Dense6

end
-- ==== Proof.Dense7.lean ====
/-
  Region 7 of the kernel's program: a dense layer over row blocks.

  The grid has 5 points; point `t` stages rows `20000·t … 20000·t + 19999` of the `[100000, 16]` input, the whole
  `[16, 10]` weight and the whole `[10]` bias, and writes back rows `20000·t …` of the `[100000, 10]` output. The body
  multiplies the block by the weight into a zero accumulator (the casts to bf16 are the identity on extended reals),
  adds the bias to every row. Entry `(p, q)` of the block's result is therefore
  `∑ k, x (p, k) * w (k, q) + b q`, which depends on row `p` of the block only: row `20000·t + p` of the input.
  The 5 blocks tile the output (100000 = 5 · 20000), so the output array after the region is the dense layer of the
  whole input array, entry by entry.
-/
import proofs.«182054_j13451837571225_1_alg».proof.Proof.Gen.KernelIdeal.Frame
import proofs.«182054_j13451837571225_1_alg».proof.Proof.Spec
import proofs.«182054_j13451837571225_1_alg».proof.Proof.LibRowBias
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Dense7

open Cert.KernelIdeal Cert.KernelIdeal.Gen Cert.Gcn
open Idealize.ShloMosaic Idealize.ShloMosaic.TcCoe Idealize.ShloMosaic.ValueIdx Idealize.SL.Sem
open Idealize.ShloMosaic.Pipeline (Dat)

/-! ## The product of one block with the weight, entry by entry -/

theorem lhs_0 (i : S20000x10.Idx) (q : dot_S20000x16_S16x10_S20000x10_1_0_0_1_n_n.contr.Idx) : (dot_S20000x16_S16x10_S20000x10_1_0_0_1_n_n.lhsIdx i q 0).val = (i 0).val := by
  unfold DotDims.lhsIdx
  rw [dif_neg (show ¬(0 : Fin S20000x16.rank) ∈ dot_S20000x16_S16x10_S20000x10_1_0_0_1_n_n.lhsBatch by decide), dif_pos (show (0 : Fin S20000x16.rank) ∈ dot_S20000x16_S16x10_S20000x10_1_0_0_1_n_n.lhsNonContracting by decide)]
  rfl
theorem lhs_1 (i : S20000x10.Idx) (q : dot_S20000x16_S16x10_S20000x10_1_0_0_1_n_n.contr.Idx) : (dot_S20000x16_S16x10_S20000x10_1_0_0_1_n_n.lhsIdx i q 1).val = (q ⟨0, by decide⟩).val :=
  dot_S20000x16_S16x10_S20000x10_1_0_0_1_n_n.lhsIdx_val_of_single rfl i q
theorem rhs_0 (i : S20000x10.Idx) (q : dot_S20000x16_S16x10_S20000x10_1_0_0_1_n_n.contr.Idx) : (dot_S20000x16_S16x10_S20000x10_1_0_0_1_n_n.rhsIdx i q 0).val = (q ⟨0, by decide⟩).val :=
  dot_S20000x16_S16x10_S20000x10_1_0_0_1_n_n.rhsIdx_val_of_single rfl i q
theorem rhs_1 (i : S20000x10.Idx) (q : dot_S20000x16_S16x10_S20000x10_1_0_0_1_n_n.contr.Idx) : (dot_S20000x16_S16x10_S20000x10_1_0_0_1_n_n.rhsIdx i q 1).val = (i 1).val := by
  unfold DotDims.rhsIdx
  rw [dif_neg (show ¬(1 : Fin S16x10.rank) ∈ dot_S20000x16_S16x10_S20000x10_1_0_0_1_n_n.rhsBatch by decide), dif_pos (show (1 : Fin S16x10.rank) ∈ dot_S20000x16_S16x10_S20000x10_1_0_0_1_n_n.rhsNonContracting by decide)]
  rfl

/-- Into a zero accumulator the block product's entry `(p, q)` is the sum over the contracted axis. -/
theorem block_product (xb : FVec Ideal S20000x16 .bf16) (wb : FVec Ideal S16x10 .bf16) (p : Fin 20000) (q : Fin 10) :
    matmul dot_S20000x16_S16x10_S20000x10_1_0_0_1_n_n none xb wb (constant S20000x10 .f32 0x00000000#32) (ix2 p q) = ∑ k : Fin 16, xb (ix2 p k) * wb (ix2 k q) := by
  refine (Ideal.matmul_constant_zero_apply dot_S20000x16_S16x10_S20000x10_1_0_0_1_n_n none xb wb (ix2 p q)).trans ?_
  rw [← Equiv.sum_comp (contrEquiv1 dot_S20000x16_S16x10_S20000x10_1_0_0_1_n_n 16 rfl rfl).symm]
  refine Finset.sum_congr rfl fun k _ => ?_
  have hk := contrEquiv1_symm_val dot_S20000x16_S16x10_S20000x10_1_0_0_1_n_n 16 rfl rfl k
  have el : dot_S20000x16_S16x10_S20000x10_1_0_0_1_n_n.lhsIdx (ix2 p q) ((contrEquiv1 dot_S20000x16_S16x10_S20000x10_1_0_0_1_n_n 16 rfl rfl).symm k) = ix2 p k := funext fun a => Fin.ext (by
    match a with
    | ⟨0, _⟩ => exact lhs_0 _ _
    | ⟨1, _⟩ => exact (lhs_1 _ _).trans hk)
  have er : dot_S20000x16_S16x10_S20000x10_1_0_0_1_n_n.rhsIdx (ix2 p q) ((contrEquiv1 dot_S20000x16_S16x10_S20000x10_1_0_0_1_n_n 16 rfl rfl).symm k) = ix2 k q := funext fun a => Fin.ext (by
    match a with
    | ⟨0, _⟩ => exact (rhs_0 _ _).trans hk
    | ⟨1, _⟩ => exact rhs_1 _ _)
  rw [el, er]

/-! ## The body's result, entry by entry -/

/-- Entry `(p, q)` of what the body stores: the row `p` of the block times column `q` of the weight, plus the bias at `q`. -/
theorem body_apply (x : Vec Ideal S20000x16 .f32) (w : Vec Ideal S16x10 .f32) (b : Vec Ideal S10 .f32) (p : Fin 20000) (q : Fin 10) :
    k7_pay1 (F := Ideal) x w b (ix2 p q) = (∑ k : Fin 16, x (ix2 p k) * w (ix2 k q)) + b (ix1 q) := by
  unfold k7_pay1
  simp only [shapeCast_self]
  refine (addf_apply _ _ _).trans ?_
  refine congrArg₂ (· + ·) ?_ ?_
  · exact block_product _ _ p q
  · exact rowBias_apply _ _ _ p q

/-! ## Which rows a point's blocks are -/

/-- The printed index maps over the grid: input and output blocks move with the point along the rows; the weight and the
    bias are whole. -/
theorem idx_facts : ∀ t : Fin cfg7.N, win7_0.index t (0 : Fin 2) = t.val ∧ win7_0.index t (1 : Fin 2) = 0
    ∧ win7_1.index t (0 : Fin 2) = 0 ∧ win7_1.index t (1 : Fin 2) = 0 ∧ win7_2.index t (0 : Fin 1) = 0
    ∧ win7_3.index t (0 : Fin 2) = t.val ∧ win7_3.index t (1 : Fin 2) = 0 :=
  (by decide +kernel : ∀ t : Fin grid7.N, _)

theorem hz2 : (![0, 0] : Fin 2 → Nat) = fun _ => 0 := funext fun a => by fin_cases a <;> rfl
theorem hz1 : (![0] : Fin 1 → Nat) = fun _ => 0 := funext fun a => by fin_cases a <;> rfl

variable (V : (c : Dev nD) → (b : Ref sig .tc) → Buf (Elt Ideal) ((c : Thread nD τ).loc b))

/-- What point `t` writes back is block `t` of the dense layer of the arrays as the region finds them. -/
theorem flushed_eq (c : Dev nD) (t : Fin cfg7.N) :
    (dat7 V c).flushed 3 t = ((cfg7.win 3).blk t).view.read (Elt Ideal) (affine (V c main_v87) (V c main_arg11) (V c main_arg12)) := by
  show (cfg7.win 3).cut (grid7.coords t) ((dat7 V c).after 3 t) = _
  rw [after7_3]
  unfold out7_3
  rw [View.canon_unit_zero hz2]
  simp only [View.ld_unit_zero (S := S20000x16) hz2, View.ld_unit_zero (S := S16x10) hz2, View.ld_unit_zero (S := S10) hz1]
  obtain ⟨e00, e01, e10, e11, e20, e30, e31⟩ := idx_facts t
  have ht : t.val < 5 := lt_of_lt_of_eq t.isLt N_7
  funext j
  obtain ⟨p, q, rfl⟩ : ∃ (p : Fin 20000) (q : Fin 10), j = ix2 p q := ⟨j 0, j 1, eq_ix2 j⟩
  show k7_pay1 (iblk7 V c 0 t) (iblk7 V c 1 t) (iblk7 V c 2 t) (ix2 p q)
    = affine (V c main_v87) (V c main_arg11) (V c main_arg12) (((cfg7.win 3).blk t).view.emb (ix2 p q))
  refine (body_apply _ _ _ p q).trans ?_
  have hr : t.val * 20000 + p.val < 100000 := by have := p.isLt; omega
  have e3 : ((cfg7.win 3).blk t).view.emb (ix2 p q) = ix2 (⟨t.val * 20000 + p.val, hr⟩ : Fin 100000) q := by
    funext a; apply Fin.ext
    match a with
    | ⟨0, _⟩ => show win7_3.index t (0 : Fin 2) * 20000 + 1 * p.val = t.val * 20000 + p.val; omega
    | ⟨1, _⟩ => show win7_3.index t (1 : Fin 2) * 10 + 1 * q.val = q.val; omega
  rw [e3, affine_ix2]
  refine congrArg₂ (· + ·) (Finset.sum_congr rfl fun k _ => congrArg₂ (· * ·) ?_ ?_) ?_
  · show V c main_v87 (((cfg7.win 0).blk t).view.emb (ix2 p k)) = V c main_v87 (ix2 (⟨t.val * 20000 + p.val, hr⟩ : Fin 100000) k)
    refine congrArg (V c main_v87) ?_
    funext a; apply Fin.ext
    match a with
    | ⟨0, _⟩ => show win7_0.index t (0 : Fin 2) * 20000 + 1 * p.val = t.val * 20000 + p.val; omega
    | ⟨1, _⟩ => show win7_0.index t (1 : Fin 2) * 16 + 1 * k.val = k.val; omega
  · show V c main_arg11 (((cfg7.win 1).blk t).view.emb (ix2 k q)) = V c main_arg11 (ix2 k q)
    refine congrArg (V c main_arg11) ?_
    funext a; apply Fin.ext
    match a with
    | ⟨0, _⟩ => show win7_1.index t (0 : Fin 2) * 16 + 1 * k.val = k.val; omega
    | ⟨1, _⟩ => show win7_1.index t (1 : Fin 2) * 10 + 1 * q.val = q.val; omega
  · show V c main_arg12 (((cfg7.win 2).blk t).view.emb (ix1 q)) = V c main_arg12 (ix1 q)
    refine congrArg (V c main_arg12) ?_
    funext a; apply Fin.ext
    match a with
    | ⟨0, _⟩ => show win7_2.index t (0 : Fin 1) * 10 + 1 * q.val = q.val; omega

/-! ## The blocks tile the output -/

/-- An index of the output array is in point `t`'s block iff each coordinate is in the block's range on its axis. -/
theorem mem_blk (t : Fin cfg7.N) (i : S100000x10.Idx) :
    i ∈ ((cfg7.win 3).blk t).view.set ↔ ∀ a : Fin 2, win7_3.index t a * S20000x10.size a ≤ (i a).val ∧ (i a).val < win7_3.index t a * S20000x10.size a + S20000x10.size a := by
  show i ∈ ((View.whole (Pipeline.arrRef spec7 3)).slice (win7_3.rect t)).set ↔ _
  rw [View.set_slice_whole, Rect.mem_set_unit]
  exact Iff.rfl

/-- Row `r` of the output is written by the point `r / 20000`. -/
theorem cover (i : S100000x10.Idx) : ∃ t : Fin cfg7.N, (cfg7.win 3).flush t = true ∧ i ∈ ((cfg7.win 3).blk t).view.set := by
  have hi0 : (i 0).val < 100000 := (i 0).isLt
  have hi1 : (i 1).val < 10 := (i 1).isLt
  have ht : (i 0).val / 20000 < cfg7.N := lt_of_lt_of_eq (by omega : (i 0).val / 20000 < 5) N_7.symm
  obtain ⟨e00, e01, e10, e11, e20, e30, e31⟩ := idx_facts ⟨(i 0).val / 20000, ht⟩
  have e30' : win7_3.index ⟨(i 0).val / 20000, ht⟩ (0 : Fin 2) = (i 0).val / 20000 := e30
  refine ⟨⟨(i 0).val / 20000, ht⟩, flush7_3 _, ?_⟩
  rw [mem_blk]
  intro a
  match a with
  | ⟨0, _⟩ => show win7_3.index ⟨(i 0).val / 20000, ht⟩ (0 : Fin 2) * 20000 ≤ (i 0).val ∧ (i 0).val < win7_3.index ⟨(i 0).val / 20000, ht⟩ (0 : Fin 2) * 20000 + 20000; omega
  | ⟨1, _⟩ => show win7_3.index ⟨(i 0).val / 20000, ht⟩ (1 : Fin 2) * 10 ≤ (i 1).val ∧ (i 1).val < win7_3.index ⟨(i 0).val / 20000, ht⟩ (1 : Fin 2) * 10 + 10; omega

/-- The output array after the region: the dense layer of the arrays as the region finds them. -/
theorem final (c : Dev nD) : (dat7 V c).arrAt 3 cfg7.N = affine (V c main_v87) (V c main_arg11) (V c main_arg12) :=
  (dat7 V c).arrAt_eq_of_cover 3 _ (fun t _ => flushed_eq V c t) cover

end Cert.KernelIdeal.Dense7

end
-- ==== Proof.BiasRelu1.lean ====
/-
  Region 1 of the kernel's program: bias and relu over row blocks.

  The grid has 5 points; point `t` stages rows `20000·t … 20000·t + 19999` of the `[100000, 32]` aggregate and the whole
  `[32]` bias and writes back the same rows of the output. The body adds the bias to every row and takes the maximum
  with zero, so entry `(p, q)` of the block's result is `max (a (p, q) + b q) 0`: the same function of the array's entry at
  row `20000·t + p`. The 5 blocks tile the output (100000 = 5 · 20000).
-/
import proofs.«182054_j13451837571225_1_alg».proof.Proof.Gen.KernelIdeal.Frame
import proofs.«182054_j13451837571225_1_alg».proof.Proof.Spec
import proofs.«182054_j13451837571225_1_alg».proof.Proof.LibRowBias
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.BiasRelu1

open Cert.KernelIdeal Cert.KernelIdeal.Gen Cert.Gcn
open Idealize.ShloMosaic Idealize.ShloMosaic.TcCoe Idealize.ShloMosaic.ValueIdx Idealize.SL.Sem
open Idealize.ShloMosaic.Pipeline (Dat)

/-! ## The body's result, entry by entry -/

/-- Entry `(p, q)` of what the body stores: the block's entry plus the bias at `q`, clipped below at zero. -/
theorem body_apply (x : Vec Ideal S20000x32 .f32) (b : Vec Ideal S32 .f32) (p : Fin 20000) (q : Fin 32) :
    k1_pay1 (F := Ideal) x b (ix2 p q) = max (x (ix2 p q) + b (ix1 q)) 0 := by
  unfold k1_pay1
  simp only [shapeCast_self]
  refine (maximumf_apply _ _ _).trans ?_
  refine congrArg₂ max ?_ Ideal.ofBits_zero_f32
  refine (addf_apply _ _ _).trans ?_
  exact congrArg (x (ix2 p q) + ·) (rowBias_apply _ _ _ p q)

/-! ## Which rows a point's blocks are -/

/-- The printed index maps over the grid: input and output blocks move with the point along the rows; the bias is whole. -/
theorem idx_facts : ∀ t : Fin cfg1.N, win1_0.index t (0 : Fin 2) = t.val ∧ win1_0.index t (1 : Fin 2) = 0
    ∧ win1_1.index t (0 : Fin 1) = 0
    ∧ win1_2.index t (0 : Fin 2) = t.val ∧ win1_2.index t (1 : Fin 2) = 0 :=
  (by decide +kernel : ∀ t : Fin grid1.N, _)

theorem hz2 : (![0, 0] : Fin 2 → Nat) = fun _ => 0 := funext fun a => by fin_cases a <;> rfl
theorem hz1 : (![0] : Fin 1 → Nat) = fun _ => 0 := funext fun a => by fin_cases a <;> rfl

variable (V : (c : Dev nD) → (b : Ref sig .tc) → Buf (Elt Ideal) ((c : Thread nD τ).loc b))

/-- What point `t` writes back is block `t` of `relu (A + b)` of the arrays as the region finds them. -/
theorem flushed_eq (c : Dev nD) (t : Fin cfg1.N) :
    (dat1 V c).flushed 2 t = ((cfg1.win 2).blk t).view.read (Elt Ideal) (biasRelu (V c main_v45) (V c main_arg4)) := by
  show (cfg1.win 2).cut (grid1.coords t) ((dat1 V c).after 2 t) = _
  rw [after1_2]
  unfold out1_2
  rw [View.canon_unit_zero hz2]
  simp only [View.ld_unit_zero (S := S20000x32) hz2, View.ld_unit_zero (S := S32) hz1]
  obtain ⟨e00, e01, e10, e20, e21⟩ := idx_facts t
  have ht : t.val < 5 := lt_of_lt_of_eq t.isLt N_1
  funext j
  obtain ⟨p, q, rfl⟩ : ∃ (p : Fin 20000) (q : Fin 32), j = ix2 p q := ⟨j 0, j 1, eq_ix2 j⟩
  show k1_pay1 (iblk1 V c 0 t) (iblk1 V c 1 t) (ix2 p q)
    = biasRelu (V c main_v45) (V c main_arg4) (((cfg1.win 2).blk t).view.emb (ix2 p q))
  refine (body_apply _ _ p q).trans ?_
  have hr : t.val * 20000 + p.val < 100000 := by have := p.isLt; omega
  have e2 : ((cfg1.win 2).blk t).view.emb (ix2 p q) = ix2 (⟨t.val * 20000 + p.val, hr⟩ : Fin 100000) q := by
    funext a; apply Fin.ext
    match a with
    | ⟨0, _⟩ => show win1_2.index t (0 : Fin 2) * 20000 + 1 * p.val = t.val * 20000 + p.val; omega
    | ⟨1, _⟩ => show win1_2.index t (1 : Fin 2) * 32 + 1 * q.val = q.val; omega
  rw [e2, biasRelu_ix2]
  refine congrArg₂ max (congrArg₂ (· + ·) ?_ ?_) rfl
  · show V c main_v45 (((cfg1.win 0).blk t).view.emb (ix2 p q)) = V c main_v45 (ix2 (⟨t.val * 20000 + p.val, hr⟩ : Fin 100000) q)
    refine congrArg (V c main_v45) ?_
    funext a; apply Fin.ext
    match a with
    | ⟨0, _⟩ => show win1_0.index t (0 : Fin 2) * 20000 + 1 * p.val = t.val * 20000 + p.val; omega
    | ⟨1, _⟩ => show win1_0.index t (1 : Fin 2) * 32 + 1 * q.val = q.val; omega
  · show V c main_arg4 (((cfg1.win 1).blk t).view.emb (ix1 q)) = V c main_arg4 (ix1 q)
    refine congrArg (V c main_arg4) ?_
    funext a; apply Fin.ext
    match a with
    | ⟨0, _⟩ => show win1_1.index t (0 : Fin 1) * 32 + 1 * q.val = q.val; omega

/-! ## The blocks tile the output -/

/-- An index of the output array is in point `t`'s block iff each coordinate is in the block's range on its axis. -/
theorem mem_blk (t : Fin cfg1.N) (i : S100000x32.Idx) :
    i ∈ ((cfg1.win 2).blk t).view.set ↔ ∀ a : Fin 2, win1_2.index t a * S20000x32.size a ≤ (i a).val ∧ (i a).val < win1_2.index t a * S20000x32.size a + S20000x32.size a := by
  show i ∈ ((View.whole (Pipeline.arrRef spec1 2)).slice (win1_2.rect t)).set ↔ _
  rw [View.set_slice_whole, Rect.mem_set_unit]
  exact Iff.rfl

/-- Row `r` of the output is written by the point `r / 20000`. -/
theorem cover (i : S100000x32.Idx) : ∃ t : Fin cfg1.N, (cfg1.win 2).flush t = true ∧ i ∈ ((cfg1.win 2).blk t).view.set := by
  have hi0 : (i 0).val < 100000 := (i 0).isLt
  have hi1 : (i 1).val < 32 := (i 1).isLt
  have ht : (i 0).val / 20000 < cfg1.N := lt_of_lt_of_eq (by omega : (i 0).val / 20000 < 5) N_1.symm
  obtain ⟨e00, e01, e10, e20, e21⟩ := idx_facts ⟨(i 0).val / 20000, ht⟩
  have e20' : win1_2.index ⟨(i 0).val / 20000, ht⟩ (0 : Fin 2) = (i 0).val / 20000 := e20
  refine ⟨⟨(i 0).val / 20000, ht⟩, flush1_2 _, ?_⟩
  rw [mem_blk]
  intro a
  match a with
  | ⟨0, _⟩ => show win1_2.index ⟨(i 0).val / 20000, ht⟩ (0 : Fin 2) * 20000 ≤ (i 0).val ∧ (i 0).val < win1_2.index ⟨(i 0).val / 20000, ht⟩ (0 : Fin 2) * 20000 + 20000; omega
  | ⟨1, _⟩ => show win1_2.index ⟨(i 0).val / 20000, ht⟩ (1 : Fin 2) * 32 ≤ (i 1).val ∧ (i 1).val < win1_2.index ⟨(i 0).val / 20000, ht⟩ (1 : Fin 2) * 32 + 32; omega

/-- The output array after the region: `relu (A + b)` of the arrays as the region finds them. -/
theorem final (c : Dev nD) : (dat1 V c).arrAt 2 cfg1.N = biasRelu (V c main_v45) (V c main_arg4) :=
  (dat1 V c).arrAt_eq_of_cover 2 _ (fun t _ => flushed_eq V c t) cover

end Cert.KernelIdeal.BiasRelu1

end
-- ==== Proof.BiasRelu3.lean ====
/-
  Region 3 of the kernel's program: bias and relu over row blocks.

  The grid has 5 points; point `t` stages rows `20000·t … 20000·t + 19999` of the `[100000, 32]` aggregate and the whole
  `[32]` bias and writes back the same rows of the output. The body adds the bias to every row and takes the maximum
  with zero, so entry `(p, q)` of the block's result is `max (a (p, q) + b q) 0`: the same function of the array's entry at
  row `20000·t + p`. The 5 blocks tile the output (100000 = 5 · 20000).
-/
import proofs.«182054_j13451837571225_1_alg».proof.Proof.Gen.KernelIdeal.Frame
import proofs.«182054_j13451837571225_1_alg».proof.Proof.Spec
import proofs.«182054_j13451837571225_1_alg».proof.Proof.LibRowBias
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.BiasRelu3

open Cert.KernelIdeal Cert.KernelIdeal.Gen Cert.Gcn
open Idealize.ShloMosaic Idealize.ShloMosaic.TcCoe Idealize.ShloMosaic.ValueIdx Idealize.SL.Sem
open Idealize.ShloMosaic.Pipeline (Dat)

/-! ## The body's result, entry by entry -/

/-- Entry `(p, q)` of what the body stores: the block's entry plus the bias at `q`, clipped below at zero. -/
theorem body_apply (x : Vec Ideal S20000x32 .f32) (b : Vec Ideal S32 .f32) (p : Fin 20000) (q : Fin 32) :
    k3_pay1 (F := Ideal) x b (ix2 p q) = max (x (ix2 p q) + b (ix1 q)) 0 := by
  unfold k3_pay1
  simp only [shapeCast_self]
  refine (maximumf_apply _ _ _).trans ?_
  refine congrArg₂ max ?_ Ideal.ofBits_zero_f32
  refine (addf_apply _ _ _).trans ?_
  exact congrArg (x (ix2 p q) + ·) (rowBias_apply _ _ _ p q)

/-! ## Which rows a point's blocks are -/

/-- The printed index maps over the grid: input and output blocks move with the point along the rows; the bias is whole. -/
theorem idx_facts : ∀ t : Fin cfg3.N, win3_0.index t (0 : Fin 2) = t.val ∧ win3_0.index t (1 : Fin 2) = 0
    ∧ win3_1.index t (0 : Fin 1) = 0
    ∧ win3_2.index t (0 : Fin 2) = t.val ∧ win3_2.index t (1 : Fin 2) = 0 :=
  (by decide +kernel : ∀ t : Fin grid3.N, _)

theorem hz2 : (![0, 0] : Fin 2 → Nat) = fun _ => 0 := funext fun a => by fin_cases a <;> rfl
theorem hz1 : (![0] : Fin 1 → Nat) = fun _ => 0 := funext fun a => by fin_cases a <;> rfl

variable (V : (c : Dev nD) → (b : Ref sig .tc) → Buf (Elt Ideal) ((c : Thread nD τ).loc b))

/-- What point `t` writes back is block `t` of `relu (A + b)` of the arrays as the region finds them. -/
theorem flushed_eq (c : Dev nD) (t : Fin cfg3.N) :
    (dat3 V c).flushed 2 t = ((cfg3.win 2).blk t).view.read (Elt Ideal) (biasRelu (V c main_v65) (V c main_arg6)) := by
  show (cfg3.win 2).cut (grid3.coords t) ((dat3 V c).after 2 t) = _
  rw [after3_2]
  unfold out3_2
  rw [View.canon_unit_zero hz2]
  simp only [View.ld_unit_zero (S := S20000x32) hz2, View.ld_unit_zero (S := S32) hz1]
  obtain ⟨e00, e01, e10, e20, e21⟩ := idx_facts t
  have ht : t.val < 5 := lt_of_lt_of_eq t.isLt N_3
  funext j
  obtain ⟨p, q, rfl⟩ : ∃ (p : Fin 20000) (q : Fin 32), j = ix2 p q := ⟨j 0, j 1, eq_ix2 j⟩
  show k3_pay1 (iblk3 V c 0 t) (iblk3 V c 1 t) (ix2 p q)
    = biasRelu (V c main_v65) (V c main_arg6) (((cfg3.win 2).blk t).view.emb (ix2 p q))
  refine (body_apply _ _ p q).trans ?_
  have hr : t.val * 20000 + p.val < 100000 := by have := p.isLt; omega
  have e2 : ((cfg3.win 2).blk t).view.emb (ix2 p q) = ix2 (⟨t.val * 20000 + p.val, hr⟩ : Fin 100000) q := by
    funext a; apply Fin.ext
    match a with
    | ⟨0, _⟩ => show win3_2.index t (0 : Fin 2) * 20000 + 1 * p.val = t.val * 20000 + p.val; omega
    | ⟨1, _⟩ => show win3_2.index t (1 : Fin 2) * 32 + 1 * q.val = q.val; omega
  rw [e2, biasRelu_ix2]
  refine congrArg₂ max (congrArg₂ (· + ·) ?_ ?_) rfl
  · show V c main_v65 (((cfg3.win 0).blk t).view.emb (ix2 p q)) = V c main_v65 (ix2 (⟨t.val * 20000 + p.val, hr⟩ : Fin 100000) q)
    refine congrArg (V c main_v65) ?_
    funext a; apply Fin.ext
    match a with
    | ⟨0, _⟩ => show win3_0.index t (0 : Fin 2) * 20000 + 1 * p.val = t.val * 20000 + p.val; omega
    | ⟨1, _⟩ => show win3_0.index t (1 : Fin 2) * 32 + 1 * q.val = q.val; omega
  · show V c main_arg6 (((cfg3.win 1).blk t).view.emb (ix1 q)) = V c main_arg6 (ix1 q)
    refine congrArg (V c main_arg6) ?_
    funext a; apply Fin.ext
    match a with
    | ⟨0, _⟩ => show win3_1.index t (0 : Fin 1) * 32 + 1 * q.val = q.val; omega

/-! ## The blocks tile the output -/

/-- An index of the output array is in point `t`'s block iff each coordinate is in the block's range on its axis. -/
theorem mem_blk (t : Fin cfg3.N) (i : S100000x32.Idx) :
    i ∈ ((cfg3.win 2).blk t).view.set ↔ ∀ a : Fin 2, win3_2.index t a * S20000x32.size a ≤ (i a).val ∧ (i a).val < win3_2.index t a * S20000x32.size a + S20000x32.size a := by
  show i ∈ ((View.whole (Pipeline.arrRef spec3 2)).slice (win3_2.rect t)).set ↔ _
  rw [View.set_slice_whole, Rect.mem_set_unit]
  exact Iff.rfl

/-- Row `r` of the output is written by the point `r / 20000`. -/
theorem cover (i : S100000x32.Idx) : ∃ t : Fin cfg3.N, (cfg3.win 2).flush t = true ∧ i ∈ ((cfg3.win 2).blk t).view.set := by
  have hi0 : (i 0).val < 100000 := (i 0).isLt
  have hi1 : (i 1).val < 32 := (i 1).isLt
  have ht : (i 0).val / 20000 < cfg3.N := lt_of_lt_of_eq (by omega : (i 0).val / 20000 < 5) N_3.symm
  obtain ⟨e00, e01, e10, e20, e21⟩ := idx_facts ⟨(i 0).val / 20000, ht⟩
  have e20' : win3_2.index ⟨(i 0).val / 20000, ht⟩ (0 : Fin 2) = (i 0).val / 20000 := e20
  refine ⟨⟨(i 0).val / 20000, ht⟩, flush3_2 _, ?_⟩
  rw [mem_blk]
  intro a
  match a with
  | ⟨0, _⟩ => show win3_2.index ⟨(i 0).val / 20000, ht⟩ (0 : Fin 2) * 20000 ≤ (i 0).val ∧ (i 0).val < win3_2.index ⟨(i 0).val / 20000, ht⟩ (0 : Fin 2) * 20000 + 20000; omega
  | ⟨1, _⟩ => show win3_2.index ⟨(i 0).val / 20000, ht⟩ (1 : Fin 2) * 32 ≤ (i 1).val ∧ (i 1).val < win3_2.index ⟨(i 0).val / 20000, ht⟩ (1 : Fin 2) * 32 + 32; omega

/-- The output array after the region: `relu (A + b)` of the arrays as the region finds them. -/
theorem final (c : Dev nD) : (dat3 V c).arrAt 2 cfg3.N = biasRelu (V c main_v65) (V c main_arg6) :=
  (dat3 V c).arrAt_eq_of_cover 2 _ (fun t _ => flushed_eq V c t) cover

end Cert.KernelIdeal.BiasRelu3

end
-- ==== Proof.BiasRelu5.lean ====
/-
  Region 5 of the kernel's program: bias and relu over row blocks.

  The grid has 5 points; point `t` stages rows `20000·t … 20000·t + 19999` of the `[100000, 32]` aggregate and the whole
  `[32]` bias and writes back the same rows of the output. The body adds the bias to every row and takes the maximum
  with zero, so entry `(p, q)` of the block's result is `max (a (p, q) + b q) 0`: the same function of the array's entry at
  row `20000·t + p`. The 5 blocks tile the output (100000 = 5 · 20000).
-/
import proofs.«182054_j13451837571225_1_alg».proof.Proof.Gen.KernelIdeal.Frame
import proofs.«182054_j13451837571225_1_alg».proof.Proof.Spec
import proofs.«182054_j13451837571225_1_alg».proof.Proof.LibRowBias
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.BiasRelu5

open Cert.KernelIdeal Cert.KernelIdeal.Gen Cert.Gcn
open Idealize.ShloMosaic Idealize.ShloMosaic.TcCoe Idealize.ShloMosaic.ValueIdx Idealize.SL.Sem
open Idealize.ShloMosaic.Pipeline (Dat)

/-! ## The body's result, entry by entry -/

/-- Entry `(p, q)` of what the body stores: the block's entry plus the bias at `q`, clipped below at zero. -/
theorem body_apply (x : Vec Ideal S20000x32 .f32) (b : Vec Ideal S32 .f32) (p : Fin 20000) (q : Fin 32) :
    k5_pay1 (F := Ideal) x b (ix2 p q) = max (x (ix2 p q) + b (ix1 q)) 0 := by
  unfold k5_pay1
  simp only [shapeCast_self]
  refine (maximumf_apply _ _ _).trans ?_
  refine congrArg₂ max ?_ Ideal.ofBits_zero_f32
  refine (addf_apply _ _ _).trans ?_
  exact congrArg (x (ix2 p q) + ·) (rowBias_apply _ _ _ p q)

/-! ## Which rows a point's blocks are -/

/-- The printed index maps over the grid: input and output blocks move with the point along the rows; the bias is whole. -/
theorem idx_facts : ∀ t : Fin cfg5.N, win5_0.index t (0 : Fin 2) = t.val ∧ win5_0.index t (1 : Fin 2) = 0
    ∧ win5_1.index t (0 : Fin 1) = 0
    ∧ win5_2.index t (0 : Fin 2) = t.val ∧ win5_2.index t (1 : Fin 2) = 0 :=
  (by decide +kernel : ∀ t : Fin grid5.N, _)

theorem hz2 : (![0, 0] : Fin 2 → Nat) = fun _ => 0 := funext fun a => by fin_cases a <;> rfl
theorem hz1 : (![0] : Fin 1 → Nat) = fun _ => 0 := funext fun a => by fin_cases a <;> rfl

variable (V : (c : Dev nD) → (b : Ref sig .tc) → Buf (Elt Ideal) ((c : Thread nD τ).loc b))

/-- What point `t` writes back is block `t` of `relu (A + b)` of the arrays as the region finds them. -/
theorem flushed_eq (c : Dev nD) (t : Fin cfg5.N) :
    (dat5 V c).flushed 2 t = ((cfg5.win 2).blk t).view.read (Elt Ideal) (biasRelu (V c main_v85) (V c main_arg8)) := by
  show (cfg5.win 2).cut (grid5.coords t) ((dat5 V c).after 2 t) = _
  rw [after5_2]
  unfold out5_2
  rw [View.canon_unit_zero hz2]
  simp only [View.ld_unit_zero (S := S20000x32) hz2, View.ld_unit_zero (S := S32) hz1]
  obtain ⟨e00, e01, e10, e20, e21⟩ := idx_facts t
  have ht : t.val < 5 := lt_of_lt_of_eq t.isLt N_5
  funext j
  obtain ⟨p, q, rfl⟩ : ∃ (p : Fin 20000) (q : Fin 32), j = ix2 p q := ⟨j 0, j 1, eq_ix2 j⟩
  show k5_pay1 (iblk5 V c 0 t) (iblk5 V c 1 t) (ix2 p q)
    = biasRelu (V c main_v85) (V c main_arg8) (((cfg5.win 2).blk t).view.emb (ix2 p q))
  refine (body_apply _ _ p q).trans ?_
  have hr : t.val * 20000 + p.val < 100000 := by have := p.isLt; omega
  have e2 : ((cfg5.win 2).blk t).view.emb (ix2 p q) = ix2 (⟨t.val * 20000 + p.val, hr⟩ : Fin 100000) q := by
    funext a; apply Fin.ext
    match a with
    | ⟨0, _⟩ => show win5_2.index t (0 : Fin 2) * 20000 + 1 * p.val = t.val * 20000 + p.val; omega
    | ⟨1, _⟩ => show win5_2.index t (1 : Fin 2) * 32 + 1 * q.val = q.val; omega
  rw [e2, biasRelu_ix2]
  refine congrArg₂ max (congrArg₂ (· + ·) ?_ ?_) rfl
  · show V c main_v85 (((cfg5.win 0).blk t).view.emb (ix2 p q)) = V c main_v85 (ix2 (⟨t.val * 20000 + p.val, hr⟩ : Fin 100000) q)
    refine congrArg (V c main_v85) ?_
    funext a; apply Fin.ext
    match a with
    | ⟨0, _⟩ => show win5_0.index t (0 : Fin 2) * 20000 + 1 * p.val = t.val * 20000 + p.val; omega
    | ⟨1, _⟩ => show win5_0.index t (1 : Fin 2) * 32 + 1 * q.val = q.val; omega
  · show V c main_arg8 (((cfg5.win 1).blk t).view.emb (ix1 q)) = V c main_arg8 (ix1 q)
    refine congrArg (V c main_arg8) ?_
    funext a; apply Fin.ext
    match a with
    | ⟨0, _⟩ => show win5_1.index t (0 : Fin 1) * 32 + 1 * q.val = q.val; omega

/-! ## The blocks tile the output -/

/-- An index of the output array is in point `t`'s block iff each coordinate is in the block's range on its axis. -/
theorem mem_blk (t : Fin cfg5.N) (i : S100000x32.Idx) :
    i ∈ ((cfg5.win 2).blk t).view.set ↔ ∀ a : Fin 2, win5_2.index t a * S20000x32.size a ≤ (i a).val ∧ (i a).val < win5_2.index t a * S20000x32.size a + S20000x32.size a := by
  show i ∈ ((View.whole (Pipeline.arrRef spec5 2)).slice (win5_2.rect t)).set ↔ _
  rw [View.set_slice_whole, Rect.mem_set_unit]
  exact Iff.rfl

/-- Row `r` of the output is written by the point `r / 20000`. -/
theorem cover (i : S100000x32.Idx) : ∃ t : Fin cfg5.N, (cfg5.win 2).flush t = true ∧ i ∈ ((cfg5.win 2).blk t).view.set := by
  have hi0 : (i 0).val < 100000 := (i 0).isLt
  have hi1 : (i 1).val < 32 := (i 1).isLt
  have ht : (i 0).val / 20000 < cfg5.N := lt_of_lt_of_eq (by omega : (i 0).val / 20000 < 5) N_5.symm
  obtain ⟨e00, e01, e10, e20, e21⟩ := idx_facts ⟨(i 0).val / 20000, ht⟩
  have e20' : win5_2.index ⟨(i 0).val / 20000, ht⟩ (0 : Fin 2) = (i 0).val / 20000 := e20
  refine ⟨⟨(i 0).val / 20000, ht⟩, flush5_2 _, ?_⟩
  rw [mem_blk]
  intro a
  match a with
  | ⟨0, _⟩ => show win5_2.index ⟨(i 0).val / 20000, ht⟩ (0 : Fin 2) * 20000 ≤ (i 0).val ∧ (i 0).val < win5_2.index ⟨(i 0).val / 20000, ht⟩ (0 : Fin 2) * 20000 + 20000; omega
  | ⟨1, _⟩ => show win5_2.index ⟨(i 0).val / 20000, ht⟩ (1 : Fin 2) * 32 ≤ (i 1).val ∧ (i 1).val < win5_2.index ⟨(i 0).val / 20000, ht⟩ (1 : Fin 2) * 32 + 32; omega

/-- The output array after the region: `relu (A + b)` of the arrays as the region finds them. -/
theorem final (c : Dev nD) : (dat5 V c).arrAt 2 cfg5.N = biasRelu (V c main_v85) (V c main_arg8) :=
  (dat5 V c).arrAt_eq_of_cover 2 _ (fun t _ => flushed_eq V c t) cover

end Cert.KernelIdeal.BiasRelu5

end
-- ==== Proof.KValue.lean ====
/-
  The kernel's program, boundary by boundary: what the buffers hold when each region is entered and left.

  A buffer that no operation of a host stretch writes, and that is not an array of a region, keeps its contents across
  it; so each argument reaches the region that reads it as launched, and the edge data computed before the first
  region (sources, destinations, edge weights, self-loop weights) reach the three message-passing stretches unchanged.
  A region's output array is its layer of the arrays as the region finds them (the region modules); a message-passing
  stretch's result is the aggregate of the features it finds. Composing the fourteen steps, the last region's output
  array is the network of the launch arguments.
-/
import proofs.«182054_j13451837571225_1_alg».proof.Proof.Gen.KernelIdeal.Frame
import proofs.«182054_j13451837571225_1_alg».proof.Proof.Spec
import proofs.«182054_j13451837571225_1_alg».proof.Proof.Aggregate
import proofs.«182054_j13451837571225_1_alg».proof.Proof.Network
import proofs.«182054_j13451837571225_1_alg».proof.Proof.Dense0
import proofs.«182054_j13451837571225_1_alg».proof.Proof.Dense2
import proofs.«182054_j13451837571225_1_alg».proof.Proof.Dense4
import proofs.«182054_j13451837571225_1_alg».proof.Proof.Dense6
import proofs.«182054_j13451837571225_1_alg».proof.Proof.Dense7
import proofs.«182054_j13451837571225_1_alg».proof.Proof.BiasRelu1
import proofs.«182054_j13451837571225_1_alg».proof.Proof.BiasRelu3
import proofs.«182054_j13451837571225_1_alg».proof.Proof.BiasRelu5
import Idealize.ShloMosaic.Lib.StableHlo.Run

set_option maxRecDepth 16384

noncomputable section

namespace Cert.KernelIdeal.KValue

open Cert.KernelIdeal Cert.KernelIdeal.Gen Cert.Gcn
open Idealize.ShloMosaic Idealize.ShloMosaic.TcCoe Idealize.ShloMosaic.StableHlo Idealize.SL.Sem

/-! ## What each host stretch writes, and what it therefore keeps -/

/-- The buffers the operations of host stretch 0 write. -/
abbrev written0 : List (Ref sig .tc) := [main_v0, main_v1, main_v2, main_v3, main_cst, main_v4, main_cst_0, main_v5, main_v6, main_v7, main_cst_1, main_v8, main_v9, main_v10, main_v11, main_c, main_v12, main_v13, main_c_2, main_v14, main_v15, main_v16, main_v17, main_v18, main_c_3, main_v19, main_v20, main_c_4, main_v21, main_v22, main_v23, main_v24, main_v25, main_v26, main_cst_5, main_v27]
theorem writes0 : (hostOps0 : List (HloOp τ sig (Elt Ideal))).Forall fun op => op.writes ⊆ (written0.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))

/-- The buffers the operations of host stretch 1 write. -/
abbrev written1 : List (Ref sig .tc) := [main_c_6, main_v29, main_v30, main_c_7, main_v31, main_v32, main_v33, main_v34, main_v35, main_v36, main_v37, main_v38, main_cst_8, main_v39, main_v40, main_v41, main_v42, main_v43, main_v44, main_v45]
theorem writes1 : (hostOps1 : List (HloOp τ sig (Elt Ideal))).Forall fun op => op.writes ⊆ (written1.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))

/-- The buffers the operations of host stretch 2 write. -/
abbrev written2 : List (Ref sig .tc) := [main_cst_9, main_v47]
theorem writes2 : (hostOps2 : List (HloOp τ sig (Elt Ideal))).Forall fun op => op.writes ⊆ (written2.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))

/-- The buffers the operations of host stretch 3 write. -/
abbrev written3 : List (Ref sig .tc) := [main_c_10, main_v49, main_v50, main_c_11, main_v51, main_v52, main_v53, main_v54, main_v55, main_v56, main_v57, main_v58, main_cst_12, main_v59, main_v60, main_v61, main_v62, main_v63, main_v64, main_v65]
theorem writes3 : (hostOps3 : List (HloOp τ sig (Elt Ideal))).Forall fun op => op.writes ⊆ (written3.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))

/-- The buffers the operations of host stretch 4 write. -/
abbrev written4 : List (Ref sig .tc) := [main_cst_13, main_v67]
theorem writes4 : (hostOps4 : List (HloOp τ sig (Elt Ideal))).Forall fun op => op.writes ⊆ (written4.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))

/-- The buffers the operations of host stretch 5 write. -/
abbrev written5 : List (Ref sig .tc) := [main_c_14, main_v69, main_v70, main_c_15, main_v71, main_v72, main_v73, main_v74, main_v75, main_v76, main_v77, main_v78, main_cst_16, main_v79, main_v80, main_v81, main_v82, main_v83, main_v84, main_v85]
theorem writes5 : (hostOps5 : List (HloOp τ sig (Elt Ideal))).Forall fun op => op.writes ⊆ (written5.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))

variable (m : (ℓ : Loc nD τ sig) → Buf (Elt Ideal) ℓ) (ρ : Dev nD → PrngReg) (c : Dev nD)

/-- A buffer host stretch 0 does not write keeps its contents across it. -/
theorem keep0 (r : Ref sig .tc) (h : r ∉ written0) : W1 m ρ c (Proc.devRef .tc r) = W0 m ρ c (Proc.devRef .tc r) :=
  StableHlo.after_of_writes_sub hostOps0 _ writes0 h
/-- A buffer host stretch 1 does not write keeps its contents across it. -/
theorem keep1 (r : Ref sig .tc) (h : r ∉ written1) : W3 m ρ c (Proc.devRef .tc r) = W2 m ρ c (Proc.devRef .tc r) :=
  StableHlo.after_of_writes_sub hostOps1 _ writes1 h
/-- A buffer host stretch 2 does not write keeps its contents across it. -/
theorem keep2 (r : Ref sig .tc) (h : r ∉ written2) : W5 m ρ c (Proc.devRef .tc r) = W4 m ρ c (Proc.devRef .tc r) :=
  StableHlo.after_of_writes_sub hostOps2 _ writes2 h
/-- A buffer host stretch 3 does not write keeps its contents across it. -/
theorem keep3 (r : Ref sig .tc) (h : r ∉ written3) : W7 m ρ c (Proc.devRef .tc r) = W6 m ρ c (Proc.devRef .tc r) :=
  StableHlo.after_of_writes_sub hostOps3 _ writes3 h
/-- A buffer host stretch 4 does not write keeps its contents across it. -/
theorem keep4 (r : Ref sig .tc) (h : r ∉ written4) : W9 m ρ c (Proc.devRef .tc r) = W8 m ρ c (Proc.devRef .tc r) :=
  StableHlo.after_of_writes_sub hostOps4 _ writes4 h
/-- A buffer host stretch 5 does not write keeps its contents across it. -/
theorem keep5 (r : Ref sig .tc) (h : r ∉ written5) : W11 m ρ c (Proc.devRef .tc r) = W10 m ρ c (Proc.devRef .tc r) :=
  StableHlo.after_of_writes_sub hostOps5 _ writes5 h

/-! ## The edge data and the zero biases, as the first stretch leaves them -/

/-- A zero constant broadcast to a bias vector is the zero bias. -/
theorem zero32 : (broadcastInDim S32 ![] bcast_S_S32 (constant (F := Ideal) S_ .f32 0x00000000#32) : S32.Idx → EReal) = zeroBias 32 := by
  funext i; exact Ideal.ofBits_zero_f32

theorem src_1 : W1 m ρ c (Proc.devRef .tc main_v1) = srcOf (F := Ideal) (m ((c : Thread nD τ).loc main_arg1)) := by
  show StableHlo.after hostOps0 (W0 m ρ c) (Proc.devRef .tc main_v1) = _
  after_results_simp <;> rfl
theorem dst_1 : W1 m ρ c (Proc.devRef .tc main_v3) = dstOf (F := Ideal) (m ((c : Thread nD τ).loc main_arg1)) := by
  show StableHlo.after hostOps0 (W0 m ρ c) (Proc.devRef .tc main_v3) = _
  after_results_simp <;> rfl
theorem norm_1 : W1 m ρ c (Proc.devRef .tc main_v26) = normOf (F := Ideal) (m ((c : Thread nD τ).loc main_arg1)) := by
  show StableHlo.after hostOps0 (W0 m ρ c) (Proc.devRef .tc main_v26) = _
  after_results_simp <;> rfl
theorem dinv2_1 : W1 m ρ c (Proc.devRef .tc main_v11) = dinv2Of (F := Ideal) (m ((c : Thread nD τ).loc main_arg1)) := by
  show StableHlo.after hostOps0 (W0 m ρ c) (Proc.devRef .tc main_v11) = _
  after_results_simp <;> rfl
theorem zero_1 : V1 m ρ c main_v27 = zeroBias 32 := by
  have e : (V1 m ρ c main_v27 : S32.Idx → EReal) = broadcastInDim S32 ![] bcast_S_S32 (constant (F := Ideal) S_ .f32 0x00000000#32) := by
    show StableHlo.after hostOps0 (W0 m ρ c) (Proc.devRef .tc main_v27) = _
    after_results_simp <;> rfl
  rw [e]; exact zero32
theorem zero_5 : V5 m ρ c main_v47 = zeroBias 32 := by
  have e : (V5 m ρ c main_v47 : S32.Idx → EReal) = broadcastInDim S32 ![] bcast_S_S32 (constant (F := Ideal) S_ .f32 0x00000000#32) := by
    show StableHlo.after hostOps2 (W4 m ρ c) (Proc.devRef .tc main_v47) = _
    after_results_simp <;> rfl
  rw [e]; exact zero32
theorem zero_9 : V9 m ρ c main_v67 = zeroBias 32 := by
  have e : (V9 m ρ c main_v67 : S32.Idx → EReal) = broadcastInDim S32 ![] bcast_S_S32 (constant (F := Ideal) S_ .f32 0x00000000#32) := by
    show StableHlo.after hostOps4 (W8 m ρ c) (Proc.devRef .tc main_v67) = _
    after_results_simp <;> rfl
  rw [e]; exact zero32

/-! ## The arguments, as each region finds them -/

theorem arg0_1 : V1 m ρ c main_arg0 = m ((c : Thread nD τ).loc main_arg0) :=
  (keep0 m ρ c main_arg0 (by decide))
theorem arg3_1 : V1 m ρ c main_arg3 = m ((c : Thread nD τ).loc main_arg3) :=
  (keep0 m ρ c main_arg3 (by decide))
theorem arg4_3 : V3 m ρ c main_arg4 = m ((c : Thread nD τ).loc main_arg4) :=
  ((keep1 m ρ c main_arg4 (by decide)).trans ((W2_of_ne m ρ c main_arg4 (by decide)).trans (keep0 m ρ c main_arg4 (by decide))))
theorem arg5_5 : V5 m ρ c main_arg5 = m ((c : Thread nD τ).loc main_arg5) :=
  ((keep2 m ρ c main_arg5 (by decide)).trans ((W4_of_ne m ρ c main_arg5 (by decide)).trans ((keep1 m ρ c main_arg5 (by decide)).trans ((W2_of_ne m ρ c main_arg5 (by decide)).trans (keep0 m ρ c main_arg5 (by decide))))))
theorem arg6_7 : V7 m ρ c main_arg6 = m ((c : Thread nD τ).loc main_arg6) :=
  ((keep3 m ρ c main_arg6 (by decide)).trans ((W6_of_ne m ρ c main_arg6 (by decide)).trans ((keep2 m ρ c main_arg6 (by decide)).trans ((W4_of_ne m ρ c main_arg6 (by decide)).trans ((keep1 m ρ c main_arg6 (by decide)).trans ((W2_of_ne m ρ c main_arg6 (by decide)).trans (keep0 m ρ c main_arg6 (by decide))))))))
theorem arg7_9 : V9 m ρ c main_arg7 = m ((c : Thread nD τ).loc main_arg7) :=
  ((keep4 m ρ c main_arg7 (by decide)).trans ((W8_of_ne m ρ c main_arg7 (by decide)).trans ((keep3 m ρ c main_arg7 (by decide)).trans ((W6_of_ne m ρ c main_arg7 (by decide)).trans ((keep2 m ρ c main_arg7 (by decide)).trans ((W4_of_ne m ρ c main_arg7 (by decide)).trans ((keep1 m ρ c main_arg7 (by decide)).trans ((W2_of_ne m ρ c main_arg7 (by decide)).trans (keep0 m ρ c main_arg7 (by decide))))))))))
theorem arg8_11 : V11 m ρ c main_arg8 = m ((c : Thread nD τ).loc main_arg8) :=
  ((keep5 m ρ c main_arg8 (by decide)).trans ((W10_of_ne m ρ c main_arg8 (by decide)).trans ((keep4 m ρ c main_arg8 (by decide)).trans ((W8_of_ne m ρ c main_arg8 (by decide)).trans ((keep3 m ρ c main_arg8 (by decide)).trans ((W6_of_ne m ρ c main_arg8 (by decide)).trans ((keep2 m ρ c main_arg8 (by decide)).trans ((W4_of_ne m ρ c main_arg8 (by decide)).trans ((keep1 m ρ c main_arg8 (by decide)).trans ((W2_of_ne m ρ c main_arg8 (by decide)).trans (keep0 m ρ c main_arg8 (by decide))))))))))))
theorem arg9_12 : V12 m ρ c main_arg9 = m ((c : Thread nD τ).loc main_arg9) :=
  ((W12_of_ne m ρ c main_arg9 (by decide)).trans ((keep5 m ρ c main_arg9 (by decide)).trans ((W10_of_ne m ρ c main_arg9 (by decide)).trans ((keep4 m ρ c main_arg9 (by decide)).trans ((W8_of_ne m ρ c main_arg9 (by decide)).trans ((keep3 m ρ c main_arg9 (by decide)).trans ((W6_of_ne m ρ c main_arg9 (by decide)).trans ((keep2 m ρ c main_arg9 (by decide)).trans ((W4_of_ne m ρ c main_arg9 (by decide)).trans ((keep1 m ρ c main_arg9 (by decide)).trans ((W2_of_ne m ρ c main_arg9 (by decide)).trans (keep0 m ρ c main_arg9 (by decide)))))))))))))
theorem arg10_12 : V12 m ρ c main_arg10 = m ((c : Thread nD τ).loc main_arg10) :=
  ((W12_of_ne m ρ c main_arg10 (by decide)).trans ((keep5 m ρ c main_arg10 (by decide)).trans ((W10_of_ne m ρ c main_arg10 (by decide)).trans ((keep4 m ρ c main_arg10 (by decide)).trans ((W8_of_ne m ρ c main_arg10 (by decide)).trans ((keep3 m ρ c main_arg10 (by decide)).trans ((W6_of_ne m ρ c main_arg10 (by decide)).trans ((keep2 m ρ c main_arg10 (by decide)).trans ((W4_of_ne m ρ c main_arg10 (by decide)).trans ((keep1 m ρ c main_arg10 (by decide)).trans ((W2_of_ne m ρ c main_arg10 (by decide)).trans (keep0 m ρ c main_arg10 (by decide)))))))))))))
theorem arg11_13 : V13 m ρ c main_arg11 = m ((c : Thread nD τ).loc main_arg11) :=
  ((W13_of_ne m ρ c main_arg11 (by decide)).trans ((W12_of_ne m ρ c main_arg11 (by decide)).trans ((keep5 m ρ c main_arg11 (by decide)).trans ((W10_of_ne m ρ c main_arg11 (by decide)).trans ((keep4 m ρ c main_arg11 (by decide)).trans ((W8_of_ne m ρ c main_arg11 (by decide)).trans ((keep3 m ρ c main_arg11 (by decide)).trans ((W6_of_ne m ρ c main_arg11 (by decide)).trans ((keep2 m ρ c main_arg11 (by decide)).trans ((W4_of_ne m ρ c main_arg11 (by decide)).trans ((keep1 m ρ c main_arg11 (by decide)).trans ((W2_of_ne m ρ c main_arg11 (by decide)).trans (keep0 m ρ c main_arg11 (by decide))))))))))))))
theorem arg12_13 : V13 m ρ c main_arg12 = m ((c : Thread nD τ).loc main_arg12) :=
  ((W13_of_ne m ρ c main_arg12 (by decide)).trans ((W12_of_ne m ρ c main_arg12 (by decide)).trans ((keep5 m ρ c main_arg12 (by decide)).trans ((W10_of_ne m ρ c main_arg12 (by decide)).trans ((keep4 m ρ c main_arg12 (by decide)).trans ((W8_of_ne m ρ c main_arg12 (by decide)).trans ((keep3 m ρ c main_arg12 (by decide)).trans ((W6_of_ne m ρ c main_arg12 (by decide)).trans ((keep2 m ρ c main_arg12 (by decide)).trans ((W4_of_ne m ρ c main_arg12 (by decide)).trans ((keep1 m ρ c main_arg12 (by decide)).trans ((W2_of_ne m ρ c main_arg12 (by decide)).trans (keep0 m ρ c main_arg12 (by decide))))))))))))))

/-! ## The edge data, as each message-passing stretch finds them -/

theorem src_2 : W2 m ρ c (Proc.devRef .tc main_v1) = srcOf (F := Ideal) (m ((c : Thread nD τ).loc main_arg1)) :=
  (W2_of_ne m ρ c main_v1 (by decide)).trans (src_1 m ρ c)
theorem dst_2 : W2 m ρ c (Proc.devRef .tc main_v3) = dstOf (F := Ideal) (m ((c : Thread nD τ).loc main_arg1)) :=
  (W2_of_ne m ρ c main_v3 (by decide)).trans (dst_1 m ρ c)
theorem norm_2 : W2 m ρ c (Proc.devRef .tc main_v26) = normOf (F := Ideal) (m ((c : Thread nD τ).loc main_arg1)) :=
  (W2_of_ne m ρ c main_v26 (by decide)).trans (norm_1 m ρ c)
theorem dinv2_2 : W2 m ρ c (Proc.devRef .tc main_v11) = dinv2Of (F := Ideal) (m ((c : Thread nD τ).loc main_arg1)) :=
  (W2_of_ne m ρ c main_v11 (by decide)).trans (dinv2_1 m ρ c)
theorem src_6 : W6 m ρ c (Proc.devRef .tc main_v1) = srcOf (F := Ideal) (m ((c : Thread nD τ).loc main_arg1)) :=
  ((W6_of_ne m ρ c main_v1 (by decide)).trans ((keep2 m ρ c main_v1 (by decide)).trans ((W4_of_ne m ρ c main_v1 (by decide)).trans ((keep1 m ρ c main_v1 (by decide)).trans (W2_of_ne m ρ c main_v1 (by decide)))))).trans (src_1 m ρ c)
theorem dst_6 : W6 m ρ c (Proc.devRef .tc main_v3) = dstOf (F := Ideal) (m ((c : Thread nD τ).loc main_arg1)) :=
  ((W6_of_ne m ρ c main_v3 (by decide)).trans ((keep2 m ρ c main_v3 (by decide)).trans ((W4_of_ne m ρ c main_v3 (by decide)).trans ((keep1 m ρ c main_v3 (by decide)).trans (W2_of_ne m ρ c main_v3 (by decide)))))).trans (dst_1 m ρ c)
theorem norm_6 : W6 m ρ c (Proc.devRef .tc main_v26) = normOf (F := Ideal) (m ((c : Thread nD τ).loc main_arg1)) :=
  ((W6_of_ne m ρ c main_v26 (by decide)).trans ((keep2 m ρ c main_v26 (by decide)).trans ((W4_of_ne m ρ c main_v26 (by decide)).trans ((keep1 m ρ c main_v26 (by decide)).trans (W2_of_ne m ρ c main_v26 (by decide)))))).trans (norm_1 m ρ c)
theorem dinv2_6 : W6 m ρ c (Proc.devRef .tc main_v11) = dinv2Of (F := Ideal) (m ((c : Thread nD τ).loc main_arg1)) :=
  ((W6_of_ne m ρ c main_v11 (by decide)).trans ((keep2 m ρ c main_v11 (by decide)).trans ((W4_of_ne m ρ c main_v11 (by decide)).trans ((keep1 m ρ c main_v11 (by decide)).trans (W2_of_ne m ρ c main_v11 (by decide)))))).trans (dinv2_1 m ρ c)
theorem src_10 : W10 m ρ c (Proc.devRef .tc main_v1) = srcOf (F := Ideal) (m ((c : Thread nD τ).loc main_arg1)) :=
  ((W10_of_ne m ρ c main_v1 (by decide)).trans ((keep4 m ρ c main_v1 (by decide)).trans ((W8_of_ne m ρ c main_v1 (by decide)).trans ((keep3 m ρ c main_v1 (by decide)).trans ((W6_of_ne m ρ c main_v1 (by decide)).trans ((keep2 m ρ c main_v1 (by decide)).trans ((W4_of_ne m ρ c main_v1 (by decide)).trans ((keep1 m ρ c main_v1 (by decide)).trans (W2_of_ne m ρ c main_v1 (by decide)))))))))).trans (src_1 m ρ c)
theorem dst_10 : W10 m ρ c (Proc.devRef .tc main_v3) = dstOf (F := Ideal) (m ((c : Thread nD τ).loc main_arg1)) :=
  ((W10_of_ne m ρ c main_v3 (by decide)).trans ((keep4 m ρ c main_v3 (by decide)).trans ((W8_of_ne m ρ c main_v3 (by decide)).trans ((keep3 m ρ c main_v3 (by decide)).trans ((W6_of_ne m ρ c main_v3 (by decide)).trans ((keep2 m ρ c main_v3 (by decide)).trans ((W4_of_ne m ρ c main_v3 (by decide)).trans ((keep1 m ρ c main_v3 (by decide)).trans (W2_of_ne m ρ c main_v3 (by decide)))))))))).trans (dst_1 m ρ c)
theorem norm_10 : W10 m ρ c (Proc.devRef .tc main_v26) = normOf (F := Ideal) (m ((c : Thread nD τ).loc main_arg1)) :=
  ((W10_of_ne m ρ c main_v26 (by decide)).trans ((keep4 m ρ c main_v26 (by decide)).trans ((W8_of_ne m ρ c main_v26 (by decide)).trans ((keep3 m ρ c main_v26 (by decide)).trans ((W6_of_ne m ρ c main_v26 (by decide)).trans ((keep2 m ρ c main_v26 (by decide)).trans ((W4_of_ne m ρ c main_v26 (by decide)).trans ((keep1 m ρ c main_v26 (by decide)).trans (W2_of_ne m ρ c main_v26 (by decide)))))))))).trans (norm_1 m ρ c)
theorem dinv2_10 : W10 m ρ c (Proc.devRef .tc main_v11) = dinv2Of (F := Ideal) (m ((c : Thread nD τ).loc main_arg1)) :=
  ((W10_of_ne m ρ c main_v11 (by decide)).trans ((keep4 m ρ c main_v11 (by decide)).trans ((W8_of_ne m ρ c main_v11 (by decide)).trans ((keep3 m ρ c main_v11 (by decide)).trans ((W6_of_ne m ρ c main_v11 (by decide)).trans ((keep2 m ρ c main_v11 (by decide)).trans ((W4_of_ne m ρ c main_v11 (by decide)).trans ((keep1 m ρ c main_v11 (by decide)).trans (W2_of_ne m ρ c main_v11 (by decide)))))))))).trans (dinv2_1 m ρ c)

/-! ## The layers, boundary by boundary -/

/-- Region 0: the first matrix product. -/
theorem h1 : W2 m ρ c (Proc.devRef .tc main_v28) = affine (m ((c : Thread nD τ).loc main_arg0)) (m ((c : Thread nD τ).loc main_arg3)) (zeroBias 32) :=
  (W2_arr m ρ c 3).trans ((Dense0.final (V1 m ρ) c).trans (by rw [arg0_1 m ρ c, arg3_1 m ρ c, zero_1 m ρ c]))
/-- Host stretch 1 leaves the aggregate of the features it finds. -/
theorem agg_3 : V3 m ρ c main_v45 = aggregate (F := Ideal) (W2 m ρ c (Proc.devRef .tc main_v28)) (m ((c : Thread nD τ).loc main_arg1)) := by
  have e : V3 m ρ c main_v45 = aggregateOf (F := Ideal) (W2 m ρ c (Proc.devRef .tc main_v28)) (W2 m ρ c (Proc.devRef .tc main_v1)) (W2 m ρ c (Proc.devRef .tc main_v3))
      (W2 m ρ c (Proc.devRef .tc main_v26)) (W2 m ρ c (Proc.devRef .tc main_v11)) := by
    show StableHlo.after hostOps1 (W2 m ρ c) (Proc.devRef .tc main_v45) = _
    after_results_simp <;> rfl
  rw [e, src_2 m ρ c, dst_2 m ρ c, norm_2 m ρ c, dinv2_2 m ρ c]
  rfl

/-- Region 1: bias and relu. -/
theorem x1 : W4 m ρ c (Proc.devRef .tc main_v46) = biasRelu (aggregate (F := Ideal) (W2 m ρ c (Proc.devRef .tc main_v28)) (m ((c : Thread nD τ).loc main_arg1))) (m ((c : Thread nD τ).loc main_arg4)) :=
  (W4_arr m ρ c 2).trans ((BiasRelu1.final (V3 m ρ) c).trans (by rw [agg_3 m ρ c, arg4_3 m ρ c]))
/-- Region 2: the second matrix product. -/
theorem h2 : W6 m ρ c (Proc.devRef .tc main_v48) = affine (W4 m ρ c (Proc.devRef .tc main_v46)) (m ((c : Thread nD τ).loc main_arg5)) (zeroBias 32) :=
  (W6_arr m ρ c 3).trans ((Dense2.final (V5 m ρ) c).trans (by
    rw [show V5 m ρ c main_v46 = W4 m ρ c (Proc.devRef .tc main_v46) from (keep2 m ρ c main_v46 (by decide)), arg5_5 m ρ c, zero_5 m ρ c]))
/-- Host stretch 3 leaves the aggregate of the features it finds. -/
theorem agg_7 : V7 m ρ c main_v65 = aggregate (F := Ideal) (W6 m ρ c (Proc.devRef .tc main_v48)) (m ((c : Thread nD τ).loc main_arg1)) := by
  have e : V7 m ρ c main_v65 = aggregateOf (F := Ideal) (W6 m ρ c (Proc.devRef .tc main_v48)) (W6 m ρ c (Proc.devRef .tc main_v1)) (W6 m ρ c (Proc.devRef .tc main_v3))
      (W6 m ρ c (Proc.devRef .tc main_v26)) (W6 m ρ c (Proc.devRef .tc main_v11)) := by
    show StableHlo.after hostOps3 (W6 m ρ c) (Proc.devRef .tc main_v65) = _
    after_results_simp <;> rfl
  rw [e, src_6 m ρ c, dst_6 m ρ c, norm_6 m ρ c, dinv2_6 m ρ c]
  rfl

/-- Region 3: bias and relu. -/
theorem x2 : W8 m ρ c (Proc.devRef .tc main_v66) = biasRelu (aggregate (F := Ideal) (W6 m ρ c (Proc.devRef .tc main_v48)) (m ((c : Thread nD τ).loc main_arg1))) (m ((c : Thread nD τ).loc main_arg6)) :=
  (W8_arr m ρ c 2).trans ((BiasRelu3.final (V7 m ρ) c).trans (by rw [agg_7 m ρ c, arg6_7 m ρ c]))
/-- Region 4: the third matrix product. -/
theorem h3 : W10 m ρ c (Proc.devRef .tc main_v68) = affine (W8 m ρ c (Proc.devRef .tc main_v66)) (m ((c : Thread nD τ).loc main_arg7)) (zeroBias 32) :=
  (W10_arr m ρ c 3).trans ((Dense4.final (V9 m ρ) c).trans (by
    rw [show V9 m ρ c main_v66 = W8 m ρ c (Proc.devRef .tc main_v66) from (keep4 m ρ c main_v66 (by decide)), arg7_9 m ρ c, zero_9 m ρ c]))
/-- Host stretch 5 leaves the aggregate of the features it finds. -/
theorem agg_11 : V11 m ρ c main_v85 = aggregate (F := Ideal) (W10 m ρ c (Proc.devRef .tc main_v68)) (m ((c : Thread nD τ).loc main_arg1)) := by
  have e : V11 m ρ c main_v85 = aggregateOf (F := Ideal) (W10 m ρ c (Proc.devRef .tc main_v68)) (W10 m ρ c (Proc.devRef .tc main_v1)) (W10 m ρ c (Proc.devRef .tc main_v3))
      (W10 m ρ c (Proc.devRef .tc main_v26)) (W10 m ρ c (Proc.devRef .tc main_v11)) := by
    show StableHlo.after hostOps5 (W10 m ρ c) (Proc.devRef .tc main_v85) = _
    after_results_simp <;> rfl
  rw [e, src_10 m ρ c, dst_10 m ρ c, norm_10 m ρ c, dinv2_10 m ρ c]
  rfl

/-- Region 5: bias and relu. -/
theorem x3 : W12 m ρ c (Proc.devRef .tc main_v86) = biasRelu (aggregate (F := Ideal) (W10 m ρ c (Proc.devRef .tc main_v68)) (m ((c : Thread nD τ).loc main_arg1))) (m ((c : Thread nD τ).loc main_arg8)) :=
  (W12_arr m ρ c 2).trans ((BiasRelu5.final (V11 m ρ) c).trans (by rw [agg_11 m ρ c, arg8_11 m ρ c]))
/-- Region 6: the dense layer with relu. -/
theorem y1 : W13 m ρ c (Proc.devRef .tc main_v87) = affineRelu (W12 m ρ c (Proc.devRef .tc main_v86)) (m ((c : Thread nD τ).loc main_arg9)) (m ((c : Thread nD τ).loc main_arg10)) :=
  (W13_arr m ρ c 3).trans ((Dense6.final (V12 m ρ) c).trans (by rw [arg9_12 m ρ c, arg10_12 m ρ c]))
/-- Region 7: the last dense layer. -/
theorem y2 : W14 m ρ c (Proc.devRef .tc main_v88) = affine (W13 m ρ c (Proc.devRef .tc main_v87)) (m ((c : Thread nD τ).loc main_arg11)) (m ((c : Thread nD τ).loc main_arg12)) :=
  (W14_arr m ρ c 3).trans ((Dense7.final (V13 m ρ) c).trans (by rw [arg11_13 m ρ c, arg12_13 m ρ c]))

/-- The result buffer's last contents: the network of the launch arguments. -/
theorem result : W14 m ρ c (Proc.devRef .tc main_v88) = network (m ((c : Thread nD τ).loc main_arg0)) (m ((c : Thread nD τ).loc main_arg1)) (m ((c : Thread nD τ).loc main_arg3)) (m ((c : Thread nD τ).loc main_arg4))
    (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
    (m ((c : Thread nD τ).loc main_arg11)) (m ((c : Thread nD τ).loc main_arg12)) := by
  rw [y2 m ρ c, y1 m ρ c, x3 m ρ c, h3 m ρ c, x2 m ρ c, h2 m ρ c, x1 m ρ c, h1 m ρ c]
  rfl

end Cert.KernelIdeal.KValue

end
-- ==== Proof.RefValue.lean ====
/-
  The reference program, stage by stage, as the layers of the specification.

  The reference computes, three times, a matrix product, the message-passing stage, a bias and `relu`; then a dense
  layer with `relu` and a last dense layer. Each stage is read at an entry `(p, q)`: a matrix product is the sum over
  the contracted axis, a broadcast bias is the bias at `q`, `relu` is the maximum with zero. The message-passing stage is
  not opened: it is the same term as the specification's.
-/
import proofs.«182054_j13451837571225_1_alg».proof.Proof.Gen.ReferenceIdeal.Read
import proofs.«182054_j13451837571225_1_alg».proof.Proof.Spec
import proofs.«182054_j13451837571225_1_alg».proof.Proof.Aggregate
import proofs.«182054_j13451837571225_1_alg».proof.Proof.Network
import Idealize.ShloMosaic.Lib.ValueIdx
import Idealize.ShloMosaic.PureOps.Ideal.Laws

set_option maxRecDepth 16384

noncomputable section

namespace Cert.ReferenceIdeal.RefValue

open Cert.ReferenceIdeal Cert.ReferenceIdeal.Gen Cert.ReferenceIdeal.Read Cert.Gcn
open Idealize.ShloMosaic Idealize.ShloMosaic.ValueIdx

/-- Stage `v4`: the matrix product of the previous stage with a weight is the dense layer with zero bias. -/
theorem dense1 (x0 : (⟨S100000x512, .f32⟩ : BufTy).Contents (Elt Ideal)) (x3 : (⟨S512x32, .f32⟩ : BufTy).Contents (Elt Ideal)) :
    val_main_v4 (F := Ideal) x0 x3 = affine (x0) x3 (zeroBias 32) := by
  funext i
  obtain ⟨p, q, rfl⟩ : ∃ (p : Fin 100000) (q : Fin 32), i = ix2 p q := ⟨i 0, i 1, eq_ix2 i⟩
  rw [val_main_v4_apply, affine_zeroBias_ix2]
  refine Finset.sum_congr rfl fun k _ => ?_
  have el : lidx_main_v4 (ix2 p q) k = ix2 p k := funext fun a => Fin.ext (by match a with | ⟨0, _⟩ => rfl | ⟨1, _⟩ => rfl)
  have er : ridx_main_v4 (ix2 p q) k = ix2 k q := funext fun a => Fin.ext (by match a with | ⟨0, _⟩ => rfl | ⟨1, _⟩ => rfl)
  rw [el, er]

/-- Stage `v44`: the message-passing stage of the previous stage's features — the same operations in the same order. -/
theorem agg1 (x0 : (⟨S100000x512, .f32⟩ : BufTy).Contents (Elt Ideal)) (x1 : (⟨S2x3200000, .i32⟩ : BufTy).Contents (Elt Ideal)) (x3 : (⟨S512x32, .f32⟩ : BufTy).Contents (Elt Ideal)) :
    val_main_v44 (F := Ideal) x0 x1 x3 = aggregate (val_main_v4 (F := Ideal) x0 x3) x1 := rfl

/-- Stage `v48`: the bias broadcast over the rows, added, and `relu`. -/
theorem relu1 (x0 : (⟨S100000x512, .f32⟩ : BufTy).Contents (Elt Ideal)) (x1 : (⟨S2x3200000, .i32⟩ : BufTy).Contents (Elt Ideal)) (x3 : (⟨S512x32, .f32⟩ : BufTy).Contents (Elt Ideal)) (x4 : (⟨S32, .f32⟩ : BufTy).Contents (Elt Ideal)) :
    val_main_v48 (F := Ideal) x0 x1 x3 x4 = biasRelu (val_main_v44 (F := Ideal) x0 x1 x3) x4 := by
  funext i
  obtain ⟨p, q, rfl⟩ : ∃ (p : Fin 100000) (q : Fin 32), i = ix2 p q := ⟨i 0, i 1, eq_ix2 i⟩
  rw [val_main_v48_apply, val_main_v47_apply, val_main_v46_apply, val_main_v45_apply, val_main_call0_v0_apply,
    val_main_call0_cst_apply, biasRelu_ix2]
  have eb : idx_main_v45 (idx_main_v46 (ix2 p q)) = ix1 q := funext fun a => Fin.ext (by match a with | ⟨0, _⟩ => rfl)
  rw [eb]
  exact congrArg₂ max rfl Ideal.ofBits_zero_f32

/-- Stage `v49`: the matrix product of the previous stage with a weight is the dense layer with zero bias. -/
theorem dense2 (x0 : (⟨S100000x512, .f32⟩ : BufTy).Contents (Elt Ideal)) (x1 : (⟨S2x3200000, .i32⟩ : BufTy).Contents (Elt Ideal)) (x3 : (⟨S512x32, .f32⟩ : BufTy).Contents (Elt Ideal)) (x4 : (⟨S32, .f32⟩ : BufTy).Contents (Elt Ideal)) (x5 : (⟨S32x32, .f32⟩ : BufTy).Contents (Elt Ideal)) :
    val_main_v49 (F := Ideal) x0 x1 x3 x4 x5 = affine (val_main_v48 (F := Ideal) x0 x1 x3 x4) x5 (zeroBias 32) := by
  funext i
  obtain ⟨p, q, rfl⟩ : ∃ (p : Fin 100000) (q : Fin 32), i = ix2 p q := ⟨i 0, i 1, eq_ix2 i⟩
  rw [val_main_v49_apply, affine_zeroBias_ix2]
  refine Finset.sum_congr rfl fun k _ => ?_
  have el : lidx_main_v49 (ix2 p q) k = ix2 p k := funext fun a => Fin.ext (by match a with | ⟨0, _⟩ => rfl | ⟨1, _⟩ => rfl)
  have er : ridx_main_v49 (ix2 p q) k = ix2 k q := funext fun a => Fin.ext (by match a with | ⟨0, _⟩ => rfl | ⟨1, _⟩ => rfl)
  rw [el, er]

/-- Stage `v89`: the message-passing stage of the previous stage's features — the same operations in the same order. -/
theorem agg2 (x0 : (⟨S100000x512, .f32⟩ : BufTy).Contents (Elt Ideal)) (x1 : (⟨S2x3200000, .i32⟩ : BufTy).Contents (Elt Ideal)) (x3 : (⟨S512x32, .f32⟩ : BufTy).Contents (Elt Ideal)) (x4 : (⟨S32, .f32⟩ : BufTy).Contents (Elt Ideal)) (x5 : (⟨S32x32, .f32⟩ : BufTy).Contents (Elt Ideal)) :
    val_main_v89 (F := Ideal) x0 x1 x3 x4 x5 = aggregate (val_main_v49 (F := Ideal) x0 x1 x3 x4 x5) x1 := rfl

/-- Stage `v93`: the bias broadcast over the rows, added, and `relu`. -/
theorem relu2 (x0 : (⟨S100000x512, .f32⟩ : BufTy).Contents (Elt Ideal)) (x1 : (⟨S2x3200000, .i32⟩ : BufTy).Contents (Elt Ideal)) (x3 : (⟨S512x32, .f32⟩ : BufTy).Contents (Elt Ideal)) (x4 : (⟨S32, .f32⟩ : BufTy).Contents (Elt Ideal)) (x5 : (⟨S32x32, .f32⟩ : BufTy).Contents (Elt Ideal)) (x6 : (⟨S32, .f32⟩ : BufTy).Contents (Elt Ideal)) :
    val_main_v93 (F := Ideal) x0 x1 x3 x4 x5 x6 = biasRelu (val_main_v89 (F := Ideal) x0 x1 x3 x4 x5) x6 := by
  funext i
  obtain ⟨p, q, rfl⟩ : ∃ (p : Fin 100000) (q : Fin 32), i = ix2 p q := ⟨i 0, i 1, eq_ix2 i⟩
  rw [val_main_v93_apply, val_main_v92_apply, val_main_v91_apply, val_main_v90_apply, val_main_call1_v0_apply,
    val_main_call1_cst_apply, biasRelu_ix2]
  have eb : idx_main_v90 (idx_main_v91 (ix2 p q)) = ix1 q := funext fun a => Fin.ext (by match a with | ⟨0, _⟩ => rfl)
  rw [eb]
  exact congrArg₂ max rfl Ideal.ofBits_zero_f32

/-- Stage `v94`: the matrix product of the previous stage with a weight is the dense layer with zero bias. -/
theorem dense3 (x0 : (⟨S100000x512, .f32⟩ : BufTy).Contents (Elt Ideal)) (x1 : (⟨S2x3200000, .i32⟩ : BufTy).Contents (Elt Ideal)) (x3 : (⟨S512x32, .f32⟩ : BufTy).Contents (Elt Ideal)) (x4 : (⟨S32, .f32⟩ : BufTy).Contents (Elt Ideal)) (x5 : (⟨S32x32, .f32⟩ : BufTy).Contents (Elt Ideal)) (x6 : (⟨S32, .f32⟩ : BufTy).Contents (Elt Ideal)) (x7 : (⟨S32x32, .f32⟩ : BufTy).Contents (Elt Ideal)) :
    val_main_v94 (F := Ideal) x0 x1 x3 x4 x5 x6 x7 = affine (val_main_v93 (F := Ideal) x0 x1 x3 x4 x5 x6) x7 (zeroBias 32) := by
  funext i
  obtain ⟨p, q, rfl⟩ : ∃ (p : Fin 100000) (q : Fin 32), i = ix2 p q := ⟨i 0, i 1, eq_ix2 i⟩
  rw [val_main_v94_apply, affine_zeroBias_ix2]
  refine Finset.sum_congr rfl fun k _ => ?_
  have el : lidx_main_v94 (ix2 p q) k = ix2 p k := funext fun a => Fin.ext (by match a with | ⟨0, _⟩ => rfl | ⟨1, _⟩ => rfl)
  have er : ridx_main_v94 (ix2 p q) k = ix2 k q := funext fun a => Fin.ext (by match a with | ⟨0, _⟩ => rfl | ⟨1, _⟩ => rfl)
  rw [el, er]

/-- Stage `v134`: the message-passing stage of the previous stage's features — the same operations in the same order. -/
theorem agg3 (x0 : (⟨S100000x512, .f32⟩ : BufTy).Contents (Elt Ideal)) (x1 : (⟨S2x3200000, .i32⟩ : BufTy).Contents (Elt Ideal)) (x3 : (⟨S512x32, .f32⟩ : BufTy).Contents (Elt Ideal)) (x4 : (⟨S32, .f32⟩ : BufTy).Contents (Elt Ideal)) (x5 : (⟨S32x32, .f32⟩ : BufTy).Contents (Elt Ideal)) (x6 : (⟨S32, .f32⟩ : BufTy).Contents (Elt Ideal)) (x7 : (⟨S32x32, .f32⟩ : BufTy).Contents (Elt Ideal)) :
    val_main_v134 (F := Ideal) x0 x1 x3 x4 x5 x6 x7 = aggregate (val_main_v94 (F := Ideal) x0 x1 x3 x4 x5 x6 x7) x1 := rfl

/-- Stage `v138`: the bias broadcast over the rows, added, and `relu`. -/
theorem relu3 (x0 : (⟨S100000x512, .f32⟩ : BufTy).Contents (Elt Ideal)) (x1 : (⟨S2x3200000, .i32⟩ : BufTy).Contents (Elt Ideal)) (x3 : (⟨S512x32, .f32⟩ : BufTy).Contents (Elt Ideal)) (x4 : (⟨S32, .f32⟩ : BufTy).Contents (Elt Ideal)) (x5 : (⟨S32x32, .f32⟩ : BufTy).Contents (Elt Ideal)) (x6 : (⟨S32, .f32⟩ : BufTy).Contents (Elt Ideal)) (x7 : (⟨S32x32, .f32⟩ : BufTy).Contents (Elt Ideal)) (x8 : (⟨S32, .f32⟩ : BufTy).Contents (Elt Ideal)) :
    val_main_v138 (F := Ideal) x0 x1 x3 x4 x5 x6 x7 x8 = biasRelu (val_main_v134 (F := Ideal) x0 x1 x3 x4 x5 x6 x7) x8 := by
  funext i
  obtain ⟨p, q, rfl⟩ : ∃ (p : Fin 100000) (q : Fin 32), i = ix2 p q := ⟨i 0, i 1, eq_ix2 i⟩
  rw [val_main_v138_apply, val_main_v137_apply, val_main_v136_apply, val_main_v135_apply, val_main_call2_v0_apply,
    val_main_call2_cst_apply, biasRelu_ix2]
  have eb : idx_main_v135 (idx_main_v136 (ix2 p q)) = ix1 q := funext fun a => Fin.ext (by match a with | ⟨0, _⟩ => rfl)
  rw [eb]
  exact congrArg₂ max rfl Ideal.ofBits_zero_f32

/-- Stage `v143`: a dense layer with its bias and `relu`. -/
theorem lin1 (x0 : (⟨S100000x512, .f32⟩ : BufTy).Contents (Elt Ideal)) (x1 : (⟨S2x3200000, .i32⟩ : BufTy).Contents (Elt Ideal)) (x3 : (⟨S512x32, .f32⟩ : BufTy).Contents (Elt Ideal)) (x4 : (⟨S32, .f32⟩ : BufTy).Contents (Elt Ideal)) (x5 : (⟨S32x32, .f32⟩ : BufTy).Contents (Elt Ideal)) (x6 : (⟨S32, .f32⟩ : BufTy).Contents (Elt Ideal)) (x7 : (⟨S32x32, .f32⟩ : BufTy).Contents (Elt Ideal)) (x8 : (⟨S32, .f32⟩ : BufTy).Contents (Elt Ideal)) (x9 : (⟨S32x16, .f32⟩ : BufTy).Contents (Elt Ideal)) (x10 : (⟨S16, .f32⟩ : BufTy).Contents (Elt Ideal)) :
    val_main_v143 (F := Ideal) x0 x1 x3 x4 x5 x6 x7 x8 x9 x10 = affineRelu (val_main_v138 (F := Ideal) x0 x1 x3 x4 x5 x6 x7 x8) x9 x10 := by
  funext i
  obtain ⟨p, q, rfl⟩ : ∃ (p : Fin 100000) (q : Fin 16), i = ix2 p q := ⟨i 0, i 1, eq_ix2 i⟩
  rw [val_main_v143_apply, val_main_v142_apply, val_main_v139_apply, val_main_v141_apply, val_main_v140_apply, val_main_call3_v0_apply,
    val_main_call3_cst_apply, affineRelu_ix2]
  have eb : idx_main_v140 (idx_main_v141 (ix2 p q)) = ix1 q := funext fun a => Fin.ext (by match a with | ⟨0, _⟩ => rfl)
  rw [eb]
  refine congrArg₂ max (congrArg₂ (· + ·) (Finset.sum_congr rfl fun k _ => ?_) rfl) Ideal.ofBits_zero_f32
  have el : lidx_main_v139 (ix2 p q) k = ix2 p k := funext fun a => Fin.ext (by match a with | ⟨0, _⟩ => rfl | ⟨1, _⟩ => rfl)
  have er : ridx_main_v139 (ix2 p q) k = ix2 k q := funext fun a => Fin.ext (by match a with | ⟨0, _⟩ => rfl | ⟨1, _⟩ => rfl)
  rw [el, er]

/-- Stage `v147`, the result: the last dense layer with its bias. -/
theorem lin2 (x0 : (⟨S100000x512, .f32⟩ : BufTy).Contents (Elt Ideal)) (x1 : (⟨S2x3200000, .i32⟩ : BufTy).Contents (Elt Ideal)) (x3 : (⟨S512x32, .f32⟩ : BufTy).Contents (Elt Ideal)) (x4 : (⟨S32, .f32⟩ : BufTy).Contents (Elt Ideal)) (x5 : (⟨S32x32, .f32⟩ : BufTy).Contents (Elt Ideal)) (x6 : (⟨S32, .f32⟩ : BufTy).Contents (Elt Ideal)) (x7 : (⟨S32x32, .f32⟩ : BufTy).Contents (Elt Ideal)) (x8 : (⟨S32, .f32⟩ : BufTy).Contents (Elt Ideal)) (x9 : (⟨S32x16, .f32⟩ : BufTy).Contents (Elt Ideal)) (x10 : (⟨S16, .f32⟩ : BufTy).Contents (Elt Ideal)) (x11 : (⟨S16x10, .f32⟩ : BufTy).Contents (Elt Ideal)) (x12 : (⟨S10, .f32⟩ : BufTy).Contents (Elt Ideal)) :
    val_main_v147 (F := Ideal) x0 x1 x3 x4 x5 x6 x7 x8 x9 x10 x11 x12 = affine (val_main_v143 (F := Ideal) x0 x1 x3 x4 x5 x6 x7 x8 x9 x10) x11 x12 := by
  funext i
  obtain ⟨p, q, rfl⟩ : ∃ (p : Fin 100000) (q : Fin 10), i = ix2 p q := ⟨i 0, i 1, eq_ix2 i⟩
  rw [val_main_v147_apply, val_main_v144_apply, val_main_v146_apply, val_main_v145_apply, affine_ix2]
  have eb : idx_main_v145 (idx_main_v146 (ix2 p q)) = ix1 q := funext fun a => Fin.ext (by match a with | ⟨0, _⟩ => rfl)
  rw [eb]
  refine congrArg₂ (· + ·) (Finset.sum_congr rfl fun k _ => ?_) rfl
  have el : lidx_main_v144 (ix2 p q) k = ix2 p k := funext fun a => Fin.ext (by match a with | ⟨0, _⟩ => rfl | ⟨1, _⟩ => rfl)
  have er : ridx_main_v144 (ix2 p q) k = ix2 k q := funext fun a => Fin.ext (by match a with | ⟨0, _⟩ => rfl | ⟨1, _⟩ => rfl)
  rw [el, er]

/-- The reference's result is the network of its arguments. -/
theorem result_eq (x0 : (⟨S100000x512, .f32⟩ : BufTy).Contents (Elt Ideal)) (x1 : (⟨S2x3200000, .i32⟩ : BufTy).Contents (Elt Ideal)) (x3 : (⟨S512x32, .f32⟩ : BufTy).Contents (Elt Ideal)) (x4 : (⟨S32, .f32⟩ : BufTy).Contents (Elt Ideal)) (x5 : (⟨S32x32, .f32⟩ : BufTy).Contents (Elt Ideal)) (x6 : (⟨S32, .f32⟩ : BufTy).Contents (Elt Ideal)) (x7 : (⟨S32x32, .f32⟩ : BufTy).Contents (Elt Ideal)) (x8 : (⟨S32, .f32⟩ : BufTy).Contents (Elt Ideal)) (x9 : (⟨S32x16, .f32⟩ : BufTy).Contents (Elt Ideal)) (x10 : (⟨S16, .f32⟩ : BufTy).Contents (Elt Ideal)) (x11 : (⟨S16x10, .f32⟩ : BufTy).Contents (Elt Ideal)) (x12 : (⟨S10, .f32⟩ : BufTy).Contents (Elt Ideal)) :
    val_main_v147 (F := Ideal) x0 x1 x3 x4 x5 x6 x7 x8 x9 x10 x11 x12 = network x0 x1 x3 x4 x5 x6 x7 x8 x9 x10 x11 x12 := by
  rw [lin2, lin1, relu3, agg3, dense3, relu2, agg2, dense2, relu1, agg1, dense1]
  rfl

end Cert.ReferenceIdeal.RefValue

end
-- ==== Proof.lean ====
/-
  The certificate: the kernel's program and the reference compute the same network on the extended reals.

  Both programs are three graph-convolution layers `relu (aggregate (x · W) + b)`, a dense layer with `relu` and a last
  dense layer. The kernel computes every matrix product and every bias-and-relu in a tiled region (row blocks; casts to
  bf16, which are the identity on extended reals; a zero bias added after the convolution layers' products, and
  `a + 0 = a`), and the message-passing stage between them with the reference's own operations. So the last region's
  output array and the reference's result are one function, `network`, of the arguments: no law is used that needs an
  entry to be finite, and the precondition is never opened. The ideal pass rewrote nothing, so `preserves` is `True`.
-/
import proofs.«182054_j13451837571225_1_alg».proof.Defs
import proofs.«182054_j13451837571225_1_alg».proof.Proof.Gen.Kernel
import proofs.«182054_j13451837571225_1_alg».proof.Proof.Gen.Kernel.Frame
import proofs.«182054_j13451837571225_1_alg».proof.Proof.Gen.KernelIdeal
import proofs.«182054_j13451837571225_1_alg».proof.Proof.Gen.KernelIdeal.Frame
import proofs.«182054_j13451837571225_1_alg».proof.Proof.Gen.ReferenceIdeal
import proofs.«182054_j13451837571225_1_alg».proof.Proof.Gen.ReferenceIdeal.Run
import proofs.«182054_j13451837571225_1_alg».proof.Proof.Gen.ReferenceIdeal.Read
import proofs.«182054_j13451837571225_1_alg».proof.Proof.Gen.Pre_finite_inputs
import proofs.«182054_j13451837571225_1_alg».proof.Proof.Network
import proofs.«182054_j13451837571225_1_alg».proof.Proof.KRun
import proofs.«182054_j13451837571225_1_alg».proof.Proof.KValue
import proofs.«182054_j13451837571225_1_alg».proof.Proof.RefValue
import Idealize.ShloMosaic.Adequacy
import Idealize.ShloMosaic.Init

set_option maxRecDepth 16384

noncomputable section

namespace Cert.Proof

open Idealize.ShloMosaic Idealize.SL.Sem Cert.Gcn

theorem frame_kernel : Cert.frame_Kernel := fun m ρ _ => Cert.Kernel.Gen.frame m ρ
theorem frame_kernelIdeal : Cert.frame_KernelIdeal := fun m ρ _ => Cert.KernelIdeal.Gen.frame m ρ
/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both programs end with the network of the arguments. -/
theorem algebraic : Cert.algebraic_KernelIdeal_ReferenceIdeal := by
  intro m ρ m' ρ' _ hagree
  refine ⟨fun c => network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · exact (θ_run (Cert.KernelIdeal.defs (F := Ideal)) _ _).mono
      (fun _ h c => ⟨(h c).1.trans (Cert.KernelIdeal.KValue.result m ρ c), (h c).2⟩) (Cert.KernelIdeal.RunValue.run (F := Ideal) m ρ)
  refine (θ_run Cert.ReferenceIdeal.defs _ _).mono (fun _ h c => ⟨(h c).1.trans ?_, (h c).2⟩) (Cert.ReferenceIdeal.Value.run (F := Ideal) m' ρ')
  obtain ⟨e0, e1, e2, e3, e4, e5, e6, e7, e8, e9, e10, e11, e12⟩ := hagree c
  rw [Cert.ReferenceIdeal.Read.val_main_v147_eq, Cert.ReferenceIdeal.RefValue.result_eq, e0, e1, e3, e4, e5, e6, e7, e8, e9, e10, e11, e12]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
